-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v83) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x1024 : Shape := ⟨2, ![2048, 1024]⟩
abbrev S2x65536 : Shape := ⟨2, ![2, 65536]⟩
abbrev S65536 : Shape := ⟨1, ![65536]⟩
abbrev S2048x128 : Shape := ⟨2, ![2048, 128]⟩
abbrev S128 : Shape := ⟨1, ![128]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  main_v88

def fn_part4 {F : FTy → Type} [FloatOps F] (main_arg16 : FVec F S1024x1024 .f32) (main_arg17 : FVec F S1024 .f32) (main_arg18 : FVec F S1024x1024 .f32) (main_arg19 : FVec F S1024 .f32) (main_v63 : IVec S_ 1) (main_v67 : IVec S_ 1) : IVec S_ 1 :=
  let main_v68 : IVec S_ 1 := andi main_v63 main_v67
  let main_v69 : FVec F S1024x1024 .f32 := Host.absf main_arg16
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024 .f32 := Host.absf main_arg17
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024x1024 .f32 := Host.absf main_arg18
  let main_cst_30 : FVec F S_ .f32 := constant S_ .f32 0x7F800000#32
  let main_v80 : FVec F S1024x1024 .f32 := broadcastInDim S1024x1024 ![] bcast_S_S1024x1024 main_cst_30
  let main_v81 : IVec S1024x1024 1 := cmpf .olt main_v79 main_v80
  let main_c_31 : IVec S_ 1 := constantI S_ 1 1#1
  let main_v82 : IVec S_ 1 := (fun x v => Host.reduce IntOp.andi x v reducesTo_S1024x1024_S_d0_1 h_S_) main_v81 main_c_31
  let main_v83 : IVec S_ 1 := andi main_v78 main_v82
  let main_v84 : FVec F S1024 .f32 := Host.absf main_arg19
  let main_cst_32 : FVec F S_ .f32 := constant S_ .f32 0x7F800000#32
  fn_part5 (F := F) main_v83 main_v84 main_cst_32

def fn_part3 {F : FTy → Type} [FloatOps F] (main_arg13 : FVec F S1024 .f32) (main_arg14 : FVec F S1024x1024 .f32) (main_arg15 : FVec F S1024 .f32) (main_arg16 : FVec F S1024x1024 .f32) (main_arg17 : FVec F S1024 .f32) (main_arg18 : FVec F S1024x1024 .f32) (main_arg19 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg13
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg14
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg15
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg16 main_arg17 main_arg18 main_arg19 main_v63 main_v67

def fn_part2 {F : FTy → Type} [FloatOps F] (main_arg9 : FVec F S128 .f32) (main_arg10 : FVec F S2048x128 .f32) (main_arg11 : FVec F S128 .f32) (main_arg12 : FVec F S1024x1024 .f32) (main_arg13 : FVec F S1024 .f32) (main_arg14 : FVec F S1024x1024 .f32) (main_arg15 : FVec F S1024 .f32) (main_arg16 : FVec F S1024x1024 .f32) (main_arg17 : FVec F S1024 .f32) (main_arg18 : FVec F S1024x1024 .f32) (main_arg19 : FVec F S1024 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S2048x128 .f32 := Host.absf main_arg10
  let main_cst_14 : FVec F S_ .f32 := constant S_ .f32 0x7F800000#32
  let main_v40 : FVec F S2048x128 .f32 := broadcastInDim S2048x128 ![] bcast_S_S2048x128 main_cst_14
  let main_v41 : IVec S2048x128 1 := cmpf .olt main_v39 main_v40
  let main_c_15 : IVec S_ 1 := constantI S_ 1 1#1
  let main_v42 : IVec S_ 1 := (fun x v => Host.reduce IntOp.andi x v reducesTo_S2048x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1024x1024 .f32 := Host.absf main_arg12
  let main_cst_18 : FVec F S_ .f32 := constant S_ .f32 0x7F800000#32
  let main_v50 : FVec F S1024x1024 .f32 := broadcastInDim S1024x1024 ![] bcast_S_S1024x1024 main_cst_18
  fn_part3 (F := F) main_arg13 main_arg14 main_arg15 main_arg16 main_arg17 main_arg18 main_arg19 main_v48 main_v49 main_v50

def fn_part1 {F : FTy → Type} [FloatOps F] (main_arg6 : FVec F S2048x128 .f32) (main_arg7 : FVec F S128 .f32) (main_arg8 : FVec F S2048x128 .f32) (main_arg9 : FVec F S128 .f32) (main_arg10 : FVec F S2048x128 .f32) (main_arg11 : FVec F S128 .f32) (main_arg12 : FVec F S1024x1024 .f32) (main_arg13 : FVec F S1024 .f32) (main_arg14 : FVec F S1024x1024 .f32) (main_arg15 : FVec F S1024 .f32) (main_arg16 : FVec F S1024x1024 .f32) (main_arg17 : FVec F S1024 .f32) (main_arg18 : FVec F S1024x1024 .f32) (main_arg19 : FVec F S1024 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2048x128 .f32 := Host.absf main_arg6
  let main_cst_6 : FVec F S_ .f32 := constant S_ .f32 0x7F800000#32
  let main_v20 : FVec F S2048x128 .f32 := broadcastInDim S2048x128 ![] bcast_S_S2048x128 main_cst_6
  let main_v21 : IVec S2048x128 1 := cmpf .olt main_v19 main_v20
  let main_c_7 : IVec S_ 1 := constantI S_ 1 1#1
  let main_v22 : IVec S_ 1 := (fun x v => Host.reduce IntOp.andi x v reducesTo_S2048x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2048x128 .f32 := Host.absf main_arg8
  let main_cst_10 : FVec F S_ .f32 := constant S_ .f32 0x7F800000#32
  let main_v30 : FVec F S2048x128 .f32 := broadcastInDim S2048x128 ![] bcast_S_S2048x128 main_cst_10
  let main_v31 : IVec S2048x128 1 := cmpf .olt main_v29 main_v30
  let main_c_11 : IVec S_ 1 := constantI S_ 1 1#1
  let main_v32 : IVec S_ 1 := (fun x v => Host.reduce IntOp.andi x v reducesTo_S2048x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S4096x1024 .f32) (main_arg1 : FVec F S2048x1024 .f32) (main_arg2 : IVec S2x65536 32) (main_arg3 : IVec S65536 32) (main_arg4 : FVec F S2048x128 .f32) (main_arg5 : FVec F S128 .f32) (main_arg6 : FVec F S2048x128 .f32) (main_arg7 : FVec F S128 .f32) (main_arg8 : FVec F S2048x128 .f32) (main_arg9 : FVec F S128 .f32) (main_arg10 : FVec F S2048x128 .f32) (main_arg11 : FVec F S128 .f32) (main_arg12 : FVec F S1024x1024 .f32) (main_arg13 : FVec F S1024 .f32) (main_arg14 : FVec F S1024x1024 .f32) (main_arg15 : FVec F S1024 .f32) (main_arg16 : FVec F S1024x1024 .f32) (main_arg17 : FVec F S1024 .f32) (main_arg18 : FVec F S1024x1024 .f32) (main_arg19 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x128 .f32 := Host.absf main_arg4
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S4096x1024 : Shape := ⟨2, ![4096, 1024]⟩
abbrev S2048x1024 : Shape := ⟨2, ![2048, 1024]⟩
abbrev S2x65536 : Shape := ⟨2, ![2, 65536]⟩
abbrev S65536 : Shape := ⟨1, ![65536]⟩
abbrev S2048x128 : Shape := ⟨2, ![2048, 128]⟩
abbrev S128 : Shape := ⟨1, ![128]⟩
abbrev S1024x1024 : Shape := ⟨2, ![1024, 1024]⟩
abbrev S1024 : Shape := ⟨1, ![1024]⟩
abbrev S1x65536 : Shape := ⟨2, ![1, 65536]⟩
abbrev S_ : Shape := ⟨0, ![]⟩
abbrev S65536x1 : Shape := ⟨2, ![65536, 1]⟩
abbrev S65536x1024 : Shape := ⟨2, ![65536, 1024]⟩
abbrev S1024x128 : Shape := ⟨2, ![1024, 128]⟩
abbrev S256x1024 : Shape := ⟨2, ![256, 1024]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S4096 : Shape := ⟨1, ![4096]⟩
abbrev S4096x1 : Shape := ⟨2, ![4096, 1]⟩
abbrev S2048 : Shape := ⟨1, ![2048]⟩
abbrev S2048x1 : Shape := ⟨2, ![2048, 1]⟩
abbrev S512x1024 : Shape := ⟨2, ![512, 1024]⟩
abbrev S1x1024 : Shape := ⟨2, ![1, 1024]⟩

abbrev nBuf : Space → Nat
  | .hbm => 129
  | .vmem => 50
  | .smem => 0
  | _ => 0

abbrev hbmTy0_0 (i : Nat) : BufTy := match i % 128 with
  | 0 => ⟨S4096x1024, .f32⟩
  | 1 => ⟨S2048x1024, .f32⟩
  | 2 => ⟨S2x65536, .i32⟩
  | 3 => ⟨S65536, .i32⟩
  | 4 => ⟨S2048x128, .f32⟩
  | 5 => ⟨S128, .f32⟩
  | 6 => ⟨S2048x128, .f32⟩
  | 7 => ⟨S128, .f32⟩
  | 8 => ⟨S2048x128, .f32⟩
  | 9 => ⟨S128, .f32⟩
  | 10 => ⟨S2048x128, .f32⟩
  | 11 => ⟨S128, .f32⟩
  | 12 => ⟨S1024x1024, .f32⟩
  | 13 => ⟨S1024, .f32⟩
  | 14 => ⟨S1024x1024, .f32⟩
  | 15 => ⟨S1024, .f32⟩
  | 16 => ⟨S1024x1024, .f32⟩
  | 17 => ⟨S1024, .f32⟩
  | 18 => ⟨S1024x1024, .f32⟩
  | 19 => ⟨S1024, .f32⟩
  | 20 => ⟨S1x65536, .i32⟩
  | 21 => ⟨S65536, .i32⟩
  | 22 => ⟨S1x65536, .i32⟩
  | 23 => ⟨S65536, .i32⟩
  | 24 => ⟨S_, .i32⟩
  | 25 => ⟨S65536, .i32⟩
  | 26 => ⟨S65536, .i1⟩
  | 27 => ⟨S_, .i32⟩
  | 28 => ⟨S65536, .i32⟩
  | 29 => ⟨S65536, .i32⟩
  | 30 => ⟨S65536, .i32⟩
  | 31 => ⟨S65536x1, .i32⟩
  | 32 => ⟨S65536x1024, .f32⟩
  | 33 => ⟨S_, .i32⟩
  | 34 => ⟨S65536, .i32⟩
  | 35 => ⟨S65536, .i1⟩
  | 36 => ⟨S_, .i32⟩
  | 37 => ⟨S65536, .i32⟩
  | 38 => ⟨S65536, .i32⟩
  | 39 => ⟨S65536, .i32⟩
  | 40 => ⟨S65536x1, .i32⟩
  | 41 => ⟨S65536x1024, .f32⟩
  | 42 => ⟨S_, .i32⟩
  | 43 => ⟨S65536, .i32⟩
  | 44 => ⟨S65536, .i1⟩
  | 45 => ⟨S_, .i32⟩
  | 46 => ⟨S65536, .i32⟩
  | 47 => ⟨S65536, .i32⟩
  | 48 => ⟨S65536, .i32⟩
  | 49 => ⟨S65536x1, .i32⟩
  | 50 => ⟨S65536x1024, .f32⟩
  | 51 => ⟨S1024x128, .f32⟩
  | 52 => ⟨S1024x128, .f32⟩
  | 53 => ⟨S1024x128, .f32⟩
  | 54 => ⟨S1024x128, .f32⟩
  | 55 => ⟨S1024x128, .f32⟩
  | 56 => ⟨S1024x128, .f32⟩
  | 57 => ⟨S1024x128, .f32⟩
  | 58 => ⟨S1024x128, .f32⟩
  | 59 => ⟨S65536x1024, .f32⟩
  | 60 => ⟨S65536x1024, .f32⟩
  | 61 => ⟨S65536x1024, .f32⟩
  | 62 => ⟨S65536x1024, .f32⟩
  | 63 => ⟨S_, .f32⟩
  | 64 => ⟨S4096x1024, .f32⟩
  | 65 => ⟨S65536x1, .i32⟩
  | 66 => ⟨S4096x1024, .f32⟩
  | 67 => ⟨S_, .f32⟩
  | 68 => ⟨S65536, .f32⟩
  | 69 => ⟨S_, .f32⟩
  | 70 => ⟨S4096, .f32⟩
  | 71 => ⟨S65536x1, .i32⟩
  | 72 => ⟨S4096, .f32⟩
  | 73 => ⟨S_, .f32⟩
  | 74 => ⟨S4096, .f32⟩
  | 75 => ⟨S4096, .f32⟩
  | 76 => ⟨S4096x1, .f32⟩
  | 77 => ⟨S4096x1024, .f32⟩
  | 78 => ⟨S4096x1024, .f32⟩
  | 79 => ⟨S_, .f32⟩
  | 80 => ⟨S4096x1024, .f32⟩
  | 81 => ⟨S65536x1, .i32⟩
  | 82 => ⟨S4096x1024, .f32⟩
  | 83 => ⟨S_, .f32⟩
  | 84 => ⟨S65536, .f32⟩
  | 85 => ⟨S_, .f32⟩
  | 86 => ⟨S4096, .f32⟩
  | 87 => ⟨S65536x1, .i32⟩
  | 88 => ⟨S4096, .f32⟩
  | 89 => ⟨S_, .f32⟩
  | 90 => ⟨S4096, .f32⟩
  | 91 => ⟨S4096, .f32⟩
  | 92 => ⟨S4096x1, .f32⟩
  | 93 => ⟨S4096x1024, .f32⟩
  | 94 => ⟨S4096x1024, .f32⟩
  | 95 => ⟨S_, .f32⟩
  | 96 => ⟨S2048x1024, .f32⟩
  | 97 => ⟨S65536x1, .i32⟩
  | 98 => ⟨S2048x1024, .f32⟩
  | 99 => ⟨S_, .f32⟩
  | 100 => ⟨S65536, .f32⟩
  | 101 => ⟨S_, .f32⟩
  | 102 => ⟨S2048, .f32⟩
  | 103 => ⟨S65536x1, .i32⟩
  | 104 => ⟨S2048, .f32⟩
  | 105 => ⟨S_, .f32⟩
  | 106 => ⟨S2048, .f32⟩
  | 107 => ⟨S2048, .f32⟩
  | 108 => ⟨S2048x1, .f32⟩
  | 109 => ⟨S2048x1024, .f32⟩
  | 110 => ⟨S2048x1024, .f32⟩
  | 111 => ⟨S_, .f32⟩
  | 112 => ⟨S2048x1024, .f32⟩
  | 113 => ⟨S65536x1, .i32⟩
  | 114 => ⟨S2048x1024, .f32⟩
  | 115 => ⟨S_, .f32⟩
  | 116 => ⟨S65536, .f32⟩
  | 117 => ⟨S_, .f32⟩
  | 118 => ⟨S2048, .f32⟩
  | 119 => ⟨S65536x1, .i32⟩
  | 120 => ⟨S2048, .f32⟩
  | 121 => ⟨S_, .f32⟩
  | 122 => ⟨S2048, .f32⟩
  | 123 => ⟨S2048, .f32⟩
  | 124 => ⟨S2048x1, .f32⟩
  | 125 => ⟨S2048x1024, .f32⟩
  | 126 => ⟨S2048x1024, .f32⟩
  | 127 => ⟨S4096x1024, .f32⟩
  | _ => ⟨S4096x1024, .f32⟩

abbrev hbmTy0_1 (i : Nat) : BufTy := match i % 128 with
  | 0 => ⟨S2048x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x128, .f32⟩
  | .local _ .vmem, ⟨7, _⟩ => ⟨S1024x128, .f32⟩
  | .local _ .vmem, ⟨8, _⟩ => ⟨S128, .f32⟩
  | .local _ .vmem, ⟨9, _⟩ => ⟨S1024x128, .f32⟩
  | .local _ .vmem, ⟨10, _⟩ => ⟨S1024x128, .f32⟩
  | .local _ .vmem, ⟨11, _⟩ => ⟨S128, .f32⟩
  | .local _ .vmem, ⟨12, _⟩ => ⟨S1024x128, .f32⟩
  | .local _ .vmem, ⟨13, _⟩ => ⟨S1024x128, .f32⟩
  | .local _ .vmem, ⟨14, _⟩ => ⟨S128, .f32⟩
  | .local _ .vmem, ⟨15, _⟩ => ⟨S1024x128, .f32⟩
  | .local _ .vmem, ⟨16, _⟩ => ⟨S1024x128, .f32⟩
  | .local _ .vmem, ⟨17, _⟩ => ⟨S128, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S1024x1024, .f32⟩
  | .local _ .vmem, ⟨33, _⟩ => ⟨S1024, .f32⟩
  | .local _ .vmem, ⟨34, _⟩ => ⟨S1024x1024, .f32⟩
  | .local _ .vmem, ⟨35, _⟩ => ⟨S1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S1024x1024, .f32⟩
  | .local _ .vmem, ⟨45, _⟩ => ⟨S1024, .f32⟩
  | .local _ .vmem, ⟨46, _⟩ => ⟨S1024x1024, .f32⟩
  | .local _ .vmem, ⟨47, _⟩ => ⟨S1024, .f32⟩
  | .local _ .vmem, ⟨48, _⟩ => ⟨S512x1024, .f32⟩
  | .local _ .vmem, ⟨49, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33_0 : Ref sig .tc := ⟨.hbm, 59, rfl⟩
abbrev main_v33_1 : Ref sig .tc := ⟨.hbm, 60, rfl⟩
abbrev main_v33_2 : Ref sig .tc := ⟨.hbm, 61, rfl⟩
abbrev main_v33_3 : Ref sig .tc := ⟨.hbm, 62, rfl⟩
abbrev main_cst : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_5 : Ref sig .tc := ⟨.hbm, 67, rfl⟩
abbrev main_v37 : Ref sig .tc := ⟨.hbm, 68, rfl⟩
abbrev main_cst_6 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_7 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_8 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_9 : Ref sig .tc := ⟨.hbm, 83, rfl⟩
abbrev main_v49 : Ref sig .tc := ⟨.hbm, 84, rfl⟩
abbrev main_cst_10 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_11 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_12 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_13 : Ref sig .tc := ⟨.hbm, 99, rfl⟩
abbrev main_v61 : Ref sig .tc := ⟨.hbm, 100, rfl⟩
abbrev main_cst_14 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_15 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_16 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_17 : Ref sig .tc := ⟨.hbm, 115, rfl⟩
abbrev main_v73 : Ref sig .tc := ⟨.hbm, 116, rfl⟩
abbrev main_cst_18 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_19 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg4_0 : Ref sig .tc := ⟨.vmem, 33, rfl⟩
abbrev cc1_stg5_0 : Ref sig .tc := ⟨.vmem, 34, rfl⟩
abbrev cc1_stg6_0 : Ref sig .tc := ⟨.vmem, 35, rfl⟩
abbrev cc1_stg7_0 : Ref sig .tc := ⟨.vmem, 36, rfl⟩
abbrev cc1_stg7_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg2_1 : Ref sig .tc := ⟨.vmem, 43, rfl⟩
abbrev cc2_stg3_0 : Ref sig .tc := ⟨.vmem, 44, rfl⟩
abbrev cc2_stg4_0 : Ref sig .tc := ⟨.vmem, 45, rfl⟩
abbrev cc2_stg5_0 : Ref sig .tc := ⟨.vmem, 46, rfl⟩
abbrev cc2_stg6_0 : Ref sig .tc := ⟨.vmem, 47, rfl⟩
abbrev cc2_stg7_0 : Ref sig .tc := ⟨.vmem, 48, rfl⟩
abbrev cc2_stg7_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem4_0 : DmaSem sig := 33
abbrev cc1_sem5_0 : DmaSem sig := 34
abbrev cc1_sem6_0 : DmaSem sig := 35
abbrev cc1_sem7_0 : DmaSem sig := 36
abbrev cc1_sem7_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43
abbrev cc2_sem3_0 : DmaSem sig := 44
abbrev cc2_sem4_0 : DmaSem sig := 45
abbrev cc2_sem5_0 : DmaSem sig := 46
abbrev cc2_sem6_0 : DmaSem sig := 47
abbrev cc2_sem7_0 : DmaSem sig := 48
abbrev cc2_sem7_1 : DmaSem sig := 49

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S65536_S65536x1_0 : S65536.BroadcastsInDim S65536x1 (![0] : Fin 1 → Fin S65536x1.rank)
  slices_S2048x128_S1024x128_0_0 : S2048x128.Slices ![0, 0] S1024x128
  slices_S2048x128_S1024x128_1024_0 : S2048x128.Slices ![1024, 0] S1024x128
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  reduces_S256x128_S256 : S256x128.Reduces [1] S256
  shapeCasts_S256_S256x1 : S256.ShapeCasts S256x1
  broadcasts_S256x1_S256x1024 : S256x1.Broadcasts S256x1024
  bcast_S_S4096x1024 : S_.BroadcastsInDim S4096x1024 (![] : Fin 0 → Fin S4096x1024.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  bcast_S_S2048x1024 : S_.BroadcastsInDim S2048x1024 (![] : Fin 0 → Fin S2048x1024.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  gather_S4096x1024_S65536x1_S65536x1024_1_0_n_n_0_1_11024_wf : GatherDims.WF S4096x1024 S65536x1 S65536x1024 [1] [0] [] [0] [] 1 ![1, 1024]
  gather_S2048x1024_S65536x1_S65536x1024_1_0_n_n_0_1_11024_wf : GatherDims.WF S2048x1024 S65536x1 S65536x1024 [1] [0] [] [0] [] 1 ![1, 1024]
  dot_S256x1024_S1024x128_S256x128_1_0_0_1_n_n_wf : DotDims.WF S256x1024 S1024x128 S256x128 [1] [0] [0] [1] [] []
  scatter_S4096x1024_S65536x1_S65536x1024_1_0_0_1_wf : ScatterDims.WF S4096x1024 S65536x1 S65536x1024 [1] [0] [0] 1
  scatter_S4096_S65536x1_S65536_n_0_0_1_wf : ScatterDims.WF S4096 S65536x1 S65536 [] [0] [0] 1
  scatter_S2048x1024_S65536x1_S65536x1024_1_0_0_1_wf : ScatterDims.WF S2048x1024 S65536x1 S65536x1024 [1] [0] [0] 1
  scatter_S2048_S65536x1_S65536_n_0_0_1_wf : ScatterDims.WF S2048 S65536x1 S65536 [] [0] [0] 1
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S65536x1024.size a
  hwx0_0 : ∀ i : grid0.Coords, EltTy.bits .f32 = 32 ∨ (Rect.block (s := S65536x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S65536x1024.size a
  hwx0_1 : ∀ i : grid0.Coords, EltTy.bits .f32 = 32 ∨ (Rect.block (s := S65536x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S65536x1024.size a
  hwx0_2 : ∀ i : grid0.Coords, EltTy.bits .f32 = 32 ∨ (Rect.block (s := S65536x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .f32 = 32 ∨ (Rect.block (s := S1024x128) S1024x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S1024x128.size a
  hwx0_6 : ∀ i : grid0.Coords, EltTy.bits .f32 = 32 ∨ (Rect.block (s := S1024x128) S1024x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x128.size a
  hwx0_7 : ∀ i : grid0.Coords, EltTy.bits .f32 = 32 ∨ (Rect.block (s := S1024x128) S1024x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S1024x128.size a
  hwx0_9 : ∀ i : grid0.Coords, EltTy.bits .f32 = 32 ∨ (Rect.block (s := S1024x128) S1024x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S1024x128.size a
  hwx0_10 : ∀ i : grid0.Coords, EltTy.bits .f32 = 32 ∨ (Rect.block (s := S1024x128) S1024x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x128.size a ≤ S1024x128.size a
  hwx0_12 : ∀ i : grid0.Coords, EltTy.bits .f32 = 32 ∨ (Rect.block (s := S1024x128) S1024x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x128.size a ≤ S1024x128.size a
  hwx0_13 : ∀ i : grid0.Coords, EltTy.bits .f32 = 32 ∨ (Rect.block (s := S1024x128) S1024x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S65536x1024.size a
  hwx0_15 : ∀ i : grid0.Coords, EltTy.bits .f32 = 32 ∨ (Rect.block (s := S65536x1024) S256x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S65536x1024.size a
  hwx0_16 : ∀ i : grid0.Coords, EltTy.bits .f32 = 32 ∨ (Rect.block (s := S65536x1024) S256x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x1024.size a ≤ S65536x1024.size a
  hwx0_17 : ∀ i : grid0.Coords, EltTy.bits .f32 = 32 ∨ (Rect.block (s := S65536x1024) S256x1024.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x1024.size a ≤ S65536x1024.size a
  hwx0_18 : ∀ i : grid0.Coords, EltTy.bits .f32 = 32 ∨ (Rect.block (s := S65536x1024) S256x1024.size (cc0_transform_18 i) (hinb0_18 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .f32 = 32 ∨ (Rect.block (s := S4096x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .f32 = 32 ∨ (Rect.block (s := S4096x1024) S512x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .f32 = 32 ∨ (Rect.block (s := S1024x1024) S1024x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .f32 = 32 ∨ (Rect.block (s := S1024x1024) S1024x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024.size a ≤ S1024.size a
  hwx1_6 : ∀ i : grid1.Coords, EltTy.bits .f32 = 32 ∨ (Rect.block (s := S1024) S1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1024.size a ≤ S4096x1024.size a
  hwx1_7 : ∀ i : grid1.Coords, EltTy.bits .f32 = 32 ∨ (Rect.block (s := S4096x1024) S512x1024.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S2048x1024.size a
  hwx2_0 : ∀ i : grid2.Coords, EltTy.bits .f32 = 32 ∨ (Rect.block (s := S2048x1024) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S2048x1024.size a
  hwx2_1 : ∀ i : grid2.Coords, EltTy.bits .f32 = 32 ∨ (Rect.block (s := S2048x1024) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S2048x1024.size a
  hwx2_2 : ∀ i : grid2.Coords, EltTy.bits .f32 = 32 ∨ (Rect.block (s := S2048x1024) S512x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .f32 = 32 ∨ (Rect.block (s := S1024x1024) S1024x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S1024.size a
  hwx2_4 : ∀ i : grid2.Coords, EltTy.bits .f32 = 32 ∨ (Rect.block (s := S1024) S1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S1024x1024.size a
  hwx2_5 : ∀ i : grid2.Coords, EltTy.bits .f32 = 32 ∨ (Rect.block (s := S1024x1024) S1024x1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1024.size a ≤ S1024.size a
  hwx2_6 : ∀ i : grid2.Coords, EltTy.bits .f32 = 32 ∨ (Rect.block (s := S1024) S1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x1024.size a ≤ S2048x1024.size a
  hwx2_7 : ∀ i : grid2.Coords, EltTy.bits .f32 = 32 ∨ (Rect.block (s := S2048x1024) S512x1024.size (cc2_transform_7 i) (hinb2_7 i)).WholeWords (EltTy.packing .f32)

variable [Facts₀]

def gather_S4096x1024_S65536x1_S65536x1024_1_0_n_n_0_1_11024 : GatherDims S4096x1024 S65536x1 S65536x1024 where
  offsetDims := [1]
  collapsedSliceDims := [0]
  operandBatchingDims := []
  startIndicesBatchingDims := []
  startIndexMap := [0]
  indexVectorDim := 1
  sliceSizes := ![1, 1024]
  wf := gather_S4096x1024_S65536x1_S65536x1024_1_0_n_n_0_1_11024_wf
def gather_S2048x1024_S65536x1_S65536x1024_1_0_n_n_0_1_11024 : GatherDims S2048x1024 S65536x1 S65536x1024 where
  offsetDims := [1]
  collapsedSliceDims := [0]
  operandBatchingDims := []
  startIndicesBatchingDims := []
  startIndexMap := [0]
  indexVectorDim := 1
  sliceSizes := ![1, 1024]
  wf := gather_S2048x1024_S65536x1_S65536x1024_1_0_n_n_0_1_11024_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def scatter_S4096x1024_S65536x1_S65536x1024_1_0_0_1 : ScatterDims S4096x1024 S65536x1 S65536x1024 where
  updateWindowDims := [1]
  insertedWindowDims := [0]
  scatterDimsToOperandDims := [0]
  indexVectorDim := 1
  wf := scatter_S4096x1024_S65536x1_S65536x1024_1_0_0_1_wf
def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def scatter_S2048x1024_S65536x1_S65536x1024_1_0_0_1 : ScatterDims S2048x1024 S65536x1 S65536x1024 where
  updateWindowDims := [1]
  insertedWindowDims := [0]
  scatterDimsToOperandDims := [0]
  indexVectorDim := 1
  wf := scatter_S2048x1024_S65536x1_S65536x1024_1_0_0_1_wf
def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v24) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1024x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1024x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S1024x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v30) S1024x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v31) S1024x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v32) S1024x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg11) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v33_0) S256x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v33_1) S256x1024.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v33_2) S256x1024.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v33_3) S256x1024.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_v57) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v82) S512x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v69) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v81) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S1024x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg17) S1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg18) S1024x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg19) S1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v83) S512x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S2048x1024 : Shape := ⟨2, ![2048, 1024]⟩
abbrev S2x65536 : Shape := ⟨2, ![2, 65536]⟩
abbrev S65536 : Shape := ⟨1, ![65536]⟩
abbrev S2048x128 : Shape := ⟨2, ![2048, 128]⟩
abbrev S128 : Shape := ⟨1, ![128]⟩
abbrev S1024x1024 : Shape := ⟨2, ![1024, 1024]⟩
abbrev S1024 : Shape := ⟨1, ![1024]⟩
abbrev S1x65536 : Shape := ⟨2, ![1, 65536]⟩
abbrev S_ : Shape := ⟨0, ![]⟩
abbrev S65536x1 : Shape := ⟨2, ![65536, 1]⟩
abbrev S65536x1024 : Shape := ⟨2, ![65536, 1024]⟩
abbrev S65536x2048 : Shape := ⟨2, ![65536, 2048]⟩
abbrev S65536x128 : Shape := ⟨2, ![65536, 128]⟩
abbrev S1x128 : Shape := ⟨2, ![1, 128]⟩
abbrev S4096 : Shape := ⟨1, ![4096]⟩
abbrev S4096x1 : Shape := ⟨2, ![4096, 1]⟩
abbrev S2048 : Shape := ⟨1, ![2048]⟩
abbrev S2048x1 : Shape := ⟨2, ![2048, 1]⟩
abbrev S1x1024 : Shape := ⟨2, ![1, 1024]⟩

abbrev nBuf : Space → Nat
  | .hbm => 251
  | .vmem => 0
  | .smem => 0
  | _ => 0

abbrev hbmTy0_0 (i : Nat) : BufTy := match i % 128 with
  | 0 => ⟨S4096x1024, .f32⟩
  | 1 => ⟨S2048x1024, .f32⟩
  | 2 => ⟨S2x65536, .i32⟩
  | 3 => ⟨S65536, .i32⟩
  | 4 => ⟨S2048x128, .f32⟩
  | 5 => ⟨S128, .f32⟩
  | 6 => ⟨S2048x128, .f32⟩
  | 7 => ⟨S128, .f32⟩
  | 8 => ⟨S2048x128, .f32⟩
  | 9 => ⟨S128, .f32⟩
  | 10 => ⟨S2048x128, .f32⟩
  | 11 => ⟨S128, .f32⟩
  | 12 => ⟨S1024x1024, .f32⟩
  | 13 => ⟨S1024, .f32⟩
  | 14 => ⟨S1024x1024, .f32⟩
  | 15 => ⟨S1024, .f32⟩
  | 16 => ⟨S1024x1024, .f32⟩
  | 17 => ⟨S1024, .f32⟩
  | 18 => ⟨S1024x1024, .f32⟩
  | 19 => ⟨S1024, .f32⟩
  | 20 => ⟨S1x65536, .i32⟩
  | 21 => ⟨S65536, .i32⟩
  | 22 => ⟨S1x65536, .i32⟩
  | 23 => ⟨S65536, .i32⟩
  | 24 => ⟨S_, .i32⟩
  | 25 => ⟨S65536, .i32⟩
  | 26 => ⟨S65536, .i1⟩
  | 27 => ⟨S_, .i32⟩
  | 28 => ⟨S65536, .i32⟩
  | 29 => ⟨S65536, .i32⟩
  | 30 => ⟨S65536, .i32⟩
  | 31 => ⟨S65536x1, .i32⟩
  | 32 => ⟨S65536x1024, .f32⟩
  | 33 => ⟨S_, .i32⟩
  | 34 => ⟨S65536, .i32⟩
  | 35 => ⟨S65536, .i1⟩
  | 36 => ⟨S_, .i32⟩
  | 37 => ⟨S65536, .i32⟩
  | 38 => ⟨S65536, .i32⟩
  | 39 => ⟨S65536, .i32⟩
  | 40 => ⟨S65536x1, .i32⟩
  | 41 => ⟨S65536x1024, .f32⟩
  | 42 => ⟨S_, .i32⟩
  | 43 => ⟨S65536, .i32⟩
  | 44 => ⟨S65536, .i1⟩
  | 45 => ⟨S_, .i32⟩
  | 46 => ⟨S65536, .i32⟩
  | 47 => ⟨S65536, .i32⟩
  | 48 => ⟨S65536, .i32⟩
  | 49 => ⟨S65536x1, .i32⟩
  | 50 => ⟨S65536x1024, .f32⟩
  | 51 => ⟨S65536x2048, .f32⟩
  | 52 => ⟨S65536x128, .f32⟩
  | 53 => ⟨S1x128, .f32⟩
  | 54 => ⟨S65536x128, .f32⟩
  | 55 => ⟨S65536x128, .f32⟩
  | 56 => ⟨S_, .f32⟩
  | 57 => ⟨S65536x128, .f32⟩
  | 58 => ⟨S65536x128, .f32⟩
  | 59 => ⟨S65536x128, .f32⟩
  | 60 => ⟨S65536x128, .f32⟩
  | 61 => ⟨S_, .f32⟩
  | 62 => ⟨S65536x128, .f32⟩
  | 63 => ⟨S65536x128, .f32⟩
  | 64 => ⟨S_, .f32⟩
  | 65 => ⟨S65536x128, .f32⟩
  | 66 => ⟨S65536x128, .f32⟩
  | 67 => ⟨S_, .f32⟩
  | 68 => ⟨S65536, .f32⟩
  | 69 => ⟨S_, .f32⟩
  | 70 => ⟨S65536, .f32⟩
  | 71 => ⟨S65536, .f32⟩
  | 72 => ⟨S65536x1, .f32⟩
  | 73 => ⟨S65536x1024, .f32⟩
  | 74 => ⟨S65536x1024, .f32⟩
  | 75 => ⟨S_, .f32⟩
  | 76 => ⟨S4096x1024, .f32⟩
  | 77 => ⟨S65536x1, .i32⟩
  | 78 => ⟨S4096x1024, .f32⟩
  | 79 => ⟨S_, .f32⟩
  | 80 => ⟨S65536, .f32⟩
  | 81 => ⟨S_, .f32⟩
  | 82 => ⟨S4096, .f32⟩
  | 83 => ⟨S65536x1, .i32⟩
  | 84 => ⟨S4096, .f32⟩
  | 85 => ⟨S_, .f32⟩
  | 86 => ⟨S4096, .f32⟩
  | 87 => ⟨S4096, .f32⟩
  | 88 => ⟨S4096x1, .f32⟩
  | 89 => ⟨S4096x1024, .f32⟩
  | 90 => ⟨S4096x1024, .f32⟩
  | 91 => ⟨S65536x2048, .f32⟩
  | 92 => ⟨S65536x128, .f32⟩
  | 93 => ⟨S1x128, .f32⟩
  | 94 => ⟨S65536x128, .f32⟩
  | 95 => ⟨S65536x128, .f32⟩
  | 96 => ⟨S_, .f32⟩
  | 97 => ⟨S65536x128, .f32⟩
  | 98 => ⟨S65536x128, .f32⟩
  | 99 => ⟨S65536x128, .f32⟩
  | 100 => ⟨S65536x128, .f32⟩
  | 101 => ⟨S_, .f32⟩
  | 102 => ⟨S65536x128, .f32⟩
  | 103 => ⟨S65536x128, .f32⟩
  | 104 => ⟨S_, .f32⟩
  | 105 => ⟨S65536x128, .f32⟩
  | 106 => ⟨S65536x128, .f32⟩
  | 107 => ⟨S_, .f32⟩
  | 108 => ⟨S65536, .f32⟩
  | 109 => ⟨S_, .f32⟩
  | 110 => ⟨S65536, .f32⟩
  | 111 => ⟨S65536, .f32⟩
  | 112 => ⟨S65536x1, .f32⟩
  | 113 => ⟨S65536x1024, .f32⟩
  | 114 => ⟨S65536x1024, .f32⟩
  | 115 => ⟨S_, .f32⟩
  | 116 => ⟨S4096x1024, .f32⟩
  | 117 => ⟨S65536x1, .i32⟩
  | 118 => ⟨S4096x1024, .f32⟩
  | 119 => ⟨S_, .f32⟩
  | 120 => ⟨S65536, .f32⟩
  | 121 => ⟨S_, .f32⟩
  | 122 => ⟨S4096, .f32⟩
  | 123 => ⟨S65536x1, .i32⟩
  | 124 => ⟨S4096, .f32⟩
  | 125 => ⟨S_, .f32⟩
  | 126 => ⟨S4096, .f32⟩
  | 127 => ⟨S4096, .f32⟩
  | _ => ⟨S4096x1024, .f32⟩

abbrev hbmTy0_1 (i : Nat) : BufTy := match i % 128 with
  | 0 => ⟨S4096x1, .f32⟩
  | 1 => ⟨S4096x1024, .f32⟩
  | 2 => ⟨S4096x1024, .f32⟩
  | 3 => ⟨S65536x2048, .f32⟩
  | 4 => ⟨S65536x128, .f32⟩
  | 5 => ⟨S1x128, .f32⟩
  | 6 => ⟨S65536x128, .f32⟩
  | 7 => ⟨S65536x128, .f32⟩
  | 8 => ⟨S_, .f32⟩
  | 9 => ⟨S65536x128, .f32⟩
  | 10 => ⟨S65536x128, .f32⟩
  | 11 => ⟨S65536x128, .f32⟩
  | 12 => ⟨S65536x128, .f32⟩
  | 13 => ⟨S_, .f32⟩
  | 14 => ⟨S65536x128, .f32⟩
  | 15 => ⟨S65536x128, .f32⟩
  | 16 => ⟨S_, .f32⟩
  | 17 => ⟨S65536x128, .f32⟩
  | 18 => ⟨S65536x128, .f32⟩
  | 19 => ⟨S_, .f32⟩
  | 20 => ⟨S65536, .f32⟩
  | 21 => ⟨S_, .f32⟩
  | 22 => ⟨S65536, .f32⟩
  | 23 => ⟨S65536, .f32⟩
  | 24 => ⟨S65536x1, .f32⟩
  | 25 => ⟨S65536x1024, .f32⟩
  | 26 => ⟨S65536x1024, .f32⟩
  | 27 => ⟨S_, .f32⟩
  | 28 => ⟨S2048x1024, .f32⟩
  | 29 => ⟨S65536x1, .i32⟩
  | 30 => ⟨S2048x1024, .f32⟩
  | 31 => ⟨S_, .f32⟩
  | 32 => ⟨S65536, .f32⟩
  | 33 => ⟨S_, .f32⟩
  | 34 => ⟨S2048, .f32⟩
  | 35 => ⟨S65536x1, .i32⟩
  | 36 => ⟨S2048, .f32⟩
  | 37 => ⟨S_, .f32⟩
  | 38 => ⟨S2048, .f32⟩
  | 39 => ⟨S2048, .f32⟩
  | 40 => ⟨S2048x1, .f32⟩
  | 41 => ⟨S2048x1024, .f32⟩
  | 42 => ⟨S2048x1024, .f32⟩
  | 43 => ⟨S65536x2048, .f32⟩
  | 44 => ⟨S65536x128, .f32⟩
  | 45 => ⟨S1x128, .f32⟩
  | 46 => ⟨S65536x128, .f32⟩
  | 47 => ⟨S65536x128, .f32⟩
  | 48 => ⟨S_, .f32⟩
  | 49 => ⟨S65536x128, .f32⟩
  | 50 => ⟨S65536x128, .f32⟩
  | 51 => ⟨S65536x128, .f32⟩
  | 52 => ⟨S65536x128, .f32⟩
  | 53 => ⟨S_, .f32⟩
  | 54 => ⟨S65536x128, .f32⟩
  | 55 => ⟨S65536x128, .f32⟩
  | 56 => ⟨S_, .f32⟩
  | 57 => ⟨S65536x128, .f32⟩
  | 58 => ⟨S65536x128, .f32⟩
  | 59 => ⟨S_, .f32⟩
  | 60 => ⟨S65536, .f32⟩
  | 61 => ⟨S_, .f32⟩
  | 62 => ⟨S65536, .f32⟩
  | 63 => ⟨S65536, .f32⟩
  | 64 => ⟨S65536x1, .f32⟩
  | 65 => ⟨S65536x1024, .f32⟩
  | 66 => ⟨S65536x1024, .f32⟩
  | 67 => ⟨S_, .f32⟩
  | 68 => ⟨S2048x1024, .f32⟩
  | 69 => ⟨S65536x1, .i32⟩
  | 70 => ⟨S2048x1024, .f32⟩
  | 71 => ⟨S_, .f32⟩
  | 72 => ⟨S65536, .f32⟩
  | 73 => ⟨S_, .f32⟩
  | 74 => ⟨S2048, .f32⟩
  | 75 => ⟨S65536x1, .i32⟩
  | 76 => ⟨S2048, .f32⟩
  | 77 => ⟨S_, .f32⟩
  | 78 => ⟨S2048, .f32⟩
  | 79 => ⟨S2048, .f32⟩
  | 80 => ⟨S2048x1, .f32⟩
  | 81 => ⟨S2048x1024, .f32⟩
  | 82 => ⟨S2048x1024, .f32⟩
  | 83 => ⟨S4096x1024, .f32⟩
  | 84 => ⟨S_, .f32⟩
  | 85 => ⟨S4096x1024, .f32⟩
  | 86 => ⟨S4096x1024, .f32⟩
  | 87 => ⟨S4096x1024, .f32⟩
  | 88 => ⟨S1x1024, .f32⟩
  | 89 => ⟨S4096x1024, .f32⟩
  | 90 => ⟨S4096x1024, .f32⟩
  | 91 => ⟨S_, .f32⟩
  | 92 => ⟨S4096x1024, .f32⟩
  | 93 => ⟨S4096x1024, .f32⟩
  | 94 => ⟨S4096x1024, .f32⟩
  | 95 => ⟨S4096x1024, .f32⟩
  | 96 => ⟨S1x1024, .f32⟩
  | 97 => ⟨S4096x1024, .f32⟩
  | 98 => ⟨S4096x1024, .f32⟩
  | 99 => ⟨S_, .f32⟩
  | 100 => ⟨S4096x1024, .f32⟩
  | 101 => ⟨S4096x1024, .f32⟩
  | 102 => ⟨S4096x1024, .f32⟩
  | 103 => ⟨S2048x1024, .f32⟩
  | 104 => ⟨S_, .f32⟩
  | 105 => ⟨S2048x1024, .f32⟩
  | 106 => ⟨S2048x1024, .f32⟩
  | 107 => ⟨S2048x1024, .f32⟩
  | 108 => ⟨S1x1024, .f32⟩
  | 109 => ⟨S2048x1024, .f32⟩
  | 110 => ⟨S2048x1024, .f32⟩
  | 111 => ⟨S_, .f32⟩
  | 112 => ⟨S2048x1024, .f32⟩
  | 113 => ⟨S2048x1024, .f32⟩
  | 114 => ⟨S2048x1024, .f32⟩
  | 115 => ⟨S2048x1024, .f32⟩
  | 116 => ⟨S1x1024, .f32⟩
  | 117 => ⟨S2048x1024, .f32⟩
  | 118 => ⟨S2048x1024, .f32⟩
  | 119 => ⟨S_, .f32⟩
  | 120 => ⟨S2048x1024, .f32⟩
  | 121 => ⟨S2048x1024, .f32⟩
  | 122 => ⟨S2048x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call0_cst : Ref sig .tc := ⟨.hbm, 56, rfl⟩
abbrev main_call0_v0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst : Ref sig .tc := ⟨.hbm, 61, rfl⟩
abbrev main_v33 : Ref sig .tc := ⟨.hbm, 62, rfl⟩
abbrev main_v34 : Ref sig .tc := ⟨.hbm, 63, rfl⟩
abbrev main_cst_5 : Ref sig .tc := ⟨.hbm, 64, rfl⟩
abbrev main_v35 : Ref sig .tc := ⟨.hbm, 65, rfl⟩
abbrev main_v36 : Ref sig .tc := ⟨.hbm, 66, rfl⟩
abbrev main_cst_6 : Ref sig .tc := ⟨.hbm, 67, rfl⟩
abbrev main_v37 : Ref sig .tc := ⟨.hbm, 68, rfl⟩
abbrev main_cst_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_9 : Ref sig .tc := ⟨.hbm, 79, rfl⟩
abbrev main_v46 : Ref sig .tc := ⟨.hbm, 80, rfl⟩
abbrev main_cst_10 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_11 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_call1_cst : Ref sig .tc := ⟨.hbm, 96, rfl⟩
abbrev main_call1_v0 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_12 : Ref sig .tc := ⟨.hbm, 101, rfl⟩
abbrev main_v63 : Ref sig .tc := ⟨.hbm, 102, rfl⟩
abbrev main_v64 : Ref sig .tc := ⟨.hbm, 103, rfl⟩
abbrev main_cst_13 : Ref sig .tc := ⟨.hbm, 104, rfl⟩
abbrev main_v65 : Ref sig .tc := ⟨.hbm, 105, rfl⟩
abbrev main_v66 : Ref sig .tc := ⟨.hbm, 106, rfl⟩
abbrev main_cst_14 : Ref sig .tc := ⟨.hbm, 107, rfl⟩
abbrev main_v67 : Ref sig .tc := ⟨.hbm, 108, rfl⟩
abbrev main_cst_15 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_16 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_17 : Ref sig .tc := ⟨.hbm, 119, rfl⟩
abbrev main_v76 : Ref sig .tc := ⟨.hbm, 120, rfl⟩
abbrev main_cst_18 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_19 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_call2_cst : Ref sig .tc := ⟨.hbm, 136, rfl⟩
abbrev main_call2_v0 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_20 : Ref sig .tc := ⟨.hbm, 141, rfl⟩
abbrev main_v93 : Ref sig .tc := ⟨.hbm, 142, rfl⟩
abbrev main_v94 : Ref sig .tc := ⟨.hbm, 143, rfl⟩
abbrev main_cst_21 : Ref sig .tc := ⟨.hbm, 144, rfl⟩
abbrev main_v95 : Ref sig .tc := ⟨.hbm, 145, rfl⟩
abbrev main_v96 : Ref sig .tc := ⟨.hbm, 146, rfl⟩
abbrev main_cst_22 : Ref sig .tc := ⟨.hbm, 147, rfl⟩
abbrev main_v97 : Ref sig .tc := ⟨.hbm, 148, rfl⟩
abbrev main_cst_23 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_24 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_25 : Ref sig .tc := ⟨.hbm, 159, rfl⟩
abbrev main_v106 : Ref sig .tc := ⟨.hbm, 160, rfl⟩
abbrev main_cst_26 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_cst_27 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_call3_cst : Ref sig .tc := ⟨.hbm, 176, rfl⟩
abbrev main_call3_v0 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_cst_28 : Ref sig .tc := ⟨.hbm, 181, rfl⟩
abbrev main_v123 : Ref sig .tc := ⟨.hbm, 182, rfl⟩
abbrev main_v124 : Ref sig .tc := ⟨.hbm, 183, rfl⟩
abbrev main_cst_29 : Ref sig .tc := ⟨.hbm, 184, rfl⟩
abbrev main_v125 : Ref sig .tc := ⟨.hbm, 185, rfl⟩
abbrev main_v126 : Ref sig .tc := ⟨.hbm, 186, rfl⟩
abbrev main_cst_30 : Ref sig .tc := ⟨.hbm, 187, rfl⟩
abbrev main_v127 : Ref sig .tc := ⟨.hbm, 188, rfl⟩
abbrev main_cst_31 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_cst_32 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_cst_33 : Ref sig .tc := ⟨.hbm, 199, rfl⟩
abbrev main_v136 : Ref sig .tc := ⟨.hbm, 200, rfl⟩
abbrev main_cst_34 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_cst_35 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_cst_36 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_call4_cst : Ref sig .tc := ⟨.hbm, 219, rfl⟩
abbrev main_call4_v0 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_call5_cst : Ref sig .tc := ⟨.hbm, 227, rfl⟩
abbrev main_call5_v0 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_cst_37 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_call6_cst : Ref sig .tc := ⟨.hbm, 239, rfl⟩
abbrev main_call6_v0 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_call7_cst : Ref sig .tc := ⟨.hbm, 247, rfl⟩
abbrev main_call7_v0 : Ref sig .tc := ⟨.hbm, 248, rfl⟩
abbrev main_v173 : Ref sig .tc := ⟨.hbm, 249, rfl⟩
abbrev main_v174 : Ref sig .tc := ⟨.hbm, 250, rfl⟩

abbrev nD : Nat := 1
abbrev τ : Topo := Topo.v7x

variable {F : FTy → Type} [FloatOps F]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S65536_S65536x1_0 : S65536.BroadcastsInDim S65536x1 (![0] : Fin 1 → Fin S65536x1.rank)
  concatenates_S65536x1024_S65536x1024_S65536x2048_d1 : Shape.Concatenates [S65536x1024, S65536x1024] S65536x2048 1
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  reducesTo_S65536x128_S65536_d1 : S65536x128.ReducesTo [1] S65536
  h_S_ : 0 < S_.numel
  bcast_S65536x1_S65536x1024_0_1 : S65536x1.BroadcastsInDim S65536x1024 (![0, 1] : Fin 2 → Fin S65536x1024.rank)
  bcast_S_S4096x1024 : S_.BroadcastsInDim S4096x1024 (![] : Fin 0 → Fin S4096x1024.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  bcast_S_S2048x1024 : S_.BroadcastsInDim S2048x1024 (![] : Fin 0 → Fin S2048x1024.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S1x1024_S2048x1024_0_1 : S1x1024.BroadcastsInDim S2048x1024 (![0, 1] : Fin 2 → Fin S2048x1024.rank)
  gather_S4096x1024_S65536x1_S65536x1024_1_0_n_n_0_1_11024_wf : GatherDims.WF S4096x1024 S65536x1 S65536x1024 [1] [0] [] [0] [] 1 ![1, 1024]
  gather_S2048x1024_S65536x1_S65536x1024_1_0_n_n_0_1_11024_wf : GatherDims.WF S2048x1024 S65536x1 S65536x1024 [1] [0] [] [0] [] 1 ![1, 1024]
  dot_S65536x2048_S2048x128_S65536x128_1_0_0_1_n_n_wf : DotDims.WF S65536x2048 S2048x128 S65536x128 [1] [0] [0] [1] [] []
  scatter_S4096x1024_S65536x1_S65536x1024_1_0_0_1_wf : ScatterDims.WF S4096x1024 S65536x1 S65536x1024 [1] [0] [0] 1
  scatter_S4096_S65536x1_S65536_n_0_0_1_wf : ScatterDims.WF S4096 S65536x1 S65536 [] [0] [0] 1
  scatter_S2048x1024_S65536x1_S65536x1024_1_0_0_1_wf : ScatterDims.WF S2048x1024 S65536x1 S65536x1024 [1] [0] [0] 1
  scatter_S2048_S65536x1_S65536_n_0_0_1_wf : ScatterDims.WF S2048 S65536x1 S65536 [] [0] [0] 1
  dot_S4096x1024_S1024x1024_S4096x1024_1_0_0_1_n_n_wf : DotDims.WF S4096x1024 S1024x1024 S4096x1024 [1] [0] [0] [1] [] []
  dot_S2048x1024_S1024x1024_S2048x1024_1_0_0_1_n_n_wf : DotDims.WF S2048x1024 S1024x1024 S2048x1024 [1] [0] [0] [1] [] []

variable [Facts₀]

def gather_S4096x1024_S65536x1_S65536x1024_1_0_n_n_0_1_11024 : GatherDims S4096x1024 S65536x1 S65536x1024 where
  offsetDims := [1]
  collapsedSliceDims := [0]
  operandBatchingDims := []
  startIndicesBatchingDims := []
  startIndexMap := [0]
  indexVectorDim := 1
  sliceSizes := ![1, 1024]
  wf := gather_S4096x1024_S65536x1_S65536x1024_1_0_n_n_0_1_11024_wf
def gather_S2048x1024_S65536x1_S65536x1024_1_0_n_n_0_1_11024 : GatherDims S2048x1024 S65536x1 S65536x1024 where
  offsetDims := [1]
  collapsedSliceDims := [0]
  operandBatchingDims := []
  startIndicesBatchingDims := []
  startIndexMap := [0]
  indexVectorDim := 1
  sliceSizes := ![1, 1024]
  wf := gather_S2048x1024_S65536x1_S65536x1024_1_0_n_n_0_1_11024_wf
def dot_S65536x2048_S2048x128_S65536x128_1_0_0_1_n_n : DotDims S65536x2048 S2048x128 S65536x128 where
  lhsContracting := [1]
  rhsContracting := [0]
  lhsNonContracting := [0]
  rhsNonContracting := [1]
  lhsBatch := []
  rhsBatch := []
  wf := dot_S65536x2048_S2048x128_S65536x128_1_0_0_1_n_n_wf
def scatter_S4096x1024_S65536x1_S65536x1024_1_0_0_1 : ScatterDims S4096x1024 S65536x1 S65536x1024 where
  updateWindowDims := [1]
  insertedWindowDims := [0]
  scatterDimsToOperandDims := [0]
  indexVectorDim := 1
  wf := scatter_S4096x1024_S65536x1_S65536x1024_1_0_0_1_wf
def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def scatter_S2048x1024_S65536x1_S65536x1024_1_0_0_1 : ScatterDims S2048x1024 S65536x1 S65536x1024 where
  updateWindowDims := [1]
  insertedWindowDims := [0]
  scatterDimsToOperandDims := [0]
  indexVectorDim := 1
  wf := scatter_S2048x1024_S65536x1_S65536x1024_1_0_0_1_wf
def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

class Facts : Prop extends Facts₀ where

variable [Facts]
-- ==== Proof.KernelRun.lean ====
/-
  The idealized kernel's run with its two results named: every weakly fair execution of the three regions among
  their host stretches terminates, nothing faulting, the two result arrays holding the last boundary's contents
  (`Gen.V5`: the fold of the host stretches and of the regions' write-backs from the launch memory) and the
  argument arrays as launched: the launch theorem over the five segments, its final state read at the two
  result buffers and at the twenty argument buffers.
-/
import proofs.«180715_j12979391168960_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the results at the last boundary's contents, the arguments as launched. -/
theorem run_values : θ_run defs (onTc (τ := τ) (main (F := F))) ⟨m, fun _ => 0, ρ⟩ (fun r => ∀ c : Dev nD,
      r.2.mem ((c.tc : Thread nD τ).loc main_v82) = V5 m ρ c main_v82
      ∧ r.2.mem ((c.tc : Thread nD τ).loc main_v83) = V5 m ρ c main_v83
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v82 (by decide)),
       h c _ (mem_uc main_v83 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c)⟩)

end Cert.KernelIdeal.Run

end
-- ==== Proof.Spec.lean ====
/-
  What the two programs compute, stated once over the extended reals, index by index.

  * A gated message: for an edge `e`, the gate is the mean over the 128 output features `j` of
    `logistic (relu (∑ₖ X[e,k]·Ws[k,j] + ∑ₖ Y[e,k]·Wt[k,j] + b[j]))`, and the message is `X[e,d] · gate e`.
    `Ws` / `Wt` are the upper and lower 1024 rows of one 2048-row weight matrix (`upper`, `lower`).
  * A refinement: with `M = (A + B)·½`, the result is `M + relu (M·W₁ + b₁) + relu (T·W₂ + b₂)`,
    the products being matrix products contracted over 1024 columns.
  The float literals 128 and ½ stay as their words: both programs spell the same words.
-/
import Idealize.ShloMosaic.PureOps.Ideal
import Idealize.ShloMosaic.Lib.ValueIdx

noncomputable section

open Idealize.ShloMosaic Idealize.ShloMosaic.ValueIdx

namespace Cert.Spec

/-- `max x 0` on the extended reals. -/
def relu (x : EReal) : EReal := max x 0

/-- The float word of 128. -/
abbrev c128 : EReal := Ideal.ofBits .f32 0x43000000#32
/-- The float word of ½. -/
abbrev chalf : EReal := Ideal.ofBits .f32 0x3F000000#32

abbrev SED : Shape := ⟨2, ![65536, 1024]⟩
abbrev SW2 : Shape := ⟨2, ![2048, 128]⟩
abbrev SW1 : Shape := ⟨2, ![1024, 128]⟩
abbrev SB : Shape := ⟨1, ![128]⟩
abbrev SDD : Shape := ⟨2, ![1024, 1024]⟩
abbrev SD : Shape := ⟨1, ![1024]⟩

/-- Rows 0 … 1023 of a 2048-row matrix. -/
def upper (W : SW2.Idx → EReal) : SW1.Idx → EReal :=
  fun i => W (ix2 (⟨(i 0).val, Nat.lt_of_lt_of_le (idx2_lt0 i) (by decide)⟩ : Fin 2048) (i 1))

/-- Rows 1024 … 2047 of a 2048-row matrix. -/
def lower (W : SW2.Idx → EReal) : SW1.Idx → EReal :=
  fun i => W (ix2 (⟨1024 + (i 0).val, by have := idx2_lt0 i; omega⟩ : Fin 2048) (i 1))

/-- The pre-activation of edge `e`, feature `j`. -/
def logit (X Y : SED.Idx → EReal) (Ws Wt : SW1.Idx → EReal) (b : SB.Idx → EReal) (e : Fin 65536) (j : Fin 128) : EReal :=
  ((∑ k : Fin 1024, X (ix2 e k) * Ws (ix2 k j)) + ∑ k : Fin 1024, Y (ix2 e k) * Wt (ix2 k j)) + b (ix1 j)

/-- The gate of edge `e`: the mean over the features of `logistic (relu logit)`. -/
def gate (X Y : SED.Idx → EReal) (Ws Wt : SW1.Idx → EReal) (b : SB.Idx → EReal) (e : Fin 65536) : EReal :=
  Ideal.div (∑ j : Fin 128, Ideal.logistic (relu (logit X Y Ws Wt b e j))) c128

/-- The gated message: the source row scaled by its edge's gate. -/
def msg (X Y : SED.Idx → EReal) (Ws Wt : SW1.Idx → EReal) (b : SB.Idx → EReal) : SED.Idx → EReal :=
  fun i => X i * gate X Y Ws Wt b (i 0)

/-- The combined message `(A + B)·½`. -/
def mix {R : Nat} (A B : (⟨2, ![R, 1024]⟩ : Shape).Idx → EReal) : (⟨2, ![R, 1024]⟩ : Shape).Idx → EReal :=
  fun i => (A i + B i) * chalf

/-- A row of `T` through the linear layer `(W, b)`, then relu. -/
def lin {R : Nat} (T : (⟨2, ![R, 1024]⟩ : Shape).Idx → EReal) (W : SDD.Idx → EReal) (b : SD.Idx → EReal)
    (r : Fin R) (c : Fin 1024) : EReal :=
  relu ((∑ k : Fin 1024, T (ix2 r k) * W (ix2 k c)) + b (ix1 c))

/-- The refinement `M + relu (M·W₁ + b₁) + relu (T·W₂ + b₂)` with `M = (A + B)·½`. -/
def refine {R : Nat} (A B T : (⟨2, ![R, 1024]⟩ : Shape).Idx → EReal) (W1 : SDD.Idx → EReal) (b1 : SD.Idx → EReal)
    (W2 : SDD.Idx → EReal) (b2 : SD.Idx → EReal) : (⟨2, ![R, 1024]⟩ : Shape).Idx → EReal :=
  fun i => (mix A B i + lin (mix A B) W1 b1 (i 0) (i 1)) + lin T W2 b2 (i 0) (i 1)

end Cert.Spec

end
-- ==== Proof.SliceHalves.lean ====
/-
  The two halves of a 2048-row weight matrix, cut out by row slices.

  A row slice of a [2048, 128] matrix from row 0 (from row 1024) of 1024 rows reads, at (r, j), the matrix at (r, j)
  (at (1024 + r, j)): these are the upper and the lower half the specification names.
-/
import proofs.«180715_j12979391168960_2_alg».proof.Proof.Gen.KernelIdeal
import proofs.«180715_j12979391168960_2_alg».proof.Proof.Spec
import Idealize.ShloMosaic.Lib.ValueLayout
import Idealize.ShloMosaic.Lib.Pipeline.Value

noncomputable section

namespace Cert.KernelIdeal.HostFold

open Idealize.ShloMosaic Idealize.ShloMosaic.ValueIdx
open Cert.KernelIdeal

/-- Rows 0 … 1023: the slice from row 0 is the upper half. -/
theorem slice_upper (X : (⟨S2048x128, .f32⟩ : BufTy).Contents (Elt Ideal)) (h : S2048x128.Slices ![0, 0] S1024x128) :
    extractStridedSlice S1024x128 ![0, 0] X h = Cert.Spec.upper X := by
  funext i
  obtain ⟨r, j, rfl⟩ : ∃ (r : Fin 1024) (j : Fin 128), i = ix2 r j := ⟨i 0, i 1, eq_ix2 i⟩
  have hr := r.isLt
  exact slice2_axis0_apply 0 X h r j ⟨r.val, by omega⟩ (Nat.zero_add _).symm

/-- Rows 1024 … 2047: the slice from row 1024 is the lower half. -/
theorem slice_lower (X : (⟨S2048x128, .f32⟩ : BufTy).Contents (Elt Ideal)) (h : S2048x128.Slices ![1024, 0] S1024x128) :
    extractStridedSlice S1024x128 ![1024, 0] X h = Cert.Spec.lower X := by
  funext i
  obtain ⟨r, j, rfl⟩ : ∃ (r : Fin 1024) (j : Fin 128), i = ix2 r j := ⟨i 0, i 1, eq_ix2 i⟩
  have hr := r.isLt
  exact slice2_axis0_apply 1024 X h r j ⟨1024 + r.val, by omega⟩ rfl

end Cert.KernelIdeal.HostFold

end
-- ==== Proof.KernelHost0.lean ====
/-
  What the host operations before the first region leave in the buffers that region reads, as functions of the
  launch arrays: the rows gathered by the three index vectors and the two index vectors themselves are the
  reference's own stages (the two programs spell the same operations), each gate's weight matrix is cut into its
  upper and lower 1024 rows, and the arguments no host operation writes are as launched.
-/
import proofs.«180715_j12979391168960_2_alg».proof.Proof.Gen.KernelIdeal.Frame
import proofs.«180715_j12979391168960_2_alg».proof.Proof.Gen.ReferenceIdeal.Read
import proofs.«180715_j12979391168960_2_alg».proof.Proof.Spec
import proofs.«180715_j12979391168960_2_alg».proof.Proof.SliceHalves
import Idealize.ShloMosaic.Lib.ValueLayout

noncomputable section

open Cert.KernelIdeal Cert.KernelIdeal.Gen Idealize.ShloMosaic Idealize.ShloMosaic.TcCoe Idealize.ShloMosaic.Tactic
open Idealize.ShloMosaic.StableHlo Idealize.SL.Sem Idealize.ShloMosaic.ValueIdx

namespace Cert.KernelIdeal.HostFold

variable (m : (ℓ : Loc nD τ sig) → Buf (Elt Ideal) ℓ) (ρ : Dev nD → PrngReg) (c : Dev nD)

set_option maxHeartbeats 4000000 in
/-- The rows gathered from the 2048-row table by the phrase index vector are the reference's. -/
theorem e24 : V1 m ρ c main_v24 = Cert.ReferenceIdeal.Read.val_main_v24 (F := Ideal) (m ((c.tc : Thread nD τ).loc main_arg1)) (m ((c.tc : Thread nD τ).loc main_arg3)) := by
  show StableHlo.after hostOps0 (W0 m ρ c) (Proc.devRef .tc main_v24) = _
  simp only [hostOps0]
  after_results_simp
  rfl

set_option maxHeartbeats 4000000 in
/-- The subject rows gathered from the 4096-row table are the reference's. -/
theorem e10 : V1 m ρ c main_v10 = Cert.ReferenceIdeal.Read.val_main_v10 (F := Ideal) (m ((c.tc : Thread nD τ).loc main_arg0)) (m ((c.tc : Thread nD τ).loc main_arg2)) := by
  show StableHlo.after hostOps0 (W0 m ρ c) (Proc.devRef .tc main_v10) = _
  simp only [hostOps0]
  after_results_simp
  rfl

set_option maxHeartbeats 4000000 in
/-- The object rows gathered from the 4096-row table are the reference's. -/
theorem e17 : V1 m ρ c main_v17 = Cert.ReferenceIdeal.Read.val_main_v17 (F := Ideal) (m ((c.tc : Thread nD τ).loc main_arg0)) (m ((c.tc : Thread nD τ).loc main_arg2)) := by
  show StableHlo.after hostOps0 (W0 m ρ c) (Proc.devRef .tc main_v17) = _
  simp only [hostOps0]
  after_results_simp
  rfl

set_option maxHeartbeats 4000000 in
/-- The subject index vector is the reference's. -/
theorem e1 : V1 m ρ c main_v1 = Cert.ReferenceIdeal.Read.val_main_v1 (F := Ideal) (m ((c.tc : Thread nD τ).loc main_arg2)) := by
  show StableHlo.after hostOps0 (W0 m ρ c) (Proc.devRef .tc main_v1) = _
  simp only [hostOps0]
  after_results_simp
  rfl

set_option maxHeartbeats 4000000 in
/-- The object index vector is the reference's. -/
theorem e3 : V1 m ρ c main_v3 = Cert.ReferenceIdeal.Read.val_main_v3 (F := Ideal) (m ((c.tc : Thread nD τ).loc main_arg2)) := by
  show StableHlo.after hostOps0 (W0 m ρ c) (Proc.devRef .tc main_v3) = _
  simp only [hostOps0]
  after_results_simp
  rfl

set_option maxHeartbeats 4000000 in
/-- The upper 1024 rows of argument 4. -/
theorem e25 : V1 m ρ c main_v25 = Cert.Spec.upper (m ((c.tc : Thread nD τ).loc main_arg4)) := by
  show StableHlo.after hostOps0 (W0 m ρ c) (Proc.devRef .tc main_v25) = _
  simp only [hostOps0]
  after_results_simp
  exact slice_upper _ _

set_option maxHeartbeats 4000000 in
/-- The lower 1024 rows of argument 4. -/
theorem e26 : V1 m ρ c main_v26 = Cert.Spec.lower (m ((c.tc : Thread nD τ).loc main_arg4)) := by
  show StableHlo.after hostOps0 (W0 m ρ c) (Proc.devRef .tc main_v26) = _
  simp only [hostOps0]
  after_results_simp
  exact slice_lower _ _

set_option maxHeartbeats 4000000 in
/-- The upper 1024 rows of argument 6. -/
theorem e27 : V1 m ρ c main_v27 = Cert.Spec.upper (m ((c.tc : Thread nD τ).loc main_arg6)) := by
  show StableHlo.after hostOps0 (W0 m ρ c) (Proc.devRef .tc main_v27) = _
  simp only [hostOps0]
  after_results_simp
  exact slice_upper _ _

set_option maxHeartbeats 4000000 in
/-- The lower 1024 rows of argument 6. -/
theorem e28 : V1 m ρ c main_v28 = Cert.Spec.lower (m ((c.tc : Thread nD τ).loc main_arg6)) := by
  show StableHlo.after hostOps0 (W0 m ρ c) (Proc.devRef .tc main_v28) = _
  simp only [hostOps0]
  after_results_simp
  exact slice_lower _ _

set_option maxHeartbeats 4000000 in
/-- The upper 1024 rows of argument 8. -/
theorem e29 : V1 m ρ c main_v29 = Cert.Spec.upper (m ((c.tc : Thread nD τ).loc main_arg8)) := by
  show StableHlo.after hostOps0 (W0 m ρ c) (Proc.devRef .tc main_v29) = _
  simp only [hostOps0]
  after_results_simp
  exact slice_upper _ _

set_option maxHeartbeats 4000000 in
/-- The lower 1024 rows of argument 8. -/
theorem e30 : V1 m ρ c main_v30 = Cert.Spec.lower (m ((c.tc : Thread nD τ).loc main_arg8)) := by
  show StableHlo.after hostOps0 (W0 m ρ c) (Proc.devRef .tc main_v30) = _
  simp only [hostOps0]
  after_results_simp
  exact slice_lower _ _

set_option maxHeartbeats 4000000 in
/-- The upper 1024 rows of argument 10. -/
theorem e31 : V1 m ρ c main_v31 = Cert.Spec.upper (m ((c.tc : Thread nD τ).loc main_arg10)) := by
  show StableHlo.after hostOps0 (W0 m ρ c) (Proc.devRef .tc main_v31) = _
  simp only [hostOps0]
  after_results_simp
  exact slice_upper _ _

set_option maxHeartbeats 4000000 in
/-- The lower 1024 rows of argument 10. -/
theorem e32 : V1 m ρ c main_v32 = Cert.Spec.lower (m ((c.tc : Thread nD τ).loc main_arg10)) := by
  show StableHlo.after hostOps0 (W0 m ρ c) (Proc.devRef .tc main_v32) = _
  simp only [hostOps0]
  after_results_simp
  exact slice_lower _ _

set_option maxHeartbeats 4000000 in
/-- Argument 0 is as launched when the first region is entered. -/
theorem eA0 : V1 m ρ c main_arg0 = (m ((c.tc : Thread nD τ).loc main_arg0)) := by
  show StableHlo.after hostOps0 (W0 m ρ c) (Proc.devRef .tc main_arg0) = _
  simp only [hostOps0]
  after_results_simp

set_option maxHeartbeats 4000000 in
/-- Argument 1 is as launched when the first region is entered. -/
theorem eA1 : V1 m ρ c main_arg1 = (m ((c.tc : Thread nD τ).loc main_arg1)) := by
  show StableHlo.after hostOps0 (W0 m ρ c) (Proc.devRef .tc main_arg1) = _
  simp only [hostOps0]
  after_results_simp

set_option maxHeartbeats 4000000 in
/-- Argument 3 is as launched when the first region is entered. -/
theorem eA3 : V1 m ρ c main_arg3 = (m ((c.tc : Thread nD τ).loc main_arg3)) := by
  show StableHlo.after hostOps0 (W0 m ρ c) (Proc.devRef .tc main_arg3) = _
  simp only [hostOps0]
  after_results_simp

set_option maxHeartbeats 4000000 in
/-- Argument 5 is as launched when the first region is entered. -/
theorem eA5 : V1 m ρ c main_arg5 = (m ((c.tc : Thread nD τ).loc main_arg5)) := by
  show StableHlo.after hostOps0 (W0 m ρ c) (Proc.devRef .tc main_arg5) = _
  simp only [hostOps0]
  after_results_simp

set_option maxHeartbeats 4000000 in
/-- Argument 7 is as launched when the first region is entered. -/
theorem eA7 : V1 m ρ c main_arg7 = (m ((c.tc : Thread nD τ).loc main_arg7)) := by
  show StableHlo.after hostOps0 (W0 m ρ c) (Proc.devRef .tc main_arg7) = _
  simp only [hostOps0]
  after_results_simp

set_option maxHeartbeats 4000000 in
/-- Argument 9 is as launched when the first region is entered. -/
theorem eA9 : V1 m ρ c main_arg9 = (m ((c.tc : Thread nD τ).loc main_arg9)) := by
  show StableHlo.after hostOps0 (W0 m ρ c) (Proc.devRef .tc main_arg9) = _
  simp only [hostOps0]
  after_results_simp

set_option maxHeartbeats 4000000 in
/-- Argument 11 is as launched when the first region is entered. -/
theorem eA11 : V1 m ρ c main_arg11 = (m ((c.tc : Thread nD τ).loc main_arg11)) := by
  show StableHlo.after hostOps0 (W0 m ρ c) (Proc.devRef .tc main_arg11) = _
  simp only [hostOps0]
  after_results_simp

set_option maxHeartbeats 4000000 in
/-- Argument 12 is as launched when the first region is entered. -/
theorem eA12 : V1 m ρ c main_arg12 = (m ((c.tc : Thread nD τ).loc main_arg12)) := by
  show StableHlo.after hostOps0 (W0 m ρ c) (Proc.devRef .tc main_arg12) = _
  simp only [hostOps0]
  after_results_simp

set_option maxHeartbeats 4000000 in
/-- Argument 13 is as launched when the first region is entered. -/
theorem eA13 : V1 m ρ c main_arg13 = (m ((c.tc : Thread nD τ).loc main_arg13)) := by
  show StableHlo.after hostOps0 (W0 m ρ c) (Proc.devRef .tc main_arg13) = _
  simp only [hostOps0]
  after_results_simp

set_option maxHeartbeats 4000000 in
/-- Argument 14 is as launched when the first region is entered. -/
theorem eA14 : V1 m ρ c main_arg14 = (m ((c.tc : Thread nD τ).loc main_arg14)) := by
  show StableHlo.after hostOps0 (W0 m ρ c) (Proc.devRef .tc main_arg14) = _
  simp only [hostOps0]
  after_results_simp

set_option maxHeartbeats 4000000 in
/-- Argument 15 is as launched when the first region is entered. -/
theorem eA15 : V1 m ρ c main_arg15 = (m ((c.tc : Thread nD τ).loc main_arg15)) := by
  show StableHlo.after hostOps0 (W0 m ρ c) (Proc.devRef .tc main_arg15) = _
  simp only [hostOps0]
  after_results_simp

set_option maxHeartbeats 4000000 in
/-- Argument 16 is as launched when the first region is entered. -/
theorem eA16 : V1 m ρ c main_arg16 = (m ((c.tc : Thread nD τ).loc main_arg16)) := by
  show StableHlo.after hostOps0 (W0 m ρ c) (Proc.devRef .tc main_arg16) = _
  simp only [hostOps0]
  after_results_simp

set_option maxHeartbeats 4000000 in
/-- Argument 17 is as launched when the first region is entered. -/
theorem eA17 : V1 m ρ c main_arg17 = (m ((c.tc : Thread nD τ).loc main_arg17)) := by
  show StableHlo.after hostOps0 (W0 m ρ c) (Proc.devRef .tc main_arg17) = _
  simp only [hostOps0]
  after_results_simp

set_option maxHeartbeats 4000000 in
/-- Argument 18 is as launched when the first region is entered. -/
theorem eA18 : V1 m ρ c main_arg18 = (m ((c.tc : Thread nD τ).loc main_arg18)) := by
  show StableHlo.after hostOps0 (W0 m ρ c) (Proc.devRef .tc main_arg18) = _
  simp only [hostOps0]
  after_results_simp

set_option maxHeartbeats 4000000 in
/-- Argument 19 is as launched when the first region is entered. -/
theorem eA19 : V1 m ρ c main_arg19 = (m ((c.tc : Thread nD τ).loc main_arg19)) := by
  show StableHlo.after hostOps0 (W0 m ρ c) (Proc.devRef .tc main_arg19) = _
  simp only [hostOps0]
  after_results_simp

end Cert.KernelIdeal.HostFold

end
-- ==== Proof.RefSegMean.lean ====
/-
  Each of the four segment means is one function of the index array and of the matrix of messages being averaged: the
  messages are summed into the rows their index names (a scatter-add into a zero matrix) and each row is divided by the
  number of messages it received, counted the same way and floored at 1. The functions below name that chain with the
  message matrix as a variable; the reference's stages are these functions at its gated messages.
-/
import proofs.«180715_j12979391168960_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo

variable (x0 : (⟨S4096x1024, .f32⟩ : BufTy).Contents (Elt Ideal))
  (x1 : (⟨S2048x1024, .f32⟩ : BufTy).Contents (Elt Ideal))
  (x2 : (⟨S2x65536, .i32⟩ : BufTy).Contents (Elt Ideal))
  (x3 : (⟨S65536, .i32⟩ : BufTy).Contents (Elt Ideal))
  (x4 : (⟨S2048x128, .f32⟩ : BufTy).Contents (Elt Ideal))
  (x5 : (⟨S128, .f32⟩ : BufTy).Contents (Elt Ideal))
  (x6 : (⟨S2048x128, .f32⟩ : BufTy).Contents (Elt Ideal))
  (x7 : (⟨S128, .f32⟩ : BufTy).Contents (Elt Ideal))
  (x8 : (⟨S2048x128, .f32⟩ : BufTy).Contents (Elt Ideal))
  (x9 : (⟨S128, .f32⟩ : BufTy).Contents (Elt Ideal))
  (x10 : (⟨S2048x128, .f32⟩ : BufTy).Contents (Elt Ideal))
  (x11 : (⟨S128, .f32⟩ : BufTy).Contents (Elt Ideal))

/-- The mean, per instance, of the rows of `u` whose edge has that instance as its subject. -/
def segPs (x2 : (⟨S2x65536, .i32⟩ : BufTy).Contents (Elt Ideal)) (u : (⟨S65536x1024, .f32⟩ : BufTy).Contents (Elt Ideal)) : (⟨S4096x1024, .f32⟩ : BufTy).Contents (Elt Ideal) :=
  Host.divf (F := Ideal) (φ := .f32) (Host.scatterAdd (F := Ideal) (φ := .f32) scatter_S4096x1024_S65536x1_S65536x1024_1_0_0_1 (val_main_v43 (F := Ideal)) (val_main_v44 (F := Ideal) x2) u)
    (val_main_v53 (F := Ideal) x2)

/-- The mean, per instance, of the rows of `u` whose edge has that instance as its object. -/
def segPo (x2 : (⟨S2x65536, .i32⟩ : BufTy).Contents (Elt Ideal)) (u : (⟨S65536x1024, .f32⟩ : BufTy).Contents (Elt Ideal)) : (⟨S4096x1024, .f32⟩ : BufTy).Contents (Elt Ideal) :=
  Host.divf (F := Ideal) (φ := .f32) (Host.scatterAdd (F := Ideal) (φ := .f32) scatter_S4096x1024_S65536x1_S65536x1024_1_0_0_1 (val_main_v73 (F := Ideal)) (val_main_v74 (F := Ideal) x2) u)
    (val_main_v83 (F := Ideal) x2)

/-- The mean, per phrase, of the rows of `u` whose edge carries that phrase (the object-to-phrase messages). -/
def segOp (x3 : (⟨S65536, .i32⟩ : BufTy).Contents (Elt Ideal)) (u : (⟨S65536x1024, .f32⟩ : BufTy).Contents (Elt Ideal)) : (⟨S2048x1024, .f32⟩ : BufTy).Contents (Elt Ideal) :=
  Host.divf (F := Ideal) (φ := .f32) (Host.scatterAdd (F := Ideal) (φ := .f32) scatter_S2048x1024_S65536x1_S65536x1024_1_0_0_1 (val_main_v103 (F := Ideal)) (val_main_v104 (F := Ideal) x3) u)
    (val_main_v113 (F := Ideal) x3)

/-- The mean, per phrase, of the rows of `u` whose edge carries that phrase (the subject-to-phrase messages). -/
def segSp (x3 : (⟨S65536, .i32⟩ : BufTy).Contents (Elt Ideal)) (u : (⟨S65536x1024, .f32⟩ : BufTy).Contents (Elt Ideal)) : (⟨S2048x1024, .f32⟩ : BufTy).Contents (Elt Ideal) :=
  Host.divf (F := Ideal) (φ := .f32) (Host.scatterAdd (F := Ideal) (φ := .f32) scatter_S2048x1024_S65536x1_S65536x1024_1_0_0_1 (val_main_v133 (F := Ideal)) (val_main_v134 (F := Ideal) x3) u)
    (val_main_v143 (F := Ideal) x3)

theorem segmean_ps :
    val_main_v54 (F := Ideal) x0 x1 x2 x3 x4 x5 = segPs x2 (val_main_v42 (F := Ideal) x0 x1 x2 x3 x4 x5) := by
  unfold val_main_v54 val_main_v45 segPs
  rfl

theorem segmean_po :
    val_main_v84 (F := Ideal) x0 x1 x2 x3 x6 x7 = segPo x2 (val_main_v72 (F := Ideal) x0 x1 x2 x3 x6 x7) := by
  unfold val_main_v84 val_main_v75 segPo
  rfl

theorem segmean_op :
    val_main_v114 (F := Ideal) x0 x1 x2 x3 x8 x9 = segOp x3 (val_main_v102 (F := Ideal) x0 x1 x2 x3 x8 x9) := by
  unfold val_main_v114 val_main_v105 segOp
  rfl

theorem segmean_sp :
    val_main_v144 (F := Ideal) x0 x1 x2 x3 x10 x11 = segSp x3 (val_main_v132 (F := Ideal) x0 x1 x2 x3 x10 x11) := by
  unfold val_main_v144 val_main_v135 segSp
  rfl

end Cert.ReferenceIdeal.RefValue

end
-- ==== Proof.KernelHost1.lean ====
/-
  What the host operations between the first and the second region leave in the buffers the two refinement
  calls read. Each of the four message arrays the first region wrote is averaged per instance or per phrase: the
  rows are summed into the rows their index vector names and divided by the number of rows received, floored at 1.
  The index vectors are the reference's, so each average is the reference's own averaging function applied to the
  first region's message array; the arguments no host operation writes are as launched.
-/
import proofs.«180715_j12979391168960_2_alg».proof.Proof.KernelHost0
import proofs.«180715_j12979391168960_2_alg».proof.Proof.RefSegMean

noncomputable section

open Cert.KernelIdeal Cert.KernelIdeal.Gen Idealize.ShloMosaic Idealize.ShloMosaic.TcCoe Idealize.ShloMosaic.Tactic
open Idealize.ShloMosaic.StableHlo Idealize.SL.Sem

namespace Cert.KernelIdeal.HostFold

variable (m : (ℓ : Loc nD τ sig) → Buf (Elt Ideal) ℓ) (ρ : Dev nD → PrngReg) (c : Dev nD)

set_option maxHeartbeats 4000000 in
/-- The subject-side instance average of the first message array. -/
theorem s45 : V3 m ρ c main_v45 = Cert.ReferenceIdeal.RefValue.segPs (m ((c.tc : Thread nD τ).loc main_arg2)) (V2 m ρ c main_v33_0) := by
  show StableHlo.after hostOps1 (W2 m ρ c) (Proc.devRef .tc main_v45) = _
  simp only [hostOps1]
  after_results_simp
  have hleaf : W2 m ρ c (Proc.devRef .tc main_v1) = _ := (W2_of_ne m ρ c main_v1 (by decide)).trans (e1 m ρ c)
  rw [hleaf]
  rfl

set_option maxHeartbeats 4000000 in
/-- The object-side instance average of the second message array. -/
theorem s57 : V3 m ρ c main_v57 = Cert.ReferenceIdeal.RefValue.segPo (m ((c.tc : Thread nD τ).loc main_arg2)) (V2 m ρ c main_v33_1) := by
  show StableHlo.after hostOps1 (W2 m ρ c) (Proc.devRef .tc main_v57) = _
  simp only [hostOps1]
  after_results_simp
  have hleaf : W2 m ρ c (Proc.devRef .tc main_v3) = _ := (W2_of_ne m ρ c main_v3 (by decide)).trans (e3 m ρ c)
  rw [hleaf]
  rfl

set_option maxHeartbeats 4000000 in
/-- The phrase average of the third message array. -/
theorem s69 : V3 m ρ c main_v69 = Cert.ReferenceIdeal.RefValue.segOp (m ((c.tc : Thread nD τ).loc main_arg3)) (V2 m ρ c main_v33_2) := by
  show StableHlo.after hostOps1 (W2 m ρ c) (Proc.devRef .tc main_v69) = _
  simp only [hostOps1]
  after_results_simp
  have hleaf : W2 m ρ c (Proc.devRef .tc main_arg3) = _ := (W2_of_ne m ρ c main_arg3 (by decide)).trans (eA3 m ρ c)
  rw [hleaf]
  rfl

set_option maxHeartbeats 4000000 in
/-- The phrase average of the fourth message array. -/
theorem s81 : V3 m ρ c main_v81 = Cert.ReferenceIdeal.RefValue.segSp (m ((c.tc : Thread nD τ).loc main_arg3)) (V2 m ρ c main_v33_3) := by
  show StableHlo.after hostOps1 (W2 m ρ c) (Proc.devRef .tc main_v81) = _
  simp only [hostOps1]
  after_results_simp
  have hleaf : W2 m ρ c (Proc.devRef .tc main_arg3) = _ := (W2_of_ne m ρ c main_arg3 (by decide)).trans (eA3 m ρ c)
  rw [hleaf]
  rfl

set_option maxHeartbeats 4000000 in
/-- Argument 0 is as launched when the second region is entered. -/
theorem sA0 : V3 m ρ c main_arg0 = (m ((c.tc : Thread nD τ).loc main_arg0)) := by
  show StableHlo.after hostOps1 (W2 m ρ c) (Proc.devRef .tc main_arg0) = _
  simp only [hostOps1]
  after_results_simp
  exact (W2_of_ne m ρ c main_arg0 (by decide)).trans (eA0 m ρ c)

set_option maxHeartbeats 4000000 in
/-- Argument 1 is as launched when the second region is entered. -/
theorem sA1 : V3 m ρ c main_arg1 = (m ((c.tc : Thread nD τ).loc main_arg1)) := by
  show StableHlo.after hostOps1 (W2 m ρ c) (Proc.devRef .tc main_arg1) = _
  simp only [hostOps1]
  after_results_simp
  exact (W2_of_ne m ρ c main_arg1 (by decide)).trans (eA1 m ρ c)

set_option maxHeartbeats 4000000 in
/-- Argument 12 is as launched when the second region is entered. -/
theorem sA12 : V3 m ρ c main_arg12 = (m ((c.tc : Thread nD τ).loc main_arg12)) := by
  show StableHlo.after hostOps1 (W2 m ρ c) (Proc.devRef .tc main_arg12) = _
  simp only [hostOps1]
  after_results_simp
  exact (W2_of_ne m ρ c main_arg12 (by decide)).trans (eA12 m ρ c)

set_option maxHeartbeats 4000000 in
/-- Argument 13 is as launched when the second region is entered. -/
theorem sA13 : V3 m ρ c main_arg13 = (m ((c.tc : Thread nD τ).loc main_arg13)) := by
  show StableHlo.after hostOps1 (W2 m ρ c) (Proc.devRef .tc main_arg13) = _
  simp only [hostOps1]
  after_results_simp
  exact (W2_of_ne m ρ c main_arg13 (by decide)).trans (eA13 m ρ c)

set_option maxHeartbeats 4000000 in
/-- Argument 14 is as launched when the second region is entered. -/
theorem sA14 : V3 m ρ c main_arg14 = (m ((c.tc : Thread nD τ).loc main_arg14)) := by
  show StableHlo.after hostOps1 (W2 m ρ c) (Proc.devRef .tc main_arg14) = _
  simp only [hostOps1]
  after_results_simp
  exact (W2_of_ne m ρ c main_arg14 (by decide)).trans (eA14 m ρ c)

set_option maxHeartbeats 4000000 in
/-- Argument 15 is as launched when the second region is entered. -/
theorem sA15 : V3 m ρ c main_arg15 = (m ((c.tc : Thread nD τ).loc main_arg15)) := by
  show StableHlo.after hostOps1 (W2 m ρ c) (Proc.devRef .tc main_arg15) = _
  simp only [hostOps1]
  after_results_simp
  exact (W2_of_ne m ρ c main_arg15 (by decide)).trans (eA15 m ρ c)

set_option maxHeartbeats 4000000 in
/-- Argument 16 is as launched when the second region is entered. -/
theorem sA16 : V3 m ρ c main_arg16 = (m ((c.tc : Thread nD τ).loc main_arg16)) := by
  show StableHlo.after hostOps1 (W2 m ρ c) (Proc.devRef .tc main_arg16) = _
  simp only [hostOps1]
  after_results_simp
  exact (W2_of_ne m ρ c main_arg16 (by decide)).trans (eA16 m ρ c)

set_option maxHeartbeats 4000000 in
/-- Argument 17 is as launched when the second region is entered. -/
theorem sA17 : V3 m ρ c main_arg17 = (m ((c.tc : Thread nD τ).loc main_arg17)) := by
  show StableHlo.after hostOps1 (W2 m ρ c) (Proc.devRef .tc main_arg17) = _
  simp only [hostOps1]
  after_results_simp
  exact (W2_of_ne m ρ c main_arg17 (by decide)).trans (eA17 m ρ c)

set_option maxHeartbeats 4000000 in
/-- Argument 18 is as launched when the second region is entered. -/
theorem sA18 : V3 m ρ c main_arg18 = (m ((c.tc : Thread nD τ).loc main_arg18)) := by
  show StableHlo.after hostOps1 (W2 m ρ c) (Proc.devRef .tc main_arg18) = _
  simp only [hostOps1]
  after_results_simp
  exact (W2_of_ne m ρ c main_arg18 (by decide)).trans (eA18 m ρ c)

set_option maxHeartbeats 4000000 in
/-- Argument 19 is as launched when the second region is entered. -/
theorem sA19 : V3 m ρ c main_arg19 = (m ((c.tc : Thread nD τ).loc main_arg19)) := by
  show StableHlo.after hostOps1 (W2 m ρ c) (Proc.devRef .tc main_arg19) = _
  simp only [hostOps1]
  after_results_simp
  exact (W2_of_ne m ρ c main_arg19 (by decide)).trans (eA19 m ρ c)

end Cert.KernelIdeal.HostFold

end
-- ==== Proof.LibKeepdimsSum.lean ====
/-
  A row sum kept as a column, read at an index.

  `jnp.sum(x, axis=-1, keepdims=True)` of an `[a, b]` matrix is computed as a sum along the last axis into an `[a]`
  vector, which a shape cast then stands up as an `[a, 1]` column. Over the extended reals the sum from the zero
  accumulator is the plain finite sum of the row, so the column's entry at `(p, 0)` is Σ_k x[p, k].
-/
import Idealize.ShloMosaic.Lib.ValueLayout
import Idealize.ShloMosaic.PureOps.Ideal.Laws

namespace Cert.KeepdimsSum

open Idealize.ShloMosaic Idealize.ShloMosaic.ValueIdx

variable {α : Type}

/-- An `[a]` vector cast to an `[a, 1]` column reads, at `(p, u)`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A float sum along the last axis of an `[a, b]` matrix from the zero accumulator, read over the extended reals:
    entry `p` of the result is the finite sum of row `p`. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The same sum kept as an `[a, 1]` column: its entry at `(p, u)` is the finite sum of row `p`. -/
theorem rowSum_column_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (shapeCast_a_a1_apply _ hc p u).trans (rowSum_apply src h hφ hacc p)

end Cert.KeepdimsSum
-- ==== Proof.MsgPayload.lean ====
/-
  One block of 256 edges of the four gated messages, read at an index.

  Each stored block is the same term of six operands: the source block x times, repeated along the 1024 columns, the
  column  (Σⱼ logistic (max (a·wa + b·wb + bias) 0)) / 128,  where a and b are the bf16 copies of two of the loaded blocks,
  wa and wb two [1024, 128] weight blocks, the products are taken into a zero accumulator and the sum runs over the
  128 features. Over the extended reals the copies are the blocks themselves, a product into the zero accumulator is the
  plain sum over the 1024 contracted columns and the lane sum is the plain sum, so entry (p, q) of the block is
    x[p,q] · ((Σⱼ logistic (max (Σₖ a[p,k]·wa[k,j] + Σₖ b[p,k]·wb[k,j] + bias[j]) 0)) / 128).
  `gated_apply` proves this once for the term over variables; the four stored payloads are instances.
-/
import proofs.«180715_j12979391168960_2_alg».proof.Proof.Gen.KernelIdeal.Skeleton
import proofs.«180715_j12979391168960_2_alg».proof.Proof.Spec
import proofs.«180715_j12979391168960_2_alg».proof.Proof.LibKeepdimsSum
import Idealize.ShloMosaic.Lib.ValueLayout
import Idealize.ShloMosaic.PureOps.Ideal.Laws

noncomputable section

namespace Cert.KernelIdeal.MsgPayload

open Idealize.ShloMosaic Idealize.ShloMosaic.ValueIdx
open Cert.KernelIdeal Cert.KernelIdeal.Gen

/-- An [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The dimension numbers of the block's products: [256, 1024] · [1024, 128], contracted over the 1024 columns. -/
abbrev D : DotDims S256x1024 S1024x128 S256x128 := dot_S256x1024_S1024x128_S256x128_1_0_0_1_n_n

theorem lhs_row (i : S256x128.Idx) (q : D.contr.Idx) : (D.lhsIdx i q 0).val = (i 0).val := by
  unfold DotDims.lhsIdx
  rw [dif_neg (show ¬(0 : Fin S256x1024.rank) ∈ D.lhsBatch by decide), dif_pos (show (0 : Fin S256x1024.rank) ∈ D.lhsNonContracting by decide)]
  rfl
theorem lhs_col (i : S256x128.Idx) (q : D.contr.Idx) : (D.lhsIdx i q 1).val = (q ⟨0, by decide⟩).val :=
  D.lhsIdx_val_of_single rfl i q
theorem rhs_row (i : S256x128.Idx) (q : D.contr.Idx) : (D.rhsIdx i q 0).val = (q ⟨0, by decide⟩).val :=
  D.rhsIdx_val_of_single rfl i q
theorem rhs_col (i : S256x128.Idx) (q : D.contr.Idx) : (D.rhsIdx i q 1).val = (i 1).val := by
  unfold DotDims.rhsIdx
  rw [dif_neg (show ¬(1 : Fin S1024x128.rank) ∈ D.rhsBatch by decide), dif_pos (show (1 : Fin S1024x128.rank) ∈ D.rhsNonContracting by decide)]
  rfl

/-- The block's matrix product into the zero accumulator, at (p, j): the sum over the 1024 contracted columns. -/
theorem matmul_at {φ₁ φ₂ : FTy} (a : FVec Ideal S256x1024 φ₁) (w : FVec Ideal S1024x128 φ₂) (p : Fin 256) (j : Fin 128) :
    matmul D none a w (constant (F := Ideal) S256x128 .f32 0x00000000#32) (ix2 p j)
      = ∑ k : Fin 1024, a (ix2 p k) * w (ix2 k j) := by
  refine (Ideal.matmul_constant_zero_apply D none a w (ix2 p j)).trans ?_
  rw [← Equiv.sum_comp (contrEquiv1 D 1024 rfl rfl).symm]
  refine Finset.sum_congr rfl fun k _ => ?_
  have hk := contrEquiv1_symm_val D 1024 rfl rfl k
  have el : D.lhsIdx (ix2 p j) ((contrEquiv1 D 1024 rfl rfl).symm k) = ix2 p k := funext fun ax => Fin.ext (by
    match ax with
    | ⟨0, _⟩ => exact lhs_row _ _
    | ⟨1, _⟩ => exact (lhs_col _ _).trans hk)
  have er : D.rhsIdx (ix2 p j) ((contrEquiv1 D 1024 rfl rfl).symm k) = ix2 k j := funext fun ax => Fin.ext (by
    match ax with
    | ⟨0, _⟩ => exact (rhs_row _ _).trans hk
    | ⟨1, _⟩ => exact rhs_col _ _)
  rw [el, er]

/-- The bias, stood up as one row and repeated over the 256 rows, at (p, j): the bias's entry j. -/
theorem bias_at (b : FVec Ideal S128 .f32) (p : Fin 256) (j : Fin 128) :
    broadcastTo S256x128 (shapeCast S1x128 b shapeCasts_S128_S1x128) broadcasts_S1x128_S256x128 (ix2 p j) = b (ix1 j) :=
  (broadcastTo_1b_ab_apply _ broadcasts_S1x128_S256x128 p j).trans (shapeCast_a_1a_apply b shapeCasts_S128_S1x128 0 j)

/-- The body's gated message as one term of its six operands: the source block `x`, the two bf16 copies `a`, `b` that
    enter the products with the weights `wa`, `wb`, and the bias. -/
def gated (x : FVec Ideal S256x1024 .f32) (a b : FVec Ideal S256x1024 .bf16) (wa wb : FVec Ideal S1024x128 .bf16)
    (bias : FVec Ideal S128 .f32) : FVec Ideal S256x1024 .f32 :=
  mulf x (broadcastTo S256x1024
    (divf
      (shapeCast S256x1
        (multiReduction .add [1] S256
          (logistic (maximumf
            (addf
              (addf (matmul D none a wa (constant S256x128 .f32 0x00000000#32))
                (matmul D none b wb (constant S256x128 .f32 0x00000000#32)))
              (broadcastTo S256x128 (shapeCast S1x128 bias shapeCasts_S128_S1x128) broadcasts_S1x128_S256x128))
            (broadcast S256x128 (Scalar.ofBits .f32 0x00000000#32))))
          0x00000000#32 reduces_S256x128_S256 (.inl rfl) rfl)
        shapeCasts_S256_S256x1)
      (broadcast S256x1 (Scalar.ofBits .f32 0x43000000#32)))
    broadcasts_S256x1_S256x1024)

/-- One block's gated message, index by index: row `p` of `x` scaled by the mean over the 128 features `j` of
    `logistic (relu (Σₖ x[p,k]·ws[k,j] + Σₖ y[p,k]·wt[k,j] + b[j]))`. -/
def blockMsg (x y : S256x1024.Idx → EReal) (ws wt : S1024x128.Idx → EReal) (b : S128.Idx → EReal)
    (p : Fin 256) (q : Fin 1024) : EReal :=
  x (ix2 p q) * Ideal.div (∑ j : Fin 128, Ideal.logistic (Cert.Spec.relu
    (((∑ k : Fin 1024, x (ix2 p k) * ws (ix2 k j)) + ∑ k : Fin 1024, y (ix2 p k) * wt (ix2 k j)) + b (ix1 j))))
    Cert.Spec.c128

/-- The gated term at (p, q). -/
theorem gated_apply (x : FVec Ideal S256x1024 .f32) (a b : FVec Ideal S256x1024 .bf16) (wa wb : FVec Ideal S1024x128 .bf16)
    (bias : FVec Ideal S128 .f32) (p : Fin 256) (q : Fin 1024) :
    gated x a b wa wb bias (ix2 p q)
      = x (ix2 p q) * Ideal.div (∑ j : Fin 128, Ideal.logistic (max
          (((∑ k : Fin 1024, a (ix2 p k) * wa (ix2 k j)) + ∑ k : Fin 1024, b (ix2 p k) * wb (ix2 k j)) + bias (ix1 j)) 0))
          (Ideal.ofBits .f32 0x43000000#32) := by
  unfold gated
  refine congrArg (x (ix2 p q) * ·) ?_
  refine (broadcastTo_a1_ab_apply _ broadcasts_S256x1_S256x1024 p q).trans ?_
  refine congrArg (fun s => Ideal.div s (Ideal.ofBits .f32 0x43000000#32)) ?_
  refine (Cert.KeepdimsSum.rowSum_column_apply _ reduces_S256x128_S256 _ _ shapeCasts_S256_S256x1 p 0).trans ?_
  refine Finset.sum_congr rfl fun j _ => ?_
  refine congrArg Ideal.logistic ?_
  refine congr (congrArg max ?_) Ideal.ofBits_zero_f32
  exact congr (congrArg (· + ·) (congr (congrArg (· + ·) (matmul_at a wa p j)) (matmul_at b wb p j))) (bias_at bias p j)

/-- The message of `x0` gated by (`x0`, `x1`): the first stored payload is the gated term of its loaded blocks (the
    same-shape casts are the identity, the bf16 copies are the blocks themselves). -/
theorem pay8_eq (x0 x1 : Vec Ideal S256x1024 .f32) (x3 x4 : Vec Ideal S1024x128 .f32) (x5 : Vec Ideal S128 .f32) :
    k0_pay8 x0 x1 x3 x4 x5 = gated x0 x0 x1 x3 x4 x5 := by
  show gated (shapeCast S256x1024 x0 shapeCasts_S256x1024_S256x1024) (shapeCast S256x1024 x0 shapeCasts_S256x1024_S256x1024)
    (shapeCast S256x1024 x1 shapeCasts_S256x1024_S256x1024) (shapeCast S1024x128 x3 shapeCasts_S1024x128_S1024x128)
    (shapeCast S1024x128 x4 shapeCasts_S1024x128_S1024x128) x5 = _
  simp only [shapeCast_self]

theorem pay8_apply (x0 x1 : Vec Ideal S256x1024 .f32) (x3 x4 : Vec Ideal S1024x128 .f32) (x5 : Vec Ideal S128 .f32)
    (p : Fin 256) (q : Fin 1024) : k0_pay8 x0 x1 x3 x4 x5 (ix2 p q) = blockMsg x0 x1 x3 x4 x5 p q :=
  (congrFun (pay8_eq x0 x1 x3 x4 x5) (ix2 p q)).trans (gated_apply x0 x0 x1 x3 x4 x5 p q)

/-- The message of `x0` gated by (`x0`, `x2`). -/
theorem pay10_eq (x0 x2 : Vec Ideal S256x1024 .f32) (x6 x7 : Vec Ideal S1024x128 .f32) (x8 : Vec Ideal S128 .f32) :
    k0_pay10 (k0_pay2 x0) (k0_pay5 x0) (k0_pay7 x2) (k0_pay9 x6) x7 x8 = gated x0 x0 x2 x6 x7 x8 := by
  show gated (shapeCast S256x1024 x0 shapeCasts_S256x1024_S256x1024) (shapeCast S256x1024 x0 shapeCasts_S256x1024_S256x1024)
    (shapeCast S256x1024 x2 shapeCasts_S256x1024_S256x1024) (shapeCast S1024x128 x6 shapeCasts_S1024x128_S1024x128)
    (shapeCast S1024x128 x7 shapeCasts_S1024x128_S1024x128) x8 = _
  simp only [shapeCast_self]

theorem pay10_apply (x0 x2 : Vec Ideal S256x1024 .f32) (x6 x7 : Vec Ideal S1024x128 .f32) (x8 : Vec Ideal S128 .f32)
    (p : Fin 256) (q : Fin 1024) :
    k0_pay10 (k0_pay2 x0) (k0_pay5 x0) (k0_pay7 x2) (k0_pay9 x6) x7 x8 (ix2 p q) = blockMsg x0 x2 x6 x7 x8 p q :=
  (congrFun (pay10_eq x0 x2 x6 x7 x8) (ix2 p q)).trans (gated_apply x0 x0 x2 x6 x7 x8 p q)

/-- The message of `x2` gated by (`x2`, `x0`). -/
theorem pay11_eq (x0 x2 : Vec Ideal S256x1024 .f32) (x9 x10 : Vec Ideal S1024x128 .f32) (x11 : Vec Ideal S128 .f32) :
    k0_pay11 (k0_pay4 x2) (k0_pay5 x0) (k0_pay7 x2) x9 x10 x11 = gated x2 x2 x0 x9 x10 x11 := by
  show gated (shapeCast S256x1024 x2 shapeCasts_S256x1024_S256x1024) (shapeCast S256x1024 x2 shapeCasts_S256x1024_S256x1024)
    (shapeCast S256x1024 x0 shapeCasts_S256x1024_S256x1024) (shapeCast S1024x128 x9 shapeCasts_S1024x128_S1024x128)
    (shapeCast S1024x128 x10 shapeCasts_S1024x128_S1024x128) x11 = _
  simp only [shapeCast_self]

theorem pay11_apply (x0 x2 : Vec Ideal S256x1024 .f32) (x9 x10 : Vec Ideal S1024x128 .f32) (x11 : Vec Ideal S128 .f32)
    (p : Fin 256) (q : Fin 1024) :
    k0_pay11 (k0_pay4 x2) (k0_pay5 x0) (k0_pay7 x2) x9 x10 x11 (ix2 p q) = blockMsg x2 x0 x9 x10 x11 p q :=
  (congrFun (pay11_eq x0 x2 x9 x10 x11) (ix2 p q)).trans (gated_apply x2 x2 x0 x9 x10 x11 p q)

/-- The message of `x1` gated by (`x1`, `x0`). -/
theorem pay1_eq (x0 x1 : Vec Ideal S256x1024 .f32) (x12 x13 : Vec Ideal S1024x128 .f32) (x14 : Vec Ideal S128 .f32) :
    k0_pay1 (k0_pay3 x1) (k0_pay5 x0) (k0_pay6 x1) x12 x13 x14 = gated x1 x1 x0 x12 x13 x14 := by
  show gated (shapeCast S256x1024 x1 shapeCasts_S256x1024_S256x1024) (shapeCast S256x1024 x1 shapeCasts_S256x1024_S256x1024)
    (shapeCast S256x1024 x0 shapeCasts_S256x1024_S256x1024) (shapeCast S1024x128 x12 shapeCasts_S1024x128_S1024x128)
    (shapeCast S1024x128 x13 shapeCasts_S1024x128_S1024x128) x14 = _
  simp only [shapeCast_self]

theorem pay1_apply (x0 x1 : Vec Ideal S256x1024 .f32) (x12 x13 : Vec Ideal S1024x128 .f32) (x14 : Vec Ideal S128 .f32)
    (p : Fin 256) (q : Fin 1024) :
    k0_pay1 (k0_pay3 x1) (k0_pay5 x0) (k0_pay6 x1) x12 x13 x14 (ix2 p q) = blockMsg x1 x0 x12 x13 x14 p q :=
  (congrFun (pay1_eq x0 x1 x12 x13 x14) (ix2 p q)).trans (gated_apply x1 x1 x0 x12 x13 x14 p q)

end Cert.KernelIdeal.MsgPayload

end
-- ==== Proof.MsgBlocks.lean ====
/-
  Region 0 of the idealized kernel: its four output arrays as whole-array functions of the arrays the region finds.

  The grid has 256 points; at point t the three row windows and the four output windows stage rows 256·t … 256·t + 255 of
  their [65536, 1024] arrays, and the weight and bias windows stage their whole arrays. The body stores one payload into
  each output block, and each payload at (p, q) is one block's gated message (the payload module). Rows p of the staged
  blocks are rows 256·t + p of the arrays, so what point t writes back is block t of the whole-array gated message; the 256
  blocks tile the 65536 rows (row r lies in block r / 256), so each output array ends holding that message.
-/
import proofs.«180715_j12979391168960_2_alg».proof.Proof.Gen.KernelIdeal.Frame
import proofs.«180715_j12979391168960_2_alg».proof.Proof.MsgPayload
import Idealize.ShloMosaic.Lib.Pipeline.Value

noncomputable section

namespace Cert.KernelIdeal.MsgValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.MsgPayload

variable (V : (c : Dev nD) → (b : Ref sig .tc) → Buf (Elt Ideal) ((c : Thread nD τ).loc b)) (c : Dev nD)

theorem hz2 : (![0, 0] : Fin 2 → Nat) = fun _ => 0 := funext fun a => by fin_cases a <;> rfl
theorem hz1 : (![0] : Fin 1 → Nat) = fun _ => 0 := funext fun a => by fin_cases a <;> rfl

/-- The grid has 256 points. -/
theorem lt_N (t : Fin cfg0.N) : t.val < 256 := lt_of_lt_of_eq t.isLt N_0

/-- The three row windows and the four output windows move down the 65536 rows one block of 256 rows per grid point
    (the printed index maps, decided over the grid). -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_15.index t (0 : Fin 2) = t.val ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0)
    ∧ (win0_18.index t (0 : Fin 2) = t.val ∧ win0_18.index t (1 : Fin 2) = 0) :=
  (by decide +kernel : ∀ t : Fin grid0.N, _)

/-- The weight and bias windows sit at block (0, 0) / (0) at every point. -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ (win0_10.index t (0 : Fin 2) = 0 ∧ win0_10.index t (1 : Fin 2) = 0)
    ∧ win0_11.index t (0 : Fin 1) = 0
    ∧ (win0_12.index t (0 : Fin 2) = 0 ∧ win0_12.index t (1 : Fin 2) = 0)
    ∧ (win0_13.index t (0 : Fin 2) = 0 ∧ win0_13.index t (1 : Fin 2) = 0)
    ∧ win0_14.index t (0 : Fin 1) = 0 :=
  (by decide +kernel : ∀ t : Fin grid0.N, _)

/-- One gated message over the whole edge array, from one block's: when rows `p` of the blocks `x`, `y` are rows `e` of
    `X`, `Y` and the weights and bias are the arrays', entry (p, q) of the block's message is entry (e, q) of the array's. -/
theorem blockMsg_eq_msg (X Y : Cert.Spec.SED.Idx → EReal) (Ws Wt : Cert.Spec.SW1.Idx → EReal) (b : Cert.Spec.SB.Idx → EReal)
    (x y : S256x1024.Idx → EReal) (ws wt : S1024x128.Idx → EReal) (b' : S128.Idx → EReal) (e : Fin 65536) (p : Fin 256)
    (hx : ∀ k : Fin 1024, x (ix2 p k) = X (ix2 e k)) (hy : ∀ k : Fin 1024, y (ix2 p k) = Y (ix2 e k))
    (hws : ws = Ws) (hwt : wt = Wt) (hb : b' = b) (q : Fin 1024) :
    blockMsg x y ws wt b' p q = Cert.Spec.msg X Y Ws Wt b (ix2 e q) := by
  subst hws hwt hb
  unfold blockMsg Cert.Spec.msg Cert.Spec.gate Cert.Spec.logit
  simp only [hx, hy]

/-- Two [256, 1024] blocks that agree entry by entry are equal. -/
theorem block_ext (f g : S256x1024.Idx → EReal) (h : ∀ (p : Fin 256) (q : Fin 1024), f (ix2 p q) = g (ix2 p q)) : f = g :=
  funext fun y => by rw [eq_ix2 y]; exact h _ _

/-! ## The input blocks read off their arrays -/

/-- Entry (p, k) of row window 0's block at point `t` is entry (256·t + p, k) of its array. -/
theorem iblk_0 (t : Fin cfg0.N) (p : Fin 256) (k : Fin 1024) (e : Fin 65536) (he : e.val = 256 * t.val + p.val) :
    (iblk0 V c 0 t : Vec Ideal S256x1024 .f32) (ix2 p k) = (V c main_v24 : S65536x1024.Idx → EReal) (ix2 e k) := by
  obtain ⟨⟨e0, e1⟩, -⟩ := idx_rows t
  unfold iblk0
  rw [View.read_apply]
  show V c main_v24 _ = V c main_v24 _
  congr 1
  funext a
  apply Fin.ext
  match a with
  | ⟨0, _⟩ => show win0_0.index t 0 * 256 + 1 * p.val = e.val; rw [e0, he]; omega
  | ⟨1, _⟩ => show win0_0.index t 1 * 1024 + 1 * k.val = k.val; rw [e1]; omega

/-- Entry (p, k) of row window 1's block at point `t` is entry (256·t + p, k) of its array. -/
theorem iblk_1 (t : Fin cfg0.N) (p : Fin 256) (k : Fin 1024) (e : Fin 65536) (he : e.val = 256 * t.val + p.val) :
    (iblk0 V c 1 t : Vec Ideal S256x1024 .f32) (ix2 p k) = (V c main_v10 : S65536x1024.Idx → EReal) (ix2 e k) := by
  obtain ⟨-, ⟨e0, e1⟩, -⟩ := idx_rows t
  unfold iblk0
  rw [View.read_apply]
  show V c main_v10 _ = V c main_v10 _
  congr 1
  funext a
  apply Fin.ext
  match a with
  | ⟨0, _⟩ => show win0_1.index t 0 * 256 + 1 * p.val = e.val; rw [e0, he]; omega
  | ⟨1, _⟩ => show win0_1.index t 1 * 1024 + 1 * k.val = k.val; rw [e1]; omega

/-- Entry (p, k) of row window 2's block at point `t` is entry (256·t + p, k) of its array. -/
theorem iblk_2 (t : Fin cfg0.N) (p : Fin 256) (k : Fin 1024) (e : Fin 65536) (he : e.val = 256 * t.val + p.val) :
    (iblk0 V c 2 t : Vec Ideal S256x1024 .f32) (ix2 p k) = (V c main_v17 : S65536x1024.Idx → EReal) (ix2 e k) := by
  obtain ⟨-, -, ⟨e0, e1⟩, -⟩ := idx_rows t
  unfold iblk0
  rw [View.read_apply]
  show V c main_v17 _ = V c main_v17 _
  congr 1
  funext a
  apply Fin.ext
  match a with
  | ⟨0, _⟩ => show win0_2.index t 0 * 256 + 1 * p.val = e.val; rw [e0, he]; omega
  | ⟨1, _⟩ => show win0_2.index t 1 * 1024 + 1 * k.val = k.val; rw [e1]; omega

/-- Weight window 3's block is its array. -/
theorem iblk_3 (t : Fin cfg0.N) : (iblk0 V c 3 t : Vec Ideal S1024x128 .f32) = (V c main_v25 : S1024x128.Idx → EReal) := by
  obtain ⟨⟨e0, e1⟩, -⟩ := idx_whole t
  funext y
  unfold iblk0
  rw [View.read_apply]
  show V c main_v25 _ = V c main_v25 _
  congr 1
  funext a
  apply Fin.ext
  match a with
  | ⟨0, _⟩ => show win0_3.index t 0 * 1024 + 1 * (y 0).val = (y 0).val; rw [e0]; omega
  | ⟨1, _⟩ => show win0_3.index t 1 * 128 + 1 * (y 1).val = (y 1).val; rw [e1]; omega

/-- Weight window 4's block is its array. -/
theorem iblk_4 (t : Fin cfg0.N) : (iblk0 V c 4 t : Vec Ideal S1024x128 .f32) = (V c main_v26 : S1024x128.Idx → EReal) := by
  obtain ⟨-, ⟨e0, e1⟩, -⟩ := idx_whole t
  funext y
  unfold iblk0
  rw [View.read_apply]
  show V c main_v26 _ = V c main_v26 _
  congr 1
  funext a
  apply Fin.ext
  match a with
  | ⟨0, _⟩ => show win0_4.index t 0 * 1024 + 1 * (y 0).val = (y 0).val; rw [e0]; omega
  | ⟨1, _⟩ => show win0_4.index t 1 * 128 + 1 * (y 1).val = (y 1).val; rw [e1]; omega

/-- Bias window 5's block is its array. -/
theorem iblk_5 (t : Fin cfg0.N) : (iblk0 V c 5 t : Vec Ideal S128 .f32) = (V c main_arg5 : S128.Idx → EReal) := by
  obtain ⟨-, -, e0, -⟩ := idx_whole t
  funext y
  unfold iblk0
  rw [View.read_apply]
  show V c main_arg5 _ = V c main_arg5 _
  congr 1
  funext a
  apply Fin.ext
  match a with
  | ⟨0, _⟩ => show win0_5.index t 0 * 128 + 1 * (y 0).val = (y 0).val; rw [e0]; omega

/-- Weight window 6's block is its array. -/
theorem iblk_6 (t : Fin cfg0.N) : (iblk0 V c 6 t : Vec Ideal S1024x128 .f32) = (V c main_v27 : S1024x128.Idx → EReal) := by
  obtain ⟨-, -, -, ⟨e0, e1⟩, -⟩ := idx_whole t
  funext y
  unfold iblk0
  rw [View.read_apply]
  show V c main_v27 _ = V c main_v27 _
  congr 1
  funext a
  apply Fin.ext
  match a with
  | ⟨0, _⟩ => show win0_6.index t 0 * 1024 + 1 * (y 0).val = (y 0).val; rw [e0]; omega
  | ⟨1, _⟩ => show win0_6.index t 1 * 128 + 1 * (y 1).val = (y 1).val; rw [e1]; omega

/-- Weight window 7's block is its array. -/
theorem iblk_7 (t : Fin cfg0.N) : (iblk0 V c 7 t : Vec Ideal S1024x128 .f32) = (V c main_v28 : S1024x128.Idx → EReal) := by
  obtain ⟨-, -, -, -, ⟨e0, e1⟩, -⟩ := idx_whole t
  funext y
  unfold iblk0
  rw [View.read_apply]
  show V c main_v28 _ = V c main_v28 _
  congr 1
  funext a
  apply Fin.ext
  match a with
  | ⟨0, _⟩ => show win0_7.index t 0 * 1024 + 1 * (y 0).val = (y 0).val; rw [e0]; omega
  | ⟨1, _⟩ => show win0_7.index t 1 * 128 + 1 * (y 1).val = (y 1).val; rw [e1]; omega

/-- Bias window 8's block is its array. -/
theorem iblk_8 (t : Fin cfg0.N) : (iblk0 V c 8 t : Vec Ideal S128 .f32) = (V c main_arg7 : S128.Idx → EReal) := by
  obtain ⟨-, -, -, -, -, e0, -⟩ := idx_whole t
  funext y
  unfold iblk0
  rw [View.read_apply]
  show V c main_arg7 _ = V c main_arg7 _
  congr 1
  funext a
  apply Fin.ext
  match a with
  | ⟨0, _⟩ => show win0_8.index t 0 * 128 + 1 * (y 0).val = (y 0).val; rw [e0]; omega

/-- Weight window 9's block is its array. -/
theorem iblk_9 (t : Fin cfg0.N) : (iblk0 V c 9 t : Vec Ideal S1024x128 .f32) = (V c main_v29 : S1024x128.Idx → EReal) := by
  obtain ⟨-, -, -, -, -, -, ⟨e0, e1⟩, -⟩ := idx_whole t
  funext y
  unfold iblk0
  rw [View.read_apply]
  show V c main_v29 _ = V c main_v29 _
  congr 1
  funext a
  apply Fin.ext
  match a with
  | ⟨0, _⟩ => show win0_9.index t 0 * 1024 + 1 * (y 0).val = (y 0).val; rw [e0]; omega
  | ⟨1, _⟩ => show win0_9.index t 1 * 128 + 1 * (y 1).val = (y 1).val; rw [e1]; omega

/-- Weight window 10's block is its array. -/
theorem iblk_10 (t : Fin cfg0.N) : (iblk0 V c 10 t : Vec Ideal S1024x128 .f32) = (V c main_v30 : S1024x128.Idx → EReal) := by
  obtain ⟨-, -, -, -, -, -, -, ⟨e0, e1⟩, -⟩ := idx_whole t
  funext y
  unfold iblk0
  rw [View.read_apply]
  show V c main_v30 _ = V c main_v30 _
  congr 1
  funext a
  apply Fin.ext
  match a with
  | ⟨0, _⟩ => show win0_10.index t 0 * 1024 + 1 * (y 0).val = (y 0).val; rw [e0]; omega
  | ⟨1, _⟩ => show win0_10.index t 1 * 128 + 1 * (y 1).val = (y 1).val; rw [e1]; omega

/-- Bias window 11's block is its array. -/
theorem iblk_11 (t : Fin cfg0.N) : (iblk0 V c 11 t : Vec Ideal S128 .f32) = (V c main_arg9 : S128.Idx → EReal) := by
  obtain ⟨-, -, -, -, -, -, -, -, e0, -⟩ := idx_whole t
  funext y
  unfold iblk0
  rw [View.read_apply]
  show V c main_arg9 _ = V c main_arg9 _
  congr 1
  funext a
  apply Fin.ext
  match a with
  | ⟨0, _⟩ => show win0_11.index t 0 * 128 + 1 * (y 0).val = (y 0).val; rw [e0]; omega

/-- Weight window 12's block is its array. -/
theorem iblk_12 (t : Fin cfg0.N) : (iblk0 V c 12 t : Vec Ideal S1024x128 .f32) = (V c main_v31 : S1024x128.Idx → EReal) := by
  obtain ⟨-, -, -, -, -, -, -, -, -, ⟨e0, e1⟩, -⟩ := idx_whole t
  funext y
  unfold iblk0
  rw [View.read_apply]
  show V c main_v31 _ = V c main_v31 _
  congr 1
  funext a
  apply Fin.ext
  match a with
  | ⟨0, _⟩ => show win0_12.index t 0 * 1024 + 1 * (y 0).val = (y 0).val; rw [e0]; omega
  | ⟨1, _⟩ => show win0_12.index t 1 * 128 + 1 * (y 1).val = (y 1).val; rw [e1]; omega

/-- Weight window 13's block is its array. -/
theorem iblk_13 (t : Fin cfg0.N) : (iblk0 V c 13 t : Vec Ideal S1024x128 .f32) = (V c main_v32 : S1024x128.Idx → EReal) := by
  obtain ⟨-, -, -, -, -, -, -, -, -, -, ⟨e0, e1⟩, -⟩ := idx_whole t
  funext y
  unfold iblk0
  rw [View.read_apply]
  show V c main_v32 _ = V c main_v32 _
  congr 1
  funext a
  apply Fin.ext
  match a with
  | ⟨0, _⟩ => show win0_13.index t 0 * 1024 + 1 * (y 0).val = (y 0).val; rw [e0]; omega
  | ⟨1, _⟩ => show win0_13.index t 1 * 128 + 1 * (y 1).val = (y 1).val; rw [e1]; omega

/-- Bias window 14's block is its array. -/
theorem iblk_14 (t : Fin cfg0.N) : (iblk0 V c 14 t : Vec Ideal S128 .f32) = (V c main_arg11 : S128.Idx → EReal) := by
  obtain ⟨-, -, -, -, -, -, -, -, -, -, -, e0⟩ := idx_whole t
  funext y
  unfold iblk0
  rw [View.read_apply]
  show V c main_arg11 _ = V c main_arg11 _
  congr 1
  funext a
  apply Fin.ext
  match a with
  | ⟨0, _⟩ => show win0_14.index t 0 * 128 + 1 * (y 0).val = (y 0).val; rw [e0]; omega

/-! ## The four outputs: what a point writes back, the cover, the array -/

/-- Entry (p, q) of output window 15's block at point `t` sits at (256·t + p, q) of its array. -/
theorem emb_15 (t : Fin cfg0.N) (p : Fin 256) (q : Fin 1024) (e : Fin 65536) (he : e.val = 256 * t.val + p.val) :
    ((cfg0.win 15).blk t).view.emb (ix2 p q) = (ix2 e q : S65536x1024.Idx) := by
  obtain ⟨-, -, -, ⟨e0, e1⟩, -⟩ := idx_rows t
  funext a
  apply Fin.ext
  match a with
  | ⟨0, _⟩ => show win0_15.index t 0 * 256 + 1 * p.val = e.val; rw [e0, he]; omega
  | ⟨1, _⟩ => show win0_15.index t 1 * 1024 + 1 * q.val = q.val; rw [e1]; omega

/-- What point `t` writes back to output 15 is block `t` of the gated message of the region's arrays. -/
theorem flushed15_eq (t : Fin cfg0.N) :
    (dat0 V c).flushed 15 t = ((cfg0.win 15).blk t).view.read (Elt Ideal)
      (Cert.Spec.msg (V c main_v24) (V c main_v10) (V c main_v25) (V c main_v26) (V c main_arg5)) := by
  show (cfg0.win 15).cut (grid0.coords t) ((dat0 V c).after 15 t) = _
  rw [after0_15]
  unfold out0_15
  rw [View.canon_unit_zero hz2]
  simp only [View.ld_unit_zero (S := S256x1024) hz2, View.ld_unit_zero (S := S1024x128) hz2, View.ld_unit_zero (S := S128) hz1]
  refine block_ext _ _ fun p q => ?_
  have hp := p.isLt
  have ht := lt_N t
  show k0_pay8 (iblk0 V c 0 t) (iblk0 V c 1 t) (iblk0 V c 3 t) (iblk0 V c 4 t) (iblk0 V c 5 t) (ix2 p q)
     = Cert.Spec.msg (V c main_v24) (V c main_v10) (V c main_v25) (V c main_v26) (V c main_arg5) (((cfg0.win 15).blk t).view.emb (ix2 p q))
  rw [emb_15 t p q ⟨256 * t.val + p.val, by omega⟩ rfl]
  refine (pay8_apply (iblk0 V c 0 t) (iblk0 V c 1 t) (iblk0 V c 3 t) (iblk0 V c 4 t) (iblk0 V c 5 t) p q).trans ?_
  exact blockMsg_eq_msg _ _ _ _ _ _ _ _ _ _ ⟨256 * t.val + p.val, by omega⟩ p (fun k => iblk_0 V c t p k _ rfl)
    (fun k => iblk_1 V c t p k _ rfl) (iblk_3 V c t) (iblk_4 V c t) (iblk_5 V c t) q

/-- An index of output 15's array is in point `t`'s block iff each coordinate is in the block's range on its axis. -/
theorem mem_blk15 (t : Fin cfg0.N) (i : S65536x1024.Idx) :
    i ∈ ((cfg0.win 15).blk t).view.set ↔ ∀ a : Fin 2, win0_15.index t a * S256x1024.size a ≤ (i a).val
      ∧ (i a).val < win0_15.index t a * S256x1024.size a + S256x1024.size a := by
  show i ∈ ((View.whole main_v33_0).slice (win0_15.rect t)).set ↔ _
  rw [View.set_slice_whole, Rect.mem_set_unit]
  exact Iff.rfl

/-- The blocks tile the array: row `r` is in the block of point `r / 256`. -/
theorem cover15 (i : S65536x1024.Idx) :
    ∃ t : Fin cfg0.N, (cfg0.win 15).flush t = true ∧ i ∈ ((cfg0.win 15).blk t).view.set := by
  have hi0 : (i 0).val < 65536 := (i 0).isLt
  have hi1 : (i 1).val < 1024 := (i 1).isLt
  have hN : cfg0.N = 256 := N_0
  obtain ⟨t, ht⟩ : ∃ t : Fin cfg0.N, t.val = (i 0).val / 256 := ⟨⟨(i 0).val / 256, by omega⟩, rfl⟩
  obtain ⟨-, -, -, ⟨e0, e1⟩, -⟩ := idx_rows t
  refine ⟨t, flush0_15 t, ?_⟩
  rw [mem_blk15]
  intro a
  match a with
  | ⟨0, _⟩ =>
    show win0_15.index t 0 * 256 ≤ (i 0).val ∧ (i 0).val < win0_15.index t 0 * 256 + 256
    rw [e0, ht]; omega
  | ⟨1, _⟩ =>
    show win0_15.index t 1 * 1024 ≤ (i 1).val ∧ (i 1).val < win0_15.index t 1 * 1024 + 1024
    rw [e1]; omega

/-- Output 15 after the region: the gated message, as one function of the arrays the region found. -/
theorem arr15 : (Gen.dat0 (F := Ideal) V c).arrAt 15 cfg0.N
    = Cert.Spec.msg (V c main_v24) (V c main_v10) (V c main_v25) (V c main_v26) (V c main_arg5) :=
  (dat0 V c).arrAt_eq_of_cover 15 _ (fun t _ => flushed15_eq V c t) cover15

/-- Entry (p, q) of output window 16's block at point `t` sits at (256·t + p, q) of its array. -/
theorem emb_16 (t : Fin cfg0.N) (p : Fin 256) (q : Fin 1024) (e : Fin 65536) (he : e.val = 256 * t.val + p.val) :
    ((cfg0.win 16).blk t).view.emb (ix2 p q) = (ix2 e q : S65536x1024.Idx) := by
  obtain ⟨-, -, -, -, ⟨e0, e1⟩, -⟩ := idx_rows t
  funext a
  apply Fin.ext
  match a with
  | ⟨0, _⟩ => show win0_16.index t 0 * 256 + 1 * p.val = e.val; rw [e0, he]; omega
  | ⟨1, _⟩ => show win0_16.index t 1 * 1024 + 1 * q.val = q.val; rw [e1]; omega

/-- What point `t` writes back to output 16 is block `t` of the gated message of the region's arrays. -/
theorem flushed16_eq (t : Fin cfg0.N) :
    (dat0 V c).flushed 16 t = ((cfg0.win 16).blk t).view.read (Elt Ideal)
      (Cert.Spec.msg (V c main_v24) (V c main_v17) (V c main_v27) (V c main_v28) (V c main_arg7)) := by
  show (cfg0.win 16).cut (grid0.coords t) ((dat0 V c).after 16 t) = _
  rw [after0_16]
  unfold out0_16
  rw [View.canon_unit_zero hz2]
  simp only [View.ld_unit_zero (S := S256x1024) hz2, View.ld_unit_zero (S := S1024x128) hz2, View.ld_unit_zero (S := S128) hz1]
  refine block_ext _ _ fun p q => ?_
  have hp := p.isLt
  have ht := lt_N t
  show k0_pay10 (k0_pay2 (iblk0 V c 0 t)) (k0_pay5 (iblk0 V c 0 t)) (k0_pay7 (iblk0 V c 2 t)) (k0_pay9 (iblk0 V c 6 t)) (iblk0 V c 7 t) (iblk0 V c 8 t) (ix2 p q)
     = Cert.Spec.msg (V c main_v24) (V c main_v17) (V c main_v27) (V c main_v28) (V c main_arg7) (((cfg0.win 16).blk t).view.emb (ix2 p q))
  rw [emb_16 t p q ⟨256 * t.val + p.val, by omega⟩ rfl]
  refine (pay10_apply (iblk0 V c 0 t) (iblk0 V c 2 t) (iblk0 V c 6 t) (iblk0 V c 7 t) (iblk0 V c 8 t) p q).trans ?_
  exact blockMsg_eq_msg _ _ _ _ _ _ _ _ _ _ ⟨256 * t.val + p.val, by omega⟩ p (fun k => iblk_0 V c t p k _ rfl)
    (fun k => iblk_2 V c t p k _ rfl) (iblk_6 V c t) (iblk_7 V c t) (iblk_8 V c t) q

/-- An index of output 16's array is in point `t`'s block iff each coordinate is in the block's range on its axis. -/
theorem mem_blk16 (t : Fin cfg0.N) (i : S65536x1024.Idx) :
    i ∈ ((cfg0.win 16).blk t).view.set ↔ ∀ a : Fin 2, win0_16.index t a * S256x1024.size a ≤ (i a).val
      ∧ (i a).val < win0_16.index t a * S256x1024.size a + S256x1024.size a := by
  show i ∈ ((View.whole main_v33_1).slice (win0_16.rect t)).set ↔ _
  rw [View.set_slice_whole, Rect.mem_set_unit]
  exact Iff.rfl

/-- The blocks tile the array: row `r` is in the block of point `r / 256`. -/
theorem cover16 (i : S65536x1024.Idx) :
    ∃ t : Fin cfg0.N, (cfg0.win 16).flush t = true ∧ i ∈ ((cfg0.win 16).blk t).view.set := by
  have hi0 : (i 0).val < 65536 := (i 0).isLt
  have hi1 : (i 1).val < 1024 := (i 1).isLt
  have hN : cfg0.N = 256 := N_0
  obtain ⟨t, ht⟩ : ∃ t : Fin cfg0.N, t.val = (i 0).val / 256 := ⟨⟨(i 0).val / 256, by omega⟩, rfl⟩
  obtain ⟨-, -, -, -, ⟨e0, e1⟩, -⟩ := idx_rows t
  refine ⟨t, flush0_16 t, ?_⟩
  rw [mem_blk16]
  intro a
  match a with
  | ⟨0, _⟩ =>
    show win0_16.index t 0 * 256 ≤ (i 0).val ∧ (i 0).val < win0_16.index t 0 * 256 + 256
    rw [e0, ht]; omega
  | ⟨1, _⟩ =>
    show win0_16.index t 1 * 1024 ≤ (i 1).val ∧ (i 1).val < win0_16.index t 1 * 1024 + 1024
    rw [e1]; omega

/-- Output 16 after the region: the gated message, as one function of the arrays the region found. -/
theorem arr16 : (Gen.dat0 (F := Ideal) V c).arrAt 16 cfg0.N
    = Cert.Spec.msg (V c main_v24) (V c main_v17) (V c main_v27) (V c main_v28) (V c main_arg7) :=
  (dat0 V c).arrAt_eq_of_cover 16 _ (fun t _ => flushed16_eq V c t) cover16

/-- Entry (p, q) of output window 17's block at point `t` sits at (256·t + p, q) of its array. -/
theorem emb_17 (t : Fin cfg0.N) (p : Fin 256) (q : Fin 1024) (e : Fin 65536) (he : e.val = 256 * t.val + p.val) :
    ((cfg0.win 17).blk t).view.emb (ix2 p q) = (ix2 e q : S65536x1024.Idx) := by
  obtain ⟨-, -, -, -, -, ⟨e0, e1⟩, -⟩ := idx_rows t
  funext a
  apply Fin.ext
  match a with
  | ⟨0, _⟩ => show win0_17.index t 0 * 256 + 1 * p.val = e.val; rw [e0, he]; omega
  | ⟨1, _⟩ => show win0_17.index t 1 * 1024 + 1 * q.val = q.val; rw [e1]; omega

/-- What point `t` writes back to output 17 is block `t` of the gated message of the region's arrays. -/
theorem flushed17_eq (t : Fin cfg0.N) :
    (dat0 V c).flushed 17 t = ((cfg0.win 17).blk t).view.read (Elt Ideal)
      (Cert.Spec.msg (V c main_v17) (V c main_v24) (V c main_v29) (V c main_v30) (V c main_arg9)) := by
  show (cfg0.win 17).cut (grid0.coords t) ((dat0 V c).after 17 t) = _
  rw [after0_17]
  unfold out0_17
  rw [View.canon_unit_zero hz2]
  simp only [View.ld_unit_zero (S := S256x1024) hz2, View.ld_unit_zero (S := S1024x128) hz2, View.ld_unit_zero (S := S128) hz1]
  refine block_ext _ _ fun p q => ?_
  have hp := p.isLt
  have ht := lt_N t
  show k0_pay11 (k0_pay4 (iblk0 V c 2 t)) (k0_pay5 (iblk0 V c 0 t)) (k0_pay7 (iblk0 V c 2 t)) (iblk0 V c 9 t) (iblk0 V c 10 t) (iblk0 V c 11 t) (ix2 p q)
     = Cert.Spec.msg (V c main_v17) (V c main_v24) (V c main_v29) (V c main_v30) (V c main_arg9) (((cfg0.win 17).blk t).view.emb (ix2 p q))
  rw [emb_17 t p q ⟨256 * t.val + p.val, by omega⟩ rfl]
  refine (pay11_apply (iblk0 V c 0 t) (iblk0 V c 2 t) (iblk0 V c 9 t) (iblk0 V c 10 t) (iblk0 V c 11 t) p q).trans ?_
  exact blockMsg_eq_msg _ _ _ _ _ _ _ _ _ _ ⟨256 * t.val + p.val, by omega⟩ p (fun k => iblk_2 V c t p k _ rfl)
    (fun k => iblk_0 V c t p k _ rfl) (iblk_9 V c t) (iblk_10 V c t) (iblk_11 V c t) q

/-- An index of output 17's array is in point `t`'s block iff each coordinate is in the block's range on its axis. -/
theorem mem_blk17 (t : Fin cfg0.N) (i : S65536x1024.Idx) :
    i ∈ ((cfg0.win 17).blk t).view.set ↔ ∀ a : Fin 2, win0_17.index t a * S256x1024.size a ≤ (i a).val
      ∧ (i a).val < win0_17.index t a * S256x1024.size a + S256x1024.size a := by
  show i ∈ ((View.whole main_v33_2).slice (win0_17.rect t)).set ↔ _
  rw [View.set_slice_whole, Rect.mem_set_unit]
  exact Iff.rfl

/-- The blocks tile the array: row `r` is in the block of point `r / 256`. -/
theorem cover17 (i : S65536x1024.Idx) :
    ∃ t : Fin cfg0.N, (cfg0.win 17).flush t = true ∧ i ∈ ((cfg0.win 17).blk t).view.set := by
  have hi0 : (i 0).val < 65536 := (i 0).isLt
  have hi1 : (i 1).val < 1024 := (i 1).isLt
  have hN : cfg0.N = 256 := N_0
  obtain ⟨t, ht⟩ : ∃ t : Fin cfg0.N, t.val = (i 0).val / 256 := ⟨⟨(i 0).val / 256, by omega⟩, rfl⟩
  obtain ⟨-, -, -, -, -, ⟨e0, e1⟩, -⟩ := idx_rows t
  refine ⟨t, flush0_17 t, ?_⟩
  rw [mem_blk17]
  intro a
  match a with
  | ⟨0, _⟩ =>
    show win0_17.index t 0 * 256 ≤ (i 0).val ∧ (i 0).val < win0_17.index t 0 * 256 + 256
    rw [e0, ht]; omega
  | ⟨1, _⟩ =>
    show win0_17.index t 1 * 1024 ≤ (i 1).val ∧ (i 1).val < win0_17.index t 1 * 1024 + 1024
    rw [e1]; omega

/-- Output 17 after the region: the gated message, as one function of the arrays the region found. -/
theorem arr17 : (Gen.dat0 (F := Ideal) V c).arrAt 17 cfg0.N
    = Cert.Spec.msg (V c main_v17) (V c main_v24) (V c main_v29) (V c main_v30) (V c main_arg9) :=
  (dat0 V c).arrAt_eq_of_cover 17 _ (fun t _ => flushed17_eq V c t) cover17

/-- Entry (p, q) of output window 18's block at point `t` sits at (256·t + p, q) of its array. -/
theorem emb_18 (t : Fin cfg0.N) (p : Fin 256) (q : Fin 1024) (e : Fin 65536) (he : e.val = 256 * t.val + p.val) :
    ((cfg0.win 18).blk t).view.emb (ix2 p q) = (ix2 e q : S65536x1024.Idx) := by
  obtain ⟨-, -, -, -, -, -, ⟨e0, e1⟩⟩ := idx_rows t
  funext a
  apply Fin.ext
  match a with
  | ⟨0, _⟩ => show win0_18.index t 0 * 256 + 1 * p.val = e.val; rw [e0, he]; omega
  | ⟨1, _⟩ => show win0_18.index t 1 * 1024 + 1 * q.val = q.val; rw [e1]; omega

/-- What point `t` writes back to output 18 is block `t` of the gated message of the region's arrays. -/
theorem flushed18_eq (t : Fin cfg0.N) :
    (dat0 V c).flushed 18 t = ((cfg0.win 18).blk t).view.read (Elt Ideal)
      (Cert.Spec.msg (V c main_v10) (V c main_v24) (V c main_v31) (V c main_v32) (V c main_arg11)) := by
  show (cfg0.win 18).cut (grid0.coords t) ((dat0 V c).after 18 t) = _
  rw [after0_18]
  unfold out0_18
  rw [View.canon_unit_zero hz2]
  simp only [View.ld_unit_zero (S := S256x1024) hz2, View.ld_unit_zero (S := S1024x128) hz2, View.ld_unit_zero (S := S128) hz1]
  refine block_ext _ _ fun p q => ?_
  have hp := p.isLt
  have ht := lt_N t
  show k0_pay1 (k0_pay3 (iblk0 V c 1 t)) (k0_pay5 (iblk0 V c 0 t)) (k0_pay6 (iblk0 V c 1 t)) (iblk0 V c 12 t) (iblk0 V c 13 t) (iblk0 V c 14 t) (ix2 p q)
     = Cert.Spec.msg (V c main_v10) (V c main_v24) (V c main_v31) (V c main_v32) (V c main_arg11) (((cfg0.win 18).blk t).view.emb (ix2 p q))
  rw [emb_18 t p q ⟨256 * t.val + p.val, by omega⟩ rfl]
  refine (pay1_apply (iblk0 V c 0 t) (iblk0 V c 1 t) (iblk0 V c 12 t) (iblk0 V c 13 t) (iblk0 V c 14 t) p q).trans ?_
  exact blockMsg_eq_msg _ _ _ _ _ _ _ _ _ _ ⟨256 * t.val + p.val, by omega⟩ p (fun k => iblk_1 V c t p k _ rfl)
    (fun k => iblk_0 V c t p k _ rfl) (iblk_12 V c t) (iblk_13 V c t) (iblk_14 V c t) q

/-- An index of output 18's array is in point `t`'s block iff each coordinate is in the block's range on its axis. -/
theorem mem_blk18 (t : Fin cfg0.N) (i : S65536x1024.Idx) :
    i ∈ ((cfg0.win 18).blk t).view.set ↔ ∀ a : Fin 2, win0_18.index t a * S256x1024.size a ≤ (i a).val
      ∧ (i a).val < win0_18.index t a * S256x1024.size a + S256x1024.size a := by
  show i ∈ ((View.whole main_v33_3).slice (win0_18.rect t)).set ↔ _
  rw [View.set_slice_whole, Rect.mem_set_unit]
  exact Iff.rfl

/-- The blocks tile the array: row `r` is in the block of point `r / 256`. -/
theorem cover18 (i : S65536x1024.Idx) :
    ∃ t : Fin cfg0.N, (cfg0.win 18).flush t = true ∧ i ∈ ((cfg0.win 18).blk t).view.set := by
  have hi0 : (i 0).val < 65536 := (i 0).isLt
  have hi1 : (i 1).val < 1024 := (i 1).isLt
  have hN : cfg0.N = 256 := N_0
  obtain ⟨t, ht⟩ : ∃ t : Fin cfg0.N, t.val = (i 0).val / 256 := ⟨⟨(i 0).val / 256, by omega⟩, rfl⟩
  obtain ⟨-, -, -, -, -, -, ⟨e0, e1⟩⟩ := idx_rows t
  refine ⟨t, flush0_18 t, ?_⟩
  rw [mem_blk18]
  intro a
  match a with
  | ⟨0, _⟩ =>
    show win0_18.index t 0 * 256 ≤ (i 0).val ∧ (i 0).val < win0_18.index t 0 * 256 + 256
    rw [e0, ht]; omega
  | ⟨1, _⟩ =>
    show win0_18.index t 1 * 1024 ≤ (i 1).val ∧ (i 1).val < win0_18.index t 1 * 1024 + 1024
    rw [e1]; omega

/-- Output 18 after the region: the gated message, as one function of the arrays the region found. -/
theorem arr18 : (Gen.dat0 (F := Ideal) V c).arrAt 18 cfg0.N
    = Cert.Spec.msg (V c main_v10) (V c main_v24) (V c main_v31) (V c main_v32) (V c main_arg11) :=
  (dat0 V c).arrAt_eq_of_cover 18 _ (fun t _ => flushed18_eq V c t) cover18

end Cert.KernelIdeal.MsgValue

end
-- ==== Proof.RefinePayload.lean ====
/-
  The refinement body at one entry. Over the extended reals the block the body writes is, at row `p` and
  column `q`, `(M + max (∑ₖ M[p,k]·W₁[k,q] + b₁[q]) 0) + max (∑ₖ T[p,k]·W₂[k,q] + b₂[q]) 0` with
  `M = (A + B)·½`: the narrowing to bf16 is the identity there, a matrix product into the zero accumulator
  is the plain sum over the 1024 contracted columns, and the bias row is read at its column.
-/
import proofs.«180715_j12979391168960_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open Cert.KernelIdeal Cert.KernelIdeal.Gen

namespace Cert.KernelIdeal.RefinePayload

/-- The left operand's row at contraction index `s` is the output's row. -/
theorem lhs_row (i : S512x1024.Idx) (s : dot_S512x1024_S1024x1024_S512x1024_1_0_0_1_n_n.contr.Idx) :
    (dot_S512x1024_S1024x1024_S512x1024_1_0_0_1_n_n.lhsIdx i s 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- The left operand's column is the contraction coordinate. -/
theorem lhs_col (i : S512x1024.Idx) (s : dot_S512x1024_S1024x1024_S512x1024_1_0_0_1_n_n.contr.Idx) :
    (dot_S512x1024_S1024x1024_S512x1024_1_0_0_1_n_n.lhsIdx i s 1).val = (s ⟨0, by decide⟩).val :=
  dot_S512x1024_S1024x1024_S512x1024_1_0_0_1_n_n.lhsIdx_val_of_single rfl i s

/-- The right operand's row is the contraction coordinate. -/
theorem rhs_row (i : S512x1024.Idx) (s : dot_S512x1024_S1024x1024_S512x1024_1_0_0_1_n_n.contr.Idx) :
    (dot_S512x1024_S1024x1024_S512x1024_1_0_0_1_n_n.rhsIdx i s 0).val = (s ⟨0, by decide⟩).val :=
  dot_S512x1024_S1024x1024_S512x1024_1_0_0_1_n_n.rhsIdx_val_of_single rfl i s

/-- The right operand's column is the output's column. -/
theorem rhs_col (i : S512x1024.Idx) (s : dot_S512x1024_S1024x1024_S512x1024_1_0_0_1_n_n.contr.Idx) :
    (dot_S512x1024_S1024x1024_S512x1024_1_0_0_1_n_n.rhsIdx i s 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The left operand's index of the product at `(p, q)`, contraction coordinate `k`, is `(p, k)`. -/
theorem lhsIdx_eq (p : Fin 512) (q : Fin 1024) (k : Fin 1024) :
    dot_S512x1024_S1024x1024_S512x1024_1_0_0_1_n_n.lhsIdx (ix2 p q)
      ((contrEquiv1 dot_S512x1024_S1024x1024_S512x1024_1_0_0_1_n_n 1024 rfl rfl).symm k) = ix2 p k := by
  have hk := contrEquiv1_symm_val dot_S512x1024_S1024x1024_S512x1024_1_0_0_1_n_n 1024 rfl rfl k
  refine funext fun a => Fin.ext ?_
  match a with
  | ⟨0, _⟩ => exact lhs_row _ _
  | ⟨1, _⟩ => exact (lhs_col _ _).trans hk

/-- The right operand's index of the product at `(p, q)`, contraction coordinate `k`, is `(k, q)`. -/
theorem rhsIdx_eq (p : Fin 512) (q : Fin 1024) (k : Fin 1024) :
    dot_S512x1024_S1024x1024_S512x1024_1_0_0_1_n_n.rhsIdx (ix2 p q)
      ((contrEquiv1 dot_S512x1024_S1024x1024_S512x1024_1_0_0_1_n_n 1024 rfl rfl).symm k) = ix2 k q := by
  have hk := contrEquiv1_symm_val dot_S512x1024_S1024x1024_S512x1024_1_0_0_1_n_n 1024 rfl rfl k
  refine funext fun a => Fin.ext ?_
  match a with
  | ⟨0, _⟩ => exact (rhs_row _ _).trans hk
  | ⟨1, _⟩ => exact rhs_col _ _

/-- A `[512,1024] × [1024,1024]` matrix product into the zero accumulator, at `(p, q)`: the sum over the
    contracted column `k` of `l[p,k] · r[k,q]`. -/
theorem matmul_zero_apply {φ₁ φ₂ : FTy} (l : FVec Ideal S512x1024 φ₁) (r : FVec Ideal S1024x1024 φ₂) (p : Fin 512) (q : Fin 1024) :
    matmul dot_S512x1024_S1024x1024_S512x1024_1_0_0_1_n_n none l r (constant (F := Ideal) S512x1024 .f32 0x00000000#32) (ix2 p q)
      = ∑ k : Fin 1024, l (ix2 p k) * r (ix2 k q) := by
  show FloatOps.matmul dot_S512x1024_S1024x1024_S512x1024_1_0_0_1_n_n none l r (constant (F := Ideal) S512x1024 .f32 0x00000000#32) (ix2 p q) = _
  rw [Ideal.matmul_constant_zero_apply,
    ← Equiv.sum_comp (contrEquiv1 dot_S512x1024_S1024x1024_S512x1024_1_0_0_1_n_n 1024 rfl rfl).symm]
  refine Finset.sum_congr rfl fun k _ => ?_
  rw [lhsIdx_eq, rhsIdx_eq]

/-- The bias row `[1024] → [1,1024] → [512,1024]` at `(p, q)` is the bias at `q`. -/
theorem bias_apply {α : Type} (b : S1024.Idx → α) (p : Fin 512) (q : Fin 1024) :
    broadcastTo S512x1024 (shapeCast S1x1024 b shapeCasts_S1024_S1x1024) broadcasts_S1x1024_S512x1024 (ix2 p q) = b (ix1 q) := by
  refine (broadcastTo_apply _ broadcasts_S1x1024_S512x1024 (ix2 p q) (ix2 (0 : Fin 1) q) fun a => ?_).trans ?_
  · match a with
    | ⟨0, _⟩ => rfl
    | ⟨1, _⟩ => rfl
  · refine (shapeCast_addUnit_apply ![1024] b shapeCasts_S1024_S1x1024 (ix2 (0 : Fin 1) q)).trans ?_
    exact congrArg b (funext fun a => by match a with | ⟨0, _⟩ => rfl)

/-- The refinement body of the 4096-row call at one entry. -/
theorem k1_pay1_apply (x0 x1 x2 : Vec Ideal S512x1024 .f32) (w1 w2 : Vec Ideal S1024x1024 .f32) (b1 b2 : Vec Ideal S1024 .f32)
    (p : Fin 512) (q : Fin 1024) :
    k1_pay1 (F := Ideal) x0 x1 x2 w1 w2 b1 b2 (ix2 p q)
      = (((x0 (ix2 p q) + x1 (ix2 p q)) * Ideal.ofBits .f32 0x3F000000#32)
          + max ((∑ k : Fin 1024, ((x0 (ix2 p k) + x1 (ix2 p k)) * Ideal.ofBits .f32 0x3F000000#32) * w1 (ix2 k q)) + b1 (ix1 q)) 0)
        + max ((∑ k : Fin 1024, x2 (ix2 p k) * w2 (ix2 k q)) + b2 (ix1 q)) 0 := by
  unfold k1_pay1
  simp only [addf_apply, maximumf_apply, mulf_apply, broadcast_apply]
  rw [matmul_zero_apply, matmul_zero_apply, bias_apply, bias_apply]
  simp only [truncf_apply, mulf_apply, addf_apply, broadcast_apply, shapeCast_self]
  simp only [Ideal.ofBits_def, Ideal.ofBits_zero_f32]

/-- The two refinement calls run the same body. -/
theorem k2_pay1_eq_k1_pay1 {F : FTy → Type} [FloatOps F] : @k2_pay1 F _ = @k1_pay1 F _ := rfl

/-- The refinement body of the 2048-row call at one entry. -/
theorem k2_pay1_apply (x0 x1 x2 : Vec Ideal S512x1024 .f32) (w1 w2 : Vec Ideal S1024x1024 .f32) (b1 b2 : Vec Ideal S1024 .f32)
    (p : Fin 512) (q : Fin 1024) :
    k2_pay1 (F := Ideal) x0 x1 x2 w1 w2 b1 b2 (ix2 p q)
      = (((x0 (ix2 p q) + x1 (ix2 p q)) * Ideal.ofBits .f32 0x3F000000#32)
          + max ((∑ k : Fin 1024, ((x0 (ix2 p k) + x1 (ix2 p k)) * Ideal.ofBits .f32 0x3F000000#32) * w1 (ix2 k q)) + b1 (ix1 q)) 0)
        + max ((∑ k : Fin 1024, x2 (ix2 p k) * w2 (ix2 k q)) + b2 (ix1 q)) 0 := by
  rw [k2_pay1_eq_k1_pay1]
  exact k1_pay1_apply x0 x1 x2 w1 w2 b1 b2 p q

end Cert.KernelIdeal.RefinePayload

end
-- ==== Proof.RefineBlocks1.lean ====
/-
  The 4096-row refinement call, block by block and then as a whole array. The grid has 8 points; point `t` reads
  rows `512·t … 512·t + 511` of the three row arrays and the whole weights and biases, and writes back the same
  rows of the result. Each written block is the refinement of the arrays as the region finds them, read through the
  block; the 8 blocks cover the 4096 rows (row `r` lies in the block of point `r / 512`), so the result array is the
  refinement.
-/
import proofs.«180715_j12979391168960_2_alg».proof.Proof.Gen.KernelIdeal.Frame
import proofs.«180715_j12979391168960_2_alg».proof.Proof.Spec
import proofs.«180715_j12979391168960_2_alg».proof.Proof.RefinePayload
import Idealize.ShloMosaic.Lib.Pipeline.Value

noncomputable section

open Idealize.ShloMosaic Idealize.ShloMosaic.ValueIdx
open Cert.KernelIdeal Cert.KernelIdeal.Gen

namespace Cert.KernelIdeal.RefineValue

open Idealize.ShloMosaic.TcCoe Idealize.SL.Sem
open Idealize.ShloMosaic.Pipeline (Dat)

/-- The offsets of a whole two-axis block are zero. -/
private theorem off2_zero : (![0, 0] : Fin 2 → Nat) = fun _ => 0 := funext fun a => by fin_cases a <;> rfl
/-- The offset of a whole one-axis block is zero. -/
private theorem off1_zero : (![0] : Fin 1 → Nat) = fun _ => 0 := funext fun a => by fin_cases a; rfl

/-- The 4096-row call's body at block row `p`, column `q`, is the refinement at array row `r`, column `q`. -/
theorem refine_point1 {R : Nat} (A B T : (⟨2, ![R, 1024]⟩ : Shape).Idx → EReal) (W1 W2 : Cert.Spec.SDD.Idx → EReal)
    (b1 b2 : Cert.Spec.SD.Idx → EReal)
    (x0 x1 x2 : Vec Ideal S512x1024 .f32) (w1 w2 : Vec Ideal S1024x1024 .f32) (v1 v2 : Vec Ideal S1024 .f32)
    (p : Fin 512) (q : Fin 1024) (r : Fin R)
    (h0 : ∀ k : Fin 1024, x0 (ix2 p k) = A (ix2 r k)) (h1 : ∀ k : Fin 1024, x1 (ix2 p k) = B (ix2 r k))
    (h2 : ∀ k : Fin 1024, x2 (ix2 p k) = T (ix2 r k))
    (h3 : w1 = W1) (h4 : v1 = b1) (h5 : w2 = W2) (h6 : v2 = b2) :
    k1_pay1 (F := Ideal) x0 x1 x2 w1 w2 v1 v2 (ix2 p q) = Cert.Spec.refine A B T W1 b1 W2 b2 (ix2 r q) := by
  subst h3 h4 h5 h6
  rw [Cert.KernelIdeal.RefinePayload.k1_pay1_apply]
  simp only [h0, h1, h2]
  rfl

variable (V : (c : Dev nD) → (b : Ref sig .tc) → Buf (Elt Ideal) ((c : Thread nD τ).loc b)) (c : Dev nD)

/-- The printed index maps, decided over the grid: the three row windows and the output are at block row `t`,
    column block 0; the weights and biases are at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- What point `t` writes back is block `t` of the refinement of the arrays as the region finds them. -/
theorem flushed1_eq (t : Fin cfg1.N) :
    (dat1 (F := Ideal) V c).flushed 7 t = ((cfg1.win 7).blk t).view.read (Elt Ideal)
      (Cert.Spec.refine (R := 4096) (V c main_v57) (V c main_v45) (V c main_arg0) (V c main_arg12) (V c main_arg13) (V c main_arg14) (V c main_arg15)) := by
  show (cfg1.win 7).cut (grid1.coords t) ((dat1 V c).after 7 t) = _
  rw [after1_7]
  unfold out1_7
  rw [View.canon_unit_zero off2_zero]
  simp only [View.ld_unit_zero (S := S512x1024) off2_zero, View.ld_unit_zero (S := S1024x1024) off2_zero, View.ld_unit_zero (S := S1024) off1_zero]
  obtain ⟨e00, e01, e10, e11, e20, e21, e30, e31, e40, e50, e51, e60, e70, e71⟩ := idx_facts1 t
  have ht : t.val < 8 := by have h := t.isLt; have hN : cfg1.N = 8 := N_1; omega
  funext j
  obtain ⟨p, q, rfl⟩ : ∃ (p : Fin 512) (q : Fin 1024), j = ix2 p q := ⟨j 0, j 1, eq_ix2 j⟩
  have hp : p.val < 512 := p.isLt
  have hemb : ((cfg1.win 7).blk t).view.emb (ix2 p q) = ix2 (⟨t.val * 512 + p.val, by omega⟩ : Fin 4096) q :=
    funext fun a => Fin.ext (by
      match a with
      | ⟨0, _⟩ => show win1_7.index t (0 : Fin 2) * 512 + 1 * p.val = t.val * 512 + p.val; rw [e70]; omega
      | ⟨1, _⟩ => show win1_7.index t (1 : Fin 2) * 1024 + 1 * q.val = q.val; rw [e71]; omega)
  show k1_pay1 (F := Ideal) (iblk1 V c 0 t) (iblk1 V c 1 t) (iblk1 V c 2 t) (iblk1 V c 3 t) (iblk1 V c 5 t) (iblk1 V c 4 t) (iblk1 V c 6 t) (ix2 p q)
    = Cert.Spec.refine (R := 4096) (V c main_v57) (V c main_v45) (V c main_arg0) (V c main_arg12) (V c main_arg13) (V c main_arg14) (V c main_arg15)
        (((cfg1.win 7).blk t).view.emb (ix2 p q))
  rw [hemb]
  refine refine_point1 (R := 4096) (V c main_v57) (V c main_v45) (V c main_arg0) (V c main_arg12) (V c main_arg14) (V c main_arg13) (V c main_arg15)
    (iblk1 V c 0 t) (iblk1 V c 1 t) (iblk1 V c 2 t) (iblk1 V c 3 t) (iblk1 V c 5 t) (iblk1 V c 4 t) (iblk1 V c 6 t) p q
    (⟨t.val * 512 + p.val, by omega⟩ : Fin 4096) ?_ ?_ ?_ ?_ ?_ ?_ ?_
  · intro k
    show V c main_v57 (((cfg1.win 0).blk t).view.emb (ix2 p k)) = V c main_v57 (ix2 (⟨t.val * 512 + p.val, by omega⟩ : Fin 4096) k)
    refine congrArg (V c main_v57) (funext fun a => Fin.ext ?_)
    match a with
    | ⟨0, _⟩ => show win1_0.index t (0 : Fin 2) * 512 + 1 * p.val = t.val * 512 + p.val; rw [e00]; omega
    | ⟨1, _⟩ => show win1_0.index t (1 : Fin 2) * 1024 + 1 * k.val = k.val; rw [e01]; omega
  · intro k
    show V c main_v45 (((cfg1.win 1).blk t).view.emb (ix2 p k)) = V c main_v45 (ix2 (⟨t.val * 512 + p.val, by omega⟩ : Fin 4096) k)
    refine congrArg (V c main_v45) (funext fun a => Fin.ext ?_)
    match a with
    | ⟨0, _⟩ => show win1_1.index t (0 : Fin 2) * 512 + 1 * p.val = t.val * 512 + p.val; rw [e10]; omega
    | ⟨1, _⟩ => show win1_1.index t (1 : Fin 2) * 1024 + 1 * k.val = k.val; rw [e11]; omega
  · intro k
    show V c main_arg0 (((cfg1.win 2).blk t).view.emb (ix2 p k)) = V c main_arg0 (ix2 (⟨t.val * 512 + p.val, by omega⟩ : Fin 4096) k)
    refine congrArg (V c main_arg0) (funext fun a => Fin.ext ?_)
    match a with
    | ⟨0, _⟩ => show win1_2.index t (0 : Fin 2) * 512 + 1 * p.val = t.val * 512 + p.val; rw [e20]; omega
    | ⟨1, _⟩ => show win1_2.index t (1 : Fin 2) * 1024 + 1 * k.val = k.val; rw [e21]; omega
  · funext y
    show V c main_arg12 (((cfg1.win 3).blk t).view.emb y) = V c main_arg12 y
    refine congrArg (V c main_arg12) (funext fun a => Fin.ext ?_)
    match a with
    | ⟨0, _⟩ => show win1_3.index t (0 : Fin 2) * 1024 + 1 * (y 0).val = (y 0).val; rw [e30]; omega
    | ⟨1, _⟩ => show win1_3.index t (1 : Fin 2) * 1024 + 1 * (y 1).val = (y 1).val; rw [e31]; omega
  · funext y
    show V c main_arg13 (((cfg1.win 4).blk t).view.emb y) = V c main_arg13 y
    refine congrArg (V c main_arg13) (funext fun a => Fin.ext ?_)
    match a with
    | ⟨0, _⟩ => show win1_4.index t (0 : Fin 1) * 1024 + 1 * (y 0).val = (y 0).val; rw [e40]; omega
  · funext y
    show V c main_arg14 (((cfg1.win 5).blk t).view.emb y) = V c main_arg14 y
    refine congrArg (V c main_arg14) (funext fun a => Fin.ext ?_)
    match a with
    | ⟨0, _⟩ => show win1_5.index t (0 : Fin 2) * 1024 + 1 * (y 0).val = (y 0).val; rw [e50]; omega
    | ⟨1, _⟩ => show win1_5.index t (1 : Fin 2) * 1024 + 1 * (y 1).val = (y 1).val; rw [e51]; omega
  · funext y
    show V c main_arg15 (((cfg1.win 6).blk t).view.emb y) = V c main_arg15 y
    refine congrArg (V c main_arg15) (funext fun a => Fin.ext ?_)
    match a with
    | ⟨0, _⟩ => show win1_6.index t (0 : Fin 1) * 1024 + 1 * (y 0).val = (y 0).val; rw [e60]; omega

/-- An index of the array is in point `t`'s block iff each coordinate is in the block's range on its axis. -/
theorem mem_blk1 (t : Fin cfg1.N) (i : S4096x1024.Idx) :
    i ∈ ((cfg1.win 7).blk t).view.set ↔ ∀ a : Fin 2, win1_7.index t a * S512x1024.size a ≤ (i a).val ∧ (i a).val < win1_7.index t a * S512x1024.size a + S512x1024.size a := by
  show i ∈ ((View.whole main_v82).slice (win1_7.rect t)).set ↔ _
  rw [View.set_slice_whole, Rect.mem_set_unit]
  exact Iff.rfl

/-- Row `r` of the array lies in the block of point `r / 512`. -/
theorem cover1 (i : S4096x1024.Idx) : ∃ t : Fin cfg1.N, (cfg1.win 7).flush t = true ∧ i ∈ ((cfg1.win 7).blk t).view.set := by
  have hi0 : (i 0).val < 4096 := (i 0).isLt
  have hi1 : (i 1).val < 1024 := (i 1).isLt
  have hN : cfg1.N = 8 := N_1
  obtain ⟨t, ht⟩ : ∃ t : Fin cfg1.N, t.val = (i 0).val / 512 := ⟨⟨(i 0).val / 512, by omega⟩, rfl⟩
  obtain ⟨-, -, -, -, -, -, -, -, -, -, -, -, e70, e71⟩ := idx_facts1 t
  refine ⟨t, flush1_7 t, ?_⟩
  rw [mem_blk1]
  intro a
  match a with
  | ⟨0, _⟩ => show win1_7.index t (0 : Fin 2) * 512 ≤ (i 0).val ∧ (i 0).val < win1_7.index t (0 : Fin 2) * 512 + 512; rw [e70]; omega
  | ⟨1, _⟩ => show win1_7.index t (1 : Fin 2) * 1024 ≤ (i 1).val ∧ (i 1).val < win1_7.index t (1 : Fin 2) * 1024 + 1024; rw [e71]; omega

/-- The 4096-row call's output array after the region: the refinement of the arrays as the region finds them. -/
theorem arr1_7 : (Gen.dat1 (F := Ideal) V c).arrAt 7 cfg1.N
    = Cert.Spec.refine (R := 4096) (V c main_v57) (V c main_v45) (V c main_arg0) (V c main_arg12) (V c main_arg13) (V c main_arg14) (V c main_arg15) :=
  (Gen.dat1 (F := Ideal) V c).arrAt_eq_of_cover 7 _ (fun t _ => flushed1_eq V c t) cover1

end Cert.KernelIdeal.RefineValue

end
-- ==== Proof.RefineBlocks2.lean ====
/-
  The 2048-row refinement call, block by block and then as a whole array. The grid has 4 points; point `t` reads
  rows `512·t … 512·t + 511` of the three row arrays and the whole weights and biases, and writes back the same
  rows of the result. Each written block is the refinement of the arrays as the region finds them, read through the
  block; the 4 blocks cover the 2048 rows (row `r` lies in the block of point `r / 512`), so the result array is the
  refinement.
-/
import proofs.«180715_j12979391168960_2_alg».proof.Proof.Gen.KernelIdeal.Frame
import proofs.«180715_j12979391168960_2_alg».proof.Proof.Spec
import proofs.«180715_j12979391168960_2_alg».proof.Proof.RefinePayload
import Idealize.ShloMosaic.Lib.Pipeline.Value

noncomputable section

open Idealize.ShloMosaic Idealize.ShloMosaic.ValueIdx
open Cert.KernelIdeal Cert.KernelIdeal.Gen

namespace Cert.KernelIdeal.RefineValue

open Idealize.ShloMosaic.TcCoe Idealize.SL.Sem
open Idealize.ShloMosaic.Pipeline (Dat)

/-- The offsets of a whole two-axis block are zero. -/
private theorem off2_zero : (![0, 0] : Fin 2 → Nat) = fun _ => 0 := funext fun a => by fin_cases a <;> rfl
/-- The offset of a whole one-axis block is zero. -/
private theorem off1_zero : (![0] : Fin 1 → Nat) = fun _ => 0 := funext fun a => by fin_cases a; rfl

/-- The 2048-row call's body at block row `p`, column `q`, is the refinement at array row `r`, column `q`. -/
theorem refine_point2 {R : Nat} (A B T : (⟨2, ![R, 1024]⟩ : Shape).Idx → EReal) (W1 W2 : Cert.Spec.SDD.Idx → EReal)
    (b1 b2 : Cert.Spec.SD.Idx → EReal)
    (x0 x1 x2 : Vec Ideal S512x1024 .f32) (w1 w2 : Vec Ideal S1024x1024 .f32) (v1 v2 : Vec Ideal S1024 .f32)
    (p : Fin 512) (q : Fin 1024) (r : Fin R)
    (h0 : ∀ k : Fin 1024, x0 (ix2 p k) = A (ix2 r k)) (h1 : ∀ k : Fin 1024, x1 (ix2 p k) = B (ix2 r k))
    (h2 : ∀ k : Fin 1024, x2 (ix2 p k) = T (ix2 r k))
    (h3 : w1 = W1) (h4 : v1 = b1) (h5 : w2 = W2) (h6 : v2 = b2) :
    k2_pay1 (F := Ideal) x0 x1 x2 w1 w2 v1 v2 (ix2 p q) = Cert.Spec.refine A B T W1 b1 W2 b2 (ix2 r q) := by
  subst h3 h4 h5 h6
  rw [Cert.KernelIdeal.RefinePayload.k2_pay1_apply]
  simp only [h0, h1, h2]
  rfl

variable (V : (c : Dev nD) → (b : Ref sig .tc) → Buf (Elt Ideal) ((c : Thread nD τ).loc b)) (c : Dev nD)

/-- The printed index maps, decided over the grid: the three row windows and the output are at block row `t`,
    column block 0; the weights and biases are at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- What point `t` writes back is block `t` of the refinement of the arrays as the region finds them. -/
theorem flushed2_eq (t : Fin cfg2.N) :
    (dat2 (F := Ideal) V c).flushed 7 t = ((cfg2.win 7).blk t).view.read (Elt Ideal)
      (Cert.Spec.refine (R := 2048) (V c main_v69) (V c main_v81) (V c main_arg1) (V c main_arg16) (V c main_arg17) (V c main_arg18) (V c main_arg19)) := by
  show (cfg2.win 7).cut (grid2.coords t) ((dat2 V c).after 7 t) = _
  rw [after2_7]
  unfold out2_7
  rw [View.canon_unit_zero off2_zero]
  simp only [View.ld_unit_zero (S := S512x1024) off2_zero, View.ld_unit_zero (S := S1024x1024) off2_zero, View.ld_unit_zero (S := S1024) off1_zero]
  obtain ⟨e00, e01, e10, e11, e20, e21, e30, e31, e40, e50, e51, e60, e70, e71⟩ := idx_facts2 t
  have ht : t.val < 4 := by have h := t.isLt; have hN : cfg2.N = 4 := N_2; omega
  funext j
  obtain ⟨p, q, rfl⟩ : ∃ (p : Fin 512) (q : Fin 1024), j = ix2 p q := ⟨j 0, j 1, eq_ix2 j⟩
  have hp : p.val < 512 := p.isLt
  have hemb : ((cfg2.win 7).blk t).view.emb (ix2 p q) = ix2 (⟨t.val * 512 + p.val, by omega⟩ : Fin 2048) q :=
    funext fun a => Fin.ext (by
      match a with
      | ⟨0, _⟩ => show win2_7.index t (0 : Fin 2) * 512 + 1 * p.val = t.val * 512 + p.val; rw [e70]; omega
      | ⟨1, _⟩ => show win2_7.index t (1 : Fin 2) * 1024 + 1 * q.val = q.val; rw [e71]; omega)
  show k2_pay1 (F := Ideal) (iblk2 V c 0 t) (iblk2 V c 1 t) (iblk2 V c 2 t) (iblk2 V c 3 t) (iblk2 V c 5 t) (iblk2 V c 4 t) (iblk2 V c 6 t) (ix2 p q)
    = Cert.Spec.refine (R := 2048) (V c main_v69) (V c main_v81) (V c main_arg1) (V c main_arg16) (V c main_arg17) (V c main_arg18) (V c main_arg19)
        (((cfg2.win 7).blk t).view.emb (ix2 p q))
  rw [hemb]
  refine refine_point2 (R := 2048) (V c main_v69) (V c main_v81) (V c main_arg1) (V c main_arg16) (V c main_arg18) (V c main_arg17) (V c main_arg19)
    (iblk2 V c 0 t) (iblk2 V c 1 t) (iblk2 V c 2 t) (iblk2 V c 3 t) (iblk2 V c 5 t) (iblk2 V c 4 t) (iblk2 V c 6 t) p q
    (⟨t.val * 512 + p.val, by omega⟩ : Fin 2048) ?_ ?_ ?_ ?_ ?_ ?_ ?_
  · intro k
    show V c main_v69 (((cfg2.win 0).blk t).view.emb (ix2 p k)) = V c main_v69 (ix2 (⟨t.val * 512 + p.val, by omega⟩ : Fin 2048) k)
    refine congrArg (V c main_v69) (funext fun a => Fin.ext ?_)
    match a with
    | ⟨0, _⟩ => show win2_0.index t (0 : Fin 2) * 512 + 1 * p.val = t.val * 512 + p.val; rw [e00]; omega
    | ⟨1, _⟩ => show win2_0.index t (1 : Fin 2) * 1024 + 1 * k.val = k.val; rw [e01]; omega
  · intro k
    show V c main_v81 (((cfg2.win 1).blk t).view.emb (ix2 p k)) = V c main_v81 (ix2 (⟨t.val * 512 + p.val, by omega⟩ : Fin 2048) k)
    refine congrArg (V c main_v81) (funext fun a => Fin.ext ?_)
    match a with
    | ⟨0, _⟩ => show win2_1.index t (0 : Fin 2) * 512 + 1 * p.val = t.val * 512 + p.val; rw [e10]; omega
    | ⟨1, _⟩ => show win2_1.index t (1 : Fin 2) * 1024 + 1 * k.val = k.val; rw [e11]; omega
  · intro k
    show V c main_arg1 (((cfg2.win 2).blk t).view.emb (ix2 p k)) = V c main_arg1 (ix2 (⟨t.val * 512 + p.val, by omega⟩ : Fin 2048) k)
    refine congrArg (V c main_arg1) (funext fun a => Fin.ext ?_)
    match a with
    | ⟨0, _⟩ => show win2_2.index t (0 : Fin 2) * 512 + 1 * p.val = t.val * 512 + p.val; rw [e20]; omega
    | ⟨1, _⟩ => show win2_2.index t (1 : Fin 2) * 1024 + 1 * k.val = k.val; rw [e21]; omega
  · funext y
    show V c main_arg16 (((cfg2.win 3).blk t).view.emb y) = V c main_arg16 y
    refine congrArg (V c main_arg16) (funext fun a => Fin.ext ?_)
    match a with
    | ⟨0, _⟩ => show win2_3.index t (0 : Fin 2) * 1024 + 1 * (y 0).val = (y 0).val; rw [e30]; omega
    | ⟨1, _⟩ => show win2_3.index t (1 : Fin 2) * 1024 + 1 * (y 1).val = (y 1).val; rw [e31]; omega
  · funext y
    show V c main_arg17 (((cfg2.win 4).blk t).view.emb y) = V c main_arg17 y
    refine congrArg (V c main_arg17) (funext fun a => Fin.ext ?_)
    match a with
    | ⟨0, _⟩ => show win2_4.index t (0 : Fin 1) * 1024 + 1 * (y 0).val = (y 0).val; rw [e40]; omega
  · funext y
    show V c main_arg18 (((cfg2.win 5).blk t).view.emb y) = V c main_arg18 y
    refine congrArg (V c main_arg18) (funext fun a => Fin.ext ?_)
    match a with
    | ⟨0, _⟩ => show win2_5.index t (0 : Fin 2) * 1024 + 1 * (y 0).val = (y 0).val; rw [e50]; omega
    | ⟨1, _⟩ => show win2_5.index t (1 : Fin 2) * 1024 + 1 * (y 1).val = (y 1).val; rw [e51]; omega
  · funext y
    show V c main_arg19 (((cfg2.win 6).blk t).view.emb y) = V c main_arg19 y
    refine congrArg (V c main_arg19) (funext fun a => Fin.ext ?_)
    match a with
    | ⟨0, _⟩ => show win2_6.index t (0 : Fin 1) * 1024 + 1 * (y 0).val = (y 0).val; rw [e60]; omega

/-- An index of the array is in point `t`'s block iff each coordinate is in the block's range on its axis. -/
theorem mem_blk2 (t : Fin cfg2.N) (i : S2048x1024.Idx) :
    i ∈ ((cfg2.win 7).blk t).view.set ↔ ∀ a : Fin 2, win2_7.index t a * S512x1024.size a ≤ (i a).val ∧ (i a).val < win2_7.index t a * S512x1024.size a + S512x1024.size a := by
  show i ∈ ((View.whole main_v83).slice (win2_7.rect t)).set ↔ _
  rw [View.set_slice_whole, Rect.mem_set_unit]
  exact Iff.rfl

/-- Row `r` of the array lies in the block of point `r / 512`. -/
theorem cover2 (i : S2048x1024.Idx) : ∃ t : Fin cfg2.N, (cfg2.win 7).flush t = true ∧ i ∈ ((cfg2.win 7).blk t).view.set := by
  have hi0 : (i 0).val < 2048 := (i 0).isLt
  have hi1 : (i 1).val < 1024 := (i 1).isLt
  have hN : cfg2.N = 4 := N_2
  obtain ⟨t, ht⟩ : ∃ t : Fin cfg2.N, t.val = (i 0).val / 512 := ⟨⟨(i 0).val / 512, by omega⟩, rfl⟩
  obtain ⟨-, -, -, -, -, -, -, -, -, -, -, -, e70, e71⟩ := idx_facts2 t
  refine ⟨t, flush2_7 t, ?_⟩
  rw [mem_blk2]
  intro a
  match a with
  | ⟨0, _⟩ => show win2_7.index t (0 : Fin 2) * 512 ≤ (i 0).val ∧ (i 0).val < win2_7.index t (0 : Fin 2) * 512 + 512; rw [e70]; omega
  | ⟨1, _⟩ => show win2_7.index t (1 : Fin 2) * 1024 ≤ (i 1).val ∧ (i 1).val < win2_7.index t (1 : Fin 2) * 1024 + 1024; rw [e71]; omega

/-- The 2048-row call's output array after the region: the refinement of the arrays as the region finds them. -/
theorem arr2_7 : (Gen.dat2 (F := Ideal) V c).arrAt 7 cfg2.N
    = Cert.Spec.refine (R := 2048) (V c main_v69) (V c main_v81) (V c main_arg1) (V c main_arg16) (V c main_arg17) (V c main_arg18) (V c main_arg19) :=
  (Gen.dat2 (F := Ideal) V c).arrAt_eq_of_cover 7 _ (fun t _ => flushed2_eq V c t) cover2

end Cert.KernelIdeal.RefineValue

end
-- ==== Proof.KernelValue.lean ====
/-
  The idealized kernel's two result arrays as functions of its argument arrays.

  The first result is region 1's output: the refinement of the two instance-side segment means, of the instance
  features and of the instance weights; each segment mean is the host's scatter-add quotient of one of region 0's
  gated messages, and each message is the gated-message function of the gathered feature rows and the two halves
  of its weight matrix. The second result is region 2's output, the same over the phrase side. The gathers and
  the scatter-add quotients are carried as whole functions (the same host operations stand in the reference) and
  are never opened.
-/
import proofs.«180715_j12979391168960_2_alg».proof.Proof.KernelHost1
import proofs.«180715_j12979391168960_2_alg».proof.Proof.MsgBlocks
import proofs.«180715_j12979391168960_2_alg».proof.Proof.RefineBlocks1
import proofs.«180715_j12979391168960_2_alg».proof.Proof.RefineBlocks2

set_option maxRecDepth 16384
set_option quotPrecheck false

noncomputable section

namespace Cert.KernelIdeal.Results

open Cert.KernelIdeal Cert.KernelIdeal.Gen Cert.KernelIdeal.HostFold
open Idealize.ShloMosaic Idealize.ShloMosaic.TcCoe Idealize.SL.Sem
open Cert.ReferenceIdeal.RefValue (segPs segPo segOp segSp)

variable (m : (ℓ : Loc nD τ sig) → Buf (Elt Ideal) ℓ) (ρ : Dev nD → PrngReg) (c : Dev nD)

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "a12" => m ((c.tc : Thread nD τ).loc main_arg12)
local notation "a13" => m ((c.tc : Thread nD τ).loc main_arg13)
local notation "a14" => m ((c.tc : Thread nD τ).loc main_arg14)
local notation "a15" => m ((c.tc : Thread nD τ).loc main_arg15)
local notation "a16" => m ((c.tc : Thread nD τ).loc main_arg16)
local notation "a17" => m ((c.tc : Thread nD τ).loc main_arg17)
local notation "a18" => m ((c.tc : Thread nD τ).loc main_arg18)
local notation "a19" => m ((c.tc : Thread nD τ).loc main_arg19)

/-- The gathered phrase rows, subject rows and object rows (the reference's own gather stages). -/
abbrev phr := Cert.ReferenceIdeal.Read.val_main_v24 (F := Ideal) a1 a3
abbrev subj := Cert.ReferenceIdeal.Read.val_main_v10 (F := Ideal) a0 a2
abbrev obj := Cert.ReferenceIdeal.Read.val_main_v17 (F := Ideal) a0 a2

/-- Region 0's four outputs are the four gated messages. -/
theorem msg_ps : V2 m ρ c main_v33_0 = Cert.Spec.msg (phr m c) (subj m c) (Cert.Spec.upper a4) (Cert.Spec.lower a4) a5 := by
  have h : V2 m ρ c main_v33_0 = (dat0 (V1 m ρ) c).arrAt 15 cfg0.N := W2_arr m ρ c 15
  rw [h, Cert.KernelIdeal.MsgValue.arr15 (V1 m ρ) c, e24, e10, e25, e26, eA5]
theorem msg_po : V2 m ρ c main_v33_1 = Cert.Spec.msg (phr m c) (obj m c) (Cert.Spec.upper a6) (Cert.Spec.lower a6) a7 := by
  have h : V2 m ρ c main_v33_1 = (dat0 (V1 m ρ) c).arrAt 16 cfg0.N := W2_arr m ρ c 16
  rw [h, Cert.KernelIdeal.MsgValue.arr16 (V1 m ρ) c, e24, e17, e27, e28, eA7]
theorem msg_op : V2 m ρ c main_v33_2 = Cert.Spec.msg (obj m c) (phr m c) (Cert.Spec.upper a8) (Cert.Spec.lower a8) a9 := by
  have h : V2 m ρ c main_v33_2 = (dat0 (V1 m ρ) c).arrAt 17 cfg0.N := W2_arr m ρ c 17
  rw [h, Cert.KernelIdeal.MsgValue.arr17 (V1 m ρ) c, e17, e24, e29, e30, eA9]
theorem msg_sp : V2 m ρ c main_v33_3 = Cert.Spec.msg (subj m c) (phr m c) (Cert.Spec.upper a10) (Cert.Spec.lower a10) a11 := by
  have h : V2 m ρ c main_v33_3 = (dat0 (V1 m ρ) c).arrAt 18 cfg0.N := W2_arr m ρ c 18
  rw [h, Cert.KernelIdeal.MsgValue.arr18 (V1 m ρ) c, e10, e24, e31, e32, eA11]

/-- The first result: the instance-side refinement. -/
theorem out0_spec : V5 m ρ c main_v82 =
    Cert.Spec.refine (R := 4096)
      (segPo a2 (Cert.Spec.msg (phr m c) (obj m c) (Cert.Spec.upper a6) (Cert.Spec.lower a6) a7))
      (segPs a2 (Cert.Spec.msg (phr m c) (subj m c) (Cert.Spec.upper a4) (Cert.Spec.lower a4) a5))
      a0 a12 a13 a14 a15 := by
  have h : V5 m ρ c main_v82 = (dat1 (V3 m ρ) c).arrAt 7 cfg1.N :=
    (W5_of_ne m ρ c main_v82 (by decide)).trans (W4_arr m ρ c 7)
  rw [h, Cert.KernelIdeal.RefineValue.arr1_7 (V3 m ρ) c, s57, s45, sA0, sA12, sA13, sA14, sA15, msg_po, msg_ps]

/-- The second result: the phrase-side refinement. -/
theorem out1_spec : V5 m ρ c main_v83 =
    Cert.Spec.refine (R := 2048)
      (segOp a3 (Cert.Spec.msg (obj m c) (phr m c) (Cert.Spec.upper a8) (Cert.Spec.lower a8) a9))
      (segSp a3 (Cert.Spec.msg (subj m c) (phr m c) (Cert.Spec.upper a10) (Cert.Spec.lower a10) a11))
      a1 a16 a17 a18 a19 := by
  have h : V5 m ρ c main_v83 = (dat2 (V4 m ρ) c).arrAt 7 cfg2.N := W5_arr m ρ c 7
  have h69 : V4 m ρ c main_v69 = V3 m ρ c main_v69 := W4_of_ne m ρ c main_v69 (by decide)
  have h81 : V4 m ρ c main_v81 = V3 m ρ c main_v81 := W4_of_ne m ρ c main_v81 (by decide)
  have g1 : V4 m ρ c main_arg1 = V3 m ρ c main_arg1 := W4_of_ne m ρ c main_arg1 (by decide)
  have g16 : V4 m ρ c main_arg16 = V3 m ρ c main_arg16 := W4_of_ne m ρ c main_arg16 (by decide)
  have g17 : V4 m ρ c main_arg17 = V3 m ρ c main_arg17 := W4_of_ne m ρ c main_arg17 (by decide)
  have g18 : V4 m ρ c main_arg18 = V3 m ρ c main_arg18 := W4_of_ne m ρ c main_arg18 (by decide)
  have g19 : V4 m ρ c main_arg19 = V3 m ρ c main_arg19 := W4_of_ne m ρ c main_arg19 (by decide)
  rw [h, Cert.KernelIdeal.RefineValue.arr2_7 (V4 m ρ) c, h69, h81, g1, g16, g17, g18, g19,
    s69, s81, sA1, sA16, sA17, sA18, sA19, msg_op, msg_sp]

end Cert.KernelIdeal.Results

end
-- ==== Proof.LibColumnJoin.lean ====
/-
  Two general facts used to read a matrix product whose operands are joined along the feature axis.

  * Joining an [R, A] matrix u and an [R, B] matrix v along axis 1 gives an [R, N] matrix (N = A + B) whose entry (r, c)
    is u (r, c) for c < A and v (r, c − A) for A ≤ c (`join_cols_left`, `join_cols_right`).
  * In any commutative additive monoid, a sum over n + m consecutive indices is the sum over the first n plus the sum over
    the last m (`sum_fin_split`), with the two ranges given as explicit `Fin N` values so that no index type has to be
    spelt as a sum.
-/
import Idealize.ShloMosaic.Lib.Pipeline.Value
import Idealize.ShloMosaic.Lib.ValueIdx

noncomputable section

namespace Idealize.ShloMosaic.ColumnJoin

open Idealize.ShloMosaic Idealize.ShloMosaic.ValueIdx

variable {α : Type}

/-- Entry (r, c) of [u | v], for a column c that falls in u: it is u (r, c). -/
theorem join_cols_left {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin A) (hc : c.val = d.val) :
    concatenate (⟨2, ![R, N]⟩ : Shape) 1 [⟨⟨2, ![R, A]⟩, u⟩, ⟨⟨2, ![R, B]⟩, v⟩] h (ix2 r c) = u (ix2 r d) :=
  concatenate_pair_apply_left 1 u v h (ix2 r c) rfl (ix2 r d) (fun b => match b with
    | ⟨0, _⟩ => rfl
    | ⟨1, _⟩ => hc.symm)

/-- Entry (r, c) of [u | v], for a column c past u's A columns: it is v (r, c − A). -/
theorem join_cols_right {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin B) (hc : c.val = A + d.val) :
    concatenate (⟨2, ![R, N]⟩ : Shape) 1 [⟨⟨2, ![R, A]⟩, u⟩, ⟨⟨2, ![R, B]⟩, v⟩] h (ix2 r c) = v (ix2 r d) :=
  concatenate_pair_apply_right 1 u v h (ix2 r c) rfl rfl (ix2 r d) (fun b hb => match b, hb with
    | ⟨0, _⟩, _ => rfl
    | ⟨1, _⟩, hb => absurd rfl hb)
    (by show d.val + A = c.val; omega)

/-- A sum over `N = n + m` indices is the sum over the first `n` plus the sum over the last `m`. -/
theorem sum_fin_split {M : Type*} [AddCommMonoid M] {N : Nat} (n m : Nat) (hN : N = n + m) (f : Fin N → M) :
    ∑ k : Fin N, f k
      = (∑ d : Fin n, f ⟨d.val, by have := d.isLt; omega⟩) + ∑ d : Fin m, f ⟨n + d.val, by have := d.isLt; omega⟩ := by
  subst hN
  exact Fin.sum_univ_add f

end Idealize.ShloMosaic.ColumnJoin

end
-- ==== Proof.RefLaws.lean ====
/-
  Three facts about the extended reals used to read the reference's gated messages.

  * The float word 0x3F800000 denotes the number 1.
  * A row of the joined matrix [X | Y] (2048 columns) contracted against a 2048-row matrix W is the row of X against the
    upper 1024 rows of W plus the row of Y against the lower 1024 rows.
  * 1 / (1 + exp (−max x 0)) is the logistic function of relu x.
-/
import Idealize.ShloMosaic.PureOps.Ideal.Laws
import proofs.«180715_j12979391168960_2_alg».proof.Proof.Spec
import proofs.«180715_j12979391168960_2_alg».proof.Proof.LibColumnJoin

noncomputable section

namespace Cert.ReferenceIdeal.RefLaws

open Idealize.ShloMosaic Idealize.ShloMosaic.ValueIdx

/-- The float word 0x3F800000 is the number 1. -/
theorem ofBits_one_f32 : Ideal.ofBits .f32 0x3F800000#32 = 1 := by
  simp [Ideal.ofBits, Ideal.ieee, -EReal.coe_mul]; norm_num

/-- A row of the joined matrix [X | Y] against a 2048-row matrix W: the 2048-term contraction is the contraction of the
    row of X against the upper 1024 rows of W plus that of the row of Y against the lower 1024 rows. -/
theorem joined_dot (X Y : Spec.SED.Idx → EReal) (W : Spec.SW2.Idx → EReal)
    (h : Shape.Concatenates [Spec.SED, Spec.SED] (⟨2, ![65536, 2048]⟩ : Shape) 1) (e : Fin 65536) (j : Fin 128) :
    ∑ k : Fin 2048, concatenate (⟨2, ![65536, 2048]⟩ : Shape) 1 [⟨Spec.SED, X⟩, ⟨Spec.SED, Y⟩] h (ix2 e k) * W (ix2 k j)
      = (∑ k : Fin 1024, X (ix2 e k) * Spec.upper W (ix2 k j)) + ∑ k : Fin 1024, Y (ix2 e k) * Spec.lower W (ix2 k j) := by
  rw [ColumnJoin.sum_fin_split 1024 1024 rfl]
  refine congrArg₂ (· + ·) (Finset.sum_congr rfl fun k _ => ?_) (Finset.sum_congr rfl fun k _ => ?_)
  · exact congrArg₂ (· * ·) (ColumnJoin.join_cols_left X Y h e _ k rfl) rfl
  · exact congrArg₂ (· * ·) (ColumnJoin.join_cols_right X Y h e _ k rfl) rfl

/-- The pre-activation computed from the joined matrix is the specification's. -/
theorem joined_logit (X Y : Spec.SED.Idx → EReal) (W : Spec.SW2.Idx → EReal) (b : Spec.SB.Idx → EReal)
    (h : Shape.Concatenates [Spec.SED, Spec.SED] (⟨2, ![65536, 2048]⟩ : Shape) 1) (e : Fin 65536) (j : Fin 128) :
    (∑ k : Fin 2048, concatenate (⟨2, ![65536, 2048]⟩ : Shape) 1 [⟨Spec.SED, X⟩, ⟨Spec.SED, Y⟩] h (ix2 e k) * W (ix2 k j))
        + b (ix1 j)
      = Spec.logit X Y (Spec.upper W) (Spec.lower W) b e j :=
  congrArg (· + b (ix1 j)) (joined_dot X Y W h e j)

/-- The logistic function written out as 1 / (1 + exp (−x)), applied after a relu, is the specification's activation. -/
theorem logistic_relu (x : EReal) : Ideal.div 1 (1 + Ideal.exp (-(max x 0))) = Ideal.logistic (Spec.relu x) := rfl

end Cert.ReferenceIdeal.RefLaws

end
-- ==== Proof.RefMsgPs.lean ====
/-
  The reference's message from a phrase to its subject, gated on the joined rows [phrase | subject], is the specification's gated message.
  The stages are read one at a time at explicit coordinates: the pre-activation (the contraction of the joined row, split
  at column 1024, plus the bias), the activation (relu, then the logistic function spelt with exp), the gate (the mean
  over the 128 features) and the message (the source row scaled by its edge's gate). The two gathered operands are
  carried as opaque matrices throughout.
-/
import proofs.«180715_j12979391168960_2_alg».proof.Proof.Gen.ReferenceIdeal.Read
import proofs.«180715_j12979391168960_2_alg».proof.Proof.Spec
import proofs.«180715_j12979391168960_2_alg».proof.Proof.LibColumnJoin
import proofs.«180715_j12979391168960_2_alg».proof.Proof.RefLaws

noncomputable section

namespace Cert.ReferenceIdeal.RefValue

open Cert.ReferenceIdeal Cert.ReferenceIdeal.Read Idealize.ShloMosaic Idealize.ShloMosaic.ValueIdx Cert.ReferenceIdeal.RefLaws

variable (x0 : (⟨S4096x1024, .f32⟩ : BufTy).Contents (Elt Ideal))
  (x1 : (⟨S2048x1024, .f32⟩ : BufTy).Contents (Elt Ideal))
  (x2 : (⟨S2x65536, .i32⟩ : BufTy).Contents (Elt Ideal))
  (x3 : (⟨S65536, .i32⟩ : BufTy).Contents (Elt Ideal))
  (x4 : (⟨S2048x128, .f32⟩ : BufTy).Contents (Elt Ideal))
  (x5 : (⟨S128, .f32⟩ : BufTy).Contents (Elt Ideal))

/-- The pre-activation of edge `e`, feature `j`. -/
theorem ps_logit (e : Fin 65536) (j : Fin 128) :
    val_main_v29 (F := Ideal) x0 x1 x2 x3 x4 x5 (ix2 e j) = Cert.Spec.logit (val_main_v24 (F := Ideal) x1 x3) (val_main_v10 (F := Ideal) x0 x2) (Cert.Spec.upper x4) (Cert.Spec.lower x4) x5 e j := by
  rw [val_main_v29_apply, val_main_v26_apply, val_main_v28_apply, val_main_v27_apply]
  unfold val_main_v25
  generalize val_main_v24 (F := Ideal) x1 x3 = X
  generalize val_main_v10 (F := Ideal) x0 x2 = Y
  have hl : ∀ k : Fin 2048, lidx_main_v26 (ix2 e j) k = ix2 e k := fun k => funext fun a => Fin.ext (by
    match a with | ⟨0, _⟩ => rfl | ⟨1, _⟩ => rfl)
  have hr : ∀ k : Fin 2048, ridx_main_v26 (ix2 e j) k = ix2 k j := fun k => funext fun a => Fin.ext (by
    match a with | ⟨0, _⟩ => rfl | ⟨1, _⟩ => rfl)
  have hb : idx_main_v27 (idx_main_v28 (ix2 e j)) = ix1 j := funext fun a => Fin.ext (by
    match a with | ⟨0, _⟩ => rfl)
  simp only [hl, hr, hb, Ideal.addf_def]
  exact joined_logit X Y x4 x5 _ e j

/-- The activation of edge `e`, feature `j`: the logistic function of the relu of the pre-activation. -/
theorem ps_act (e : Fin 65536) (j : Fin 128) :
    val_main_v36 (F := Ideal) x0 x1 x2 x3 x4 x5 (ix2 e j) = Ideal.logistic (Cert.Spec.relu (Cert.Spec.logit (val_main_v24 (F := Ideal) x1 x3) (val_main_v10 (F := Ideal) x0 x2) (Cert.Spec.upper x4) (Cert.Spec.lower x4) x5 e j)) := by
  rw [val_main_v36_apply, val_main_v35_apply, val_main_cst_5_apply, val_main_v34_apply, val_main_v33_apply, val_main_cst_apply,
    val_main_v32_apply, val_main_v31_apply, val_main_v30_apply, val_main_call0_v0_apply, val_main_call0_cst_apply, ps_logit]
  generalize Cert.Spec.logit (val_main_v24 (F := Ideal) x1 x3) (val_main_v10 (F := Ideal) x0 x2) (Cert.Spec.upper x4) (Cert.Spec.lower x4) x5 e j = L
  simp only [Ideal.ofBits_def, ofBits_one_f32, Ideal.ofBits_zero_f32, Ideal.hostDivf_def, Ideal.addf_def,
    Ideal.hostUnary_exp_def, Ideal.hostNegf_def, Ideal.negf_def, Ideal.maximumf_def]
  exact logistic_relu L

/-- The gate of edge `e`: the mean of the activations over the 128 features. -/
theorem ps_gate (e : Fin 65536) :
    val_main_v39 (F := Ideal) x0 x1 x2 x3 x4 x5 (ix1 e) = Cert.Spec.gate (val_main_v24 (F := Ideal) x1 x3) (val_main_v10 (F := Ideal) x0 x2) (Cert.Spec.upper x4) (Cert.Spec.lower x4) x5 e := by
  rw [val_main_v39_apply, val_main_v38_apply, val_main_cst_7_apply, val_main_v37_apply, val_main_cst_6_apply]
  have hi : ∀ j : Fin 128, idx_main_v37 (ix1 e) j = ix2 e j := fun j => funext fun a => Fin.ext (by
    match a with | ⟨0, _⟩ => rfl | ⟨1, _⟩ => rfl)
  simp only [hi, ps_act, Ideal.ofBits_def, Ideal.ofBits_zero_f32, Ideal.hostDivf_def, zero_add]
  rfl

/-- The gated message is the specification's. -/
theorem msg_ps :
    val_main_v42 (F := Ideal) x0 x1 x2 x3 x4 x5 = Cert.Spec.msg (val_main_v24 (F := Ideal) x1 x3) (val_main_v10 (F := Ideal) x0 x2) (Cert.Spec.upper x4) (Cert.Spec.lower x4) x5 := by
  funext i
  obtain ⟨e, d, rfl⟩ : ∃ (e : Fin 65536) (d : Fin 1024), i = ix2 e d := ⟨i 0, i 1, eq_ix2 i⟩
  rw [val_main_v42_apply, val_main_v41_apply, val_main_v40_apply]
  have hi : idx_main_v40 (idx_main_v41 (ix2 e d)) = ix1 e := funext fun a => Fin.ext (by
    match a with | ⟨0, _⟩ => rfl)
  rw [hi, ps_gate, Ideal.mulf_def]
  rfl

end Cert.ReferenceIdeal.RefValue

end
-- ==== Proof.RefMsgPo.lean ====
/-
  The reference's message from a phrase to its object, gated on the joined rows [phrase | object], is the specification's gated message.
  The stages are read one at a time at explicit coordinates: the pre-activation (the contraction of the joined row, split
  at column 1024, plus the bias), the activation (relu, then the logistic function spelt with exp), the gate (the mean
  over the 128 features) and the message (the source row scaled by its edge's gate). The two gathered operands are
  carried as opaque matrices throughout.
-/
import proofs.«180715_j12979391168960_2_alg».proof.Proof.Gen.ReferenceIdeal.Read
import proofs.«180715_j12979391168960_2_alg».proof.Proof.Spec
import proofs.«180715_j12979391168960_2_alg».proof.Proof.LibColumnJoin
import proofs.«180715_j12979391168960_2_alg».proof.Proof.RefLaws

noncomputable section

namespace Cert.ReferenceIdeal.RefValue

open Cert.ReferenceIdeal Cert.ReferenceIdeal.Read Idealize.ShloMosaic Idealize.ShloMosaic.ValueIdx Cert.ReferenceIdeal.RefLaws

variable (x0 : (⟨S4096x1024, .f32⟩ : BufTy).Contents (Elt Ideal))
  (x1 : (⟨S2048x1024, .f32⟩ : BufTy).Contents (Elt Ideal))
  (x2 : (⟨S2x65536, .i32⟩ : BufTy).Contents (Elt Ideal))
  (x3 : (⟨S65536, .i32⟩ : BufTy).Contents (Elt Ideal))
  (x6 : (⟨S2048x128, .f32⟩ : BufTy).Contents (Elt Ideal))
  (x7 : (⟨S128, .f32⟩ : BufTy).Contents (Elt Ideal))

/-- The pre-activation of edge `e`, feature `j`. -/
theorem po_logit (e : Fin 65536) (j : Fin 128) :
    val_main_v59 (F := Ideal) x0 x1 x2 x3 x6 x7 (ix2 e j) = Cert.Spec.logit (val_main_v24 (F := Ideal) x1 x3) (val_main_v17 (F := Ideal) x0 x2) (Cert.Spec.upper x6) (Cert.Spec.lower x6) x7 e j := by
  rw [val_main_v59_apply, val_main_v56_apply, val_main_v58_apply, val_main_v57_apply]
  unfold val_main_v55
  generalize val_main_v24 (F := Ideal) x1 x3 = X
  generalize val_main_v17 (F := Ideal) x0 x2 = Y
  have hl : ∀ k : Fin 2048, lidx_main_v56 (ix2 e j) k = ix2 e k := fun k => funext fun a => Fin.ext (by
    match a with | ⟨0, _⟩ => rfl | ⟨1, _⟩ => rfl)
  have hr : ∀ k : Fin 2048, ridx_main_v56 (ix2 e j) k = ix2 k j := fun k => funext fun a => Fin.ext (by
    match a with | ⟨0, _⟩ => rfl | ⟨1, _⟩ => rfl)
  have hb : idx_main_v57 (idx_main_v58 (ix2 e j)) = ix1 j := funext fun a => Fin.ext (by
    match a with | ⟨0, _⟩ => rfl)
  simp only [hl, hr, hb, Ideal.addf_def]
  exact joined_logit X Y x6 x7 _ e j

/-- The activation of edge `e`, feature `j`: the logistic function of the relu of the pre-activation. -/
theorem po_act (e : Fin 65536) (j : Fin 128) :
    val_main_v66 (F := Ideal) x0 x1 x2 x3 x6 x7 (ix2 e j) = Ideal.logistic (Cert.Spec.relu (Cert.Spec.logit (val_main_v24 (F := Ideal) x1 x3) (val_main_v17 (F := Ideal) x0 x2) (Cert.Spec.upper x6) (Cert.Spec.lower x6) x7 e j)) := by
  rw [val_main_v66_apply, val_main_v65_apply, val_main_cst_13_apply, val_main_v64_apply, val_main_v63_apply, val_main_cst_12_apply,
    val_main_v62_apply, val_main_v61_apply, val_main_v60_apply, val_main_call1_v0_apply, val_main_call1_cst_apply, po_logit]
  generalize Cert.Spec.logit (val_main_v24 (F := Ideal) x1 x3) (val_main_v17 (F := Ideal) x0 x2) (Cert.Spec.upper x6) (Cert.Spec.lower x6) x7 e j = L
  simp only [Ideal.ofBits_def, ofBits_one_f32, Ideal.ofBits_zero_f32, Ideal.hostDivf_def, Ideal.addf_def,
    Ideal.hostUnary_exp_def, Ideal.hostNegf_def, Ideal.negf_def, Ideal.maximumf_def]
  exact logistic_relu L

/-- The gate of edge `e`: the mean of the activations over the 128 features. -/
theorem po_gate (e : Fin 65536) :
    val_main_v69 (F := Ideal) x0 x1 x2 x3 x6 x7 (ix1 e) = Cert.Spec.gate (val_main_v24 (F := Ideal) x1 x3) (val_main_v17 (F := Ideal) x0 x2) (Cert.Spec.upper x6) (Cert.Spec.lower x6) x7 e := by
  rw [val_main_v69_apply, val_main_v68_apply, val_main_cst_15_apply, val_main_v67_apply, val_main_cst_14_apply]
  have hi : ∀ j : Fin 128, idx_main_v67 (ix1 e) j = ix2 e j := fun j => funext fun a => Fin.ext (by
    match a with | ⟨0, _⟩ => rfl | ⟨1, _⟩ => rfl)
  simp only [hi, po_act, Ideal.ofBits_def, Ideal.ofBits_zero_f32, Ideal.hostDivf_def, zero_add]
  rfl

/-- The gated message is the specification's. -/
theorem msg_po :
    val_main_v72 (F := Ideal) x0 x1 x2 x3 x6 x7 = Cert.Spec.msg (val_main_v24 (F := Ideal) x1 x3) (val_main_v17 (F := Ideal) x0 x2) (Cert.Spec.upper x6) (Cert.Spec.lower x6) x7 := by
  funext i
  obtain ⟨e, d, rfl⟩ : ∃ (e : Fin 65536) (d : Fin 1024), i = ix2 e d := ⟨i 0, i 1, eq_ix2 i⟩
  rw [val_main_v72_apply, val_main_v71_apply, val_main_v70_apply]
  have hi : idx_main_v70 (idx_main_v71 (ix2 e d)) = ix1 e := funext fun a => Fin.ext (by
    match a with | ⟨0, _⟩ => rfl)
  rw [hi, po_gate, Ideal.mulf_def]
  rfl

end Cert.ReferenceIdeal.RefValue

end
-- ==== Proof.RefMsgOp.lean ====
/-
  The reference's message from an object to its phrase, gated on the joined rows [object | phrase], is the specification's gated message.
  The stages are read one at a time at explicit coordinates: the pre-activation (the contraction of the joined row, split
  at column 1024, plus the bias), the activation (relu, then the logistic function spelt with exp), the gate (the mean
  over the 128 features) and the message (the source row scaled by its edge's gate). The two gathered operands are
  carried as opaque matrices throughout.
-/
import proofs.«180715_j12979391168960_2_alg».proof.Proof.Gen.ReferenceIdeal.Read
import proofs.«180715_j12979391168960_2_alg».proof.Proof.Spec
import proofs.«180715_j12979391168960_2_alg».proof.Proof.LibColumnJoin
import proofs.«180715_j12979391168960_2_alg».proof.Proof.RefLaws

noncomputable section

namespace Cert.ReferenceIdeal.RefValue

open Cert.ReferenceIdeal Cert.ReferenceIdeal.Read Idealize.ShloMosaic Idealize.ShloMosaic.ValueIdx Cert.ReferenceIdeal.RefLaws

variable (x0 : (⟨S4096x1024, .f32⟩ : BufTy).Contents (Elt Ideal))
  (x1 : (⟨S2048x1024, .f32⟩ : BufTy).Contents (Elt Ideal))
  (x2 : (⟨S2x65536, .i32⟩ : BufTy).Contents (Elt Ideal))
  (x3 : (⟨S65536, .i32⟩ : BufTy).Contents (Elt Ideal))
  (x8 : (⟨S2048x128, .f32⟩ : BufTy).Contents (Elt Ideal))
  (x9 : (⟨S128, .f32⟩ : BufTy).Contents (Elt Ideal))

/-- The pre-activation of edge `e`, feature `j`. -/
theorem op_logit (e : Fin 65536) (j : Fin 128) :
    val_main_v89 (F := Ideal) x0 x1 x2 x3 x8 x9 (ix2 e j) = Cert.Spec.logit (val_main_v17 (F := Ideal) x0 x2) (val_main_v24 (F := Ideal) x1 x3) (Cert.Spec.upper x8) (Cert.Spec.lower x8) x9 e j := by
  rw [val_main_v89_apply, val_main_v86_apply, val_main_v88_apply, val_main_v87_apply]
  unfold val_main_v85
  generalize val_main_v17 (F := Ideal) x0 x2 = X
  generalize val_main_v24 (F := Ideal) x1 x3 = Y
  have hl : ∀ k : Fin 2048, lidx_main_v86 (ix2 e j) k = ix2 e k := fun k => funext fun a => Fin.ext (by
    match a with | ⟨0, _⟩ => rfl | ⟨1, _⟩ => rfl)
  have hr : ∀ k : Fin 2048, ridx_main_v86 (ix2 e j) k = ix2 k j := fun k => funext fun a => Fin.ext (by
    match a with | ⟨0, _⟩ => rfl | ⟨1, _⟩ => rfl)
  have hb : idx_main_v87 (idx_main_v88 (ix2 e j)) = ix1 j := funext fun a => Fin.ext (by
    match a with | ⟨0, _⟩ => rfl)
  simp only [hl, hr, hb, Ideal.addf_def]
  exact joined_logit X Y x8 x9 _ e j

/-- The activation of edge `e`, feature `j`: the logistic function of the relu of the pre-activation. -/
theorem op_act (e : Fin 65536) (j : Fin 128) :
    val_main_v96 (F := Ideal) x0 x1 x2 x3 x8 x9 (ix2 e j) = Ideal.logistic (Cert.Spec.relu (Cert.Spec.logit (val_main_v17 (F := Ideal) x0 x2) (val_main_v24 (F := Ideal) x1 x3) (Cert.Spec.upper x8) (Cert.Spec.lower x8) x9 e j)) := by
  rw [val_main_v96_apply, val_main_v95_apply, val_main_cst_21_apply, val_main_v94_apply, val_main_v93_apply, val_main_cst_20_apply,
    val_main_v92_apply, val_main_v91_apply, val_main_v90_apply, val_main_call2_v0_apply, val_main_call2_cst_apply, op_logit]
  generalize Cert.Spec.logit (val_main_v17 (F := Ideal) x0 x2) (val_main_v24 (F := Ideal) x1 x3) (Cert.Spec.upper x8) (Cert.Spec.lower x8) x9 e j = L
  simp only [Ideal.ofBits_def, ofBits_one_f32, Ideal.ofBits_zero_f32, Ideal.hostDivf_def, Ideal.addf_def,
    Ideal.hostUnary_exp_def, Ideal.hostNegf_def, Ideal.negf_def, Ideal.maximumf_def]
  exact logistic_relu L

/-- The gate of edge `e`: the mean of the activations over the 128 features. -/
theorem op_gate (e : Fin 65536) :
    val_main_v99 (F := Ideal) x0 x1 x2 x3 x8 x9 (ix1 e) = Cert.Spec.gate (val_main_v17 (F := Ideal) x0 x2) (val_main_v24 (F := Ideal) x1 x3) (Cert.Spec.upper x8) (Cert.Spec.lower x8) x9 e := by
  rw [val_main_v99_apply, val_main_v98_apply, val_main_cst_23_apply, val_main_v97_apply, val_main_cst_22_apply]
  have hi : ∀ j : Fin 128, idx_main_v97 (ix1 e) j = ix2 e j := fun j => funext fun a => Fin.ext (by
    match a with | ⟨0, _⟩ => rfl | ⟨1, _⟩ => rfl)
  simp only [hi, op_act, Ideal.ofBits_def, Ideal.ofBits_zero_f32, Ideal.hostDivf_def, zero_add]
  rfl

/-- The gated message is the specification's. -/
theorem msg_op :
    val_main_v102 (F := Ideal) x0 x1 x2 x3 x8 x9 = Cert.Spec.msg (val_main_v17 (F := Ideal) x0 x2) (val_main_v24 (F := Ideal) x1 x3) (Cert.Spec.upper x8) (Cert.Spec.lower x8) x9 := by
  funext i
  obtain ⟨e, d, rfl⟩ : ∃ (e : Fin 65536) (d : Fin 1024), i = ix2 e d := ⟨i 0, i 1, eq_ix2 i⟩
  rw [val_main_v102_apply, val_main_v101_apply, val_main_v100_apply]
  have hi : idx_main_v100 (idx_main_v101 (ix2 e d)) = ix1 e := funext fun a => Fin.ext (by
    match a with | ⟨0, _⟩ => rfl)
  rw [hi, op_gate, Ideal.mulf_def]
  rfl

end Cert.ReferenceIdeal.RefValue

end
-- ==== Proof.RefMsgSp.lean ====
/-
  The reference's message from a subject to its phrase, gated on the joined rows [subject | phrase], is the specification's gated message.
  The stages are read one at a time at explicit coordinates: the pre-activation (the contraction of the joined row, split
  at column 1024, plus the bias), the activation (relu, then the logistic function spelt with exp), the gate (the mean
  over the 128 features) and the message (the source row scaled by its edge's gate). The two gathered operands are
  carried as opaque matrices throughout.
-/
import proofs.«180715_j12979391168960_2_alg».proof.Proof.Gen.ReferenceIdeal.Read
import proofs.«180715_j12979391168960_2_alg».proof.Proof.Spec
import proofs.«180715_j12979391168960_2_alg».proof.Proof.LibColumnJoin
import proofs.«180715_j12979391168960_2_alg».proof.Proof.RefLaws

noncomputable section

namespace Cert.ReferenceIdeal.RefValue

open Cert.ReferenceIdeal Cert.ReferenceIdeal.Read Idealize.ShloMosaic Idealize.ShloMosaic.ValueIdx Cert.ReferenceIdeal.RefLaws

variable (x0 : (⟨S4096x1024, .f32⟩ : BufTy).Contents (Elt Ideal))
  (x1 : (⟨S2048x1024, .f32⟩ : BufTy).Contents (Elt Ideal))
  (x2 : (⟨S2x65536, .i32⟩ : BufTy).Contents (Elt Ideal))
  (x3 : (⟨S65536, .i32⟩ : BufTy).Contents (Elt Ideal))
  (x10 : (⟨S2048x128, .f32⟩ : BufTy).Contents (Elt Ideal))
  (x11 : (⟨S128, .f32⟩ : BufTy).Contents (Elt Ideal))

/-- The pre-activation of edge `e`, feature `j`. -/
theorem sp_logit (e : Fin 65536) (j : Fin 128) :
    val_main_v119 (F := Ideal) x0 x1 x2 x3 x10 x11 (ix2 e j) = Cert.Spec.logit (val_main_v10 (F := Ideal) x0 x2) (val_main_v24 (F := Ideal) x1 x3) (Cert.Spec.upper x10) (Cert.Spec.lower x10) x11 e j := by
  rw [val_main_v119_apply, val_main_v116_apply, val_main_v118_apply, val_main_v117_apply]
  unfold val_main_v115
  generalize val_main_v10 (F := Ideal) x0 x2 = X
  generalize val_main_v24 (F := Ideal) x1 x3 = Y
  have hl : ∀ k : Fin 2048, lidx_main_v116 (ix2 e j) k = ix2 e k := fun k => funext fun a => Fin.ext (by
    match a with | ⟨0, _⟩ => rfl | ⟨1, _⟩ => rfl)
  have hr : ∀ k : Fin 2048, ridx_main_v116 (ix2 e j) k = ix2 k j := fun k => funext fun a => Fin.ext (by
    match a with | ⟨0, _⟩ => rfl | ⟨1, _⟩ => rfl)
  have hb : idx_main_v117 (idx_main_v118 (ix2 e j)) = ix1 j := funext fun a => Fin.ext (by
    match a with | ⟨0, _⟩ => rfl)
  simp only [hl, hr, hb, Ideal.addf_def]
  exact joined_logit X Y x10 x11 _ e j

/-- The activation of edge `e`, feature `j`: the logistic function of the relu of the pre-activation. -/
theorem sp_act (e : Fin 65536) (j : Fin 128) :
    val_main_v126 (F := Ideal) x0 x1 x2 x3 x10 x11 (ix2 e j) = Ideal.logistic (Cert.Spec.relu (Cert.Spec.logit (val_main_v10 (F := Ideal) x0 x2) (val_main_v24 (F := Ideal) x1 x3) (Cert.Spec.upper x10) (Cert.Spec.lower x10) x11 e j)) := by
  rw [val_main_v126_apply, val_main_v125_apply, val_main_cst_29_apply, val_main_v124_apply, val_main_v123_apply, val_main_cst_28_apply,
    val_main_v122_apply, val_main_v121_apply, val_main_v120_apply, val_main_call3_v0_apply, val_main_call3_cst_apply, sp_logit]
  generalize Cert.Spec.logit (val_main_v10 (F := Ideal) x0 x2) (val_main_v24 (F := Ideal) x1 x3) (Cert.Spec.upper x10) (Cert.Spec.lower x10) x11 e j = L
  simp only [Ideal.ofBits_def, ofBits_one_f32, Ideal.ofBits_zero_f32, Ideal.hostDivf_def, Ideal.addf_def,
    Ideal.hostUnary_exp_def, Ideal.hostNegf_def, Ideal.negf_def, Ideal.maximumf_def]
  exact logistic_relu L

/-- The gate of edge `e`: the mean of the activations over the 128 features. -/
theorem sp_gate (e : Fin 65536) :
    val_main_v129 (F := Ideal) x0 x1 x2 x3 x10 x11 (ix1 e) = Cert.Spec.gate (val_main_v10 (F := Ideal) x0 x2) (val_main_v24 (F := Ideal) x1 x3) (Cert.Spec.upper x10) (Cert.Spec.lower x10) x11 e := by
  rw [val_main_v129_apply, val_main_v128_apply, val_main_cst_31_apply, val_main_v127_apply, val_main_cst_30_apply]
  have hi : ∀ j : Fin 128, idx_main_v127 (ix1 e) j = ix2 e j := fun j => funext fun a => Fin.ext (by
    match a with | ⟨0, _⟩ => rfl | ⟨1, _⟩ => rfl)
  simp only [hi, sp_act, Ideal.ofBits_def, Ideal.ofBits_zero_f32, Ideal.hostDivf_def, zero_add]
  rfl

/-- The gated message is the specification's. -/
theorem msg_sp :
    val_main_v132 (F := Ideal) x0 x1 x2 x3 x10 x11 = Cert.Spec.msg (val_main_v10 (F := Ideal) x0 x2) (val_main_v24 (F := Ideal) x1 x3) (Cert.Spec.upper x10) (Cert.Spec.lower x10) x11 := by
  funext i
  obtain ⟨e, d, rfl⟩ : ∃ (e : Fin 65536) (d : Fin 1024), i = ix2 e d := ⟨i 0, i 1, eq_ix2 i⟩
  rw [val_main_v132_apply, val_main_v131_apply, val_main_v130_apply]
  have hi : idx_main_v130 (idx_main_v131 (ix2 e d)) = ix1 e := funext fun a => Fin.ext (by
    match a with | ⟨0, _⟩ => rfl)
  rw [hi, sp_gate, Ideal.mulf_def]
  rfl

end Cert.ReferenceIdeal.RefValue

end
-- ==== Proof.RefRefineInst.lean ====
/-
  The reference's refined instance features are the specification's refinement of the two segment means of the messages that reach an instance.
  The combined message (A + B)·½ is read first, as a whole matrix; then each linear layer at explicit coordinates (a
  contraction over 1024 columns plus the bias, then relu); the result is the sum of the three. The two segment means A
  and B are carried as opaque matrices throughout.
-/
import proofs.«180715_j12979391168960_2_alg».proof.Proof.Gen.ReferenceIdeal.Read
import proofs.«180715_j12979391168960_2_alg».proof.Proof.Spec

noncomputable section

namespace Cert.ReferenceIdeal.RefValue

open Cert.ReferenceIdeal Cert.ReferenceIdeal.Read Idealize.ShloMosaic Idealize.ShloMosaic.ValueIdx

variable (x0 : (⟨S4096x1024, .f32⟩ : BufTy).Contents (Elt Ideal))
  (x1 : (⟨S2048x1024, .f32⟩ : BufTy).Contents (Elt Ideal))
  (x2 : (⟨S2x65536, .i32⟩ : BufTy).Contents (Elt Ideal))
  (x3 : (⟨S65536, .i32⟩ : BufTy).Contents (Elt Ideal))
  (x4 : (⟨S2048x128, .f32⟩ : BufTy).Contents (Elt Ideal))
  (x5 : (⟨S128, .f32⟩ : BufTy).Contents (Elt Ideal))
  (x6 : (⟨S2048x128, .f32⟩ : BufTy).Contents (Elt Ideal))
  (x7 : (⟨S128, .f32⟩ : BufTy).Contents (Elt Ideal))
  (x12 : (⟨S1024x1024, .f32⟩ : BufTy).Contents (Elt Ideal))
  (x13 : (⟨S1024, .f32⟩ : BufTy).Contents (Elt Ideal))
  (x14 : (⟨S1024x1024, .f32⟩ : BufTy).Contents (Elt Ideal))
  (x15 : (⟨S1024, .f32⟩ : BufTy).Contents (Elt Ideal))

/-- The combined message (A + B)·½. -/
theorem inst_mix :
    val_main_v147 (F := Ideal) x0 x1 x2 x3 x4 x5 x6 x7 = Cert.Spec.mix (R := 4096) (val_main_v84 (F := Ideal) x0 x1 x2 x3 x6 x7) (val_main_v54 (F := Ideal) x0 x1 x2 x3 x4 x5) := by
  funext i
  rw [val_main_v147_apply, val_main_v145_apply, val_main_v146_apply, val_main_cst_36_apply]
  generalize val_main_v84 (F := Ideal) x0 x1 x2 x3 x6 x7 = A
  generalize val_main_v54 (F := Ideal) x0 x1 x2 x3 x4 x5 = B
  rfl

/-- The first linear layer, on the combined message, at row `r`, column `c`. -/
theorem inst_lin1 (r : Fin 4096) (c : Fin 1024) :
    val_main_v152 (F := Ideal) x0 x1 x2 x3 x4 x5 x6 x7 x12 x13 (ix2 r c) = Cert.Spec.lin (R := 4096) (Cert.Spec.mix (R := 4096) (val_main_v84 (F := Ideal) x0 x1 x2 x3 x6 x7) (val_main_v54 (F := Ideal) x0 x1 x2 x3 x4 x5)) x12 x13 r c := by
  rw [val_main_v152_apply, val_main_call4_v0_apply, val_main_call4_cst_apply, val_main_v151_apply, val_main_v148_apply,
    val_main_v150_apply, val_main_v149_apply, inst_mix]
  generalize Cert.Spec.mix (R := 4096) (val_main_v84 (F := Ideal) x0 x1 x2 x3 x6 x7) (val_main_v54 (F := Ideal) x0 x1 x2 x3 x4 x5) = M
  have hl : ∀ k : Fin 1024, lidx_main_v148 (ix2 r c) k = ix2 r k := fun k => funext fun a => Fin.ext (by
    match a with | ⟨0, _⟩ => rfl | ⟨1, _⟩ => rfl)
  have hr : ∀ k : Fin 1024, ridx_main_v148 (ix2 r c) k = ix2 k c := fun k => funext fun a => Fin.ext (by
    match a with | ⟨0, _⟩ => rfl | ⟨1, _⟩ => rfl)
  have hb : idx_main_v149 (idx_main_v150 (ix2 r c)) = ix1 c := funext fun a => Fin.ext (by
    match a with | ⟨0, _⟩ => rfl)
  simp only [hl, hr, hb, Ideal.ofBits_def, Ideal.ofBits_zero_f32, Ideal.addf_def, Ideal.maximumf_def]
  rfl

/-- The second linear layer, on the rows' own features, at row `r`, column `c`. -/
theorem inst_lin2 (r : Fin 4096) (c : Fin 1024) :
    val_main_v158 (F := Ideal) x0 x14 x15 (ix2 r c) = Cert.Spec.lin (R := 4096) x0 x14 x15 r c := by
  rw [val_main_v158_apply, val_main_call5_v0_apply, val_main_call5_cst_apply, val_main_v157_apply, val_main_v154_apply,
    val_main_v156_apply, val_main_v155_apply]
  have hl : ∀ k : Fin 1024, lidx_main_v154 (ix2 r c) k = ix2 r k := fun k => funext fun a => Fin.ext (by
    match a with | ⟨0, _⟩ => rfl | ⟨1, _⟩ => rfl)
  have hr : ∀ k : Fin 1024, ridx_main_v154 (ix2 r c) k = ix2 k c := fun k => funext fun a => Fin.ext (by
    match a with | ⟨0, _⟩ => rfl | ⟨1, _⟩ => rfl)
  have hb : idx_main_v155 (idx_main_v156 (ix2 r c)) = ix1 c := funext fun a => Fin.ext (by
    match a with | ⟨0, _⟩ => rfl)
  simp only [hl, hr, hb, Ideal.ofBits_def, Ideal.ofBits_zero_f32, Ideal.addf_def, Ideal.maximumf_def]
  rfl

/-- The refinement is the specification's. -/
theorem refine_inst :
    val_main_v159 (F := Ideal) x0 x1 x2 x3 x4 x5 x6 x7 x12 x13 x14 x15
      = Cert.Spec.refine (R := 4096) (val_main_v84 (F := Ideal) x0 x1 x2 x3 x6 x7) (val_main_v54 (F := Ideal) x0 x1 x2 x3 x4 x5) x0 x12 x13 x14 x15 := by
  funext i
  obtain ⟨r, c, rfl⟩ : ∃ (r : Fin 4096) (c : Fin 1024), i = ix2 r c := ⟨i 0, i 1, eq_ix2 i⟩
  rw [val_main_v159_apply, val_main_v153_apply, inst_lin1, inst_lin2, inst_mix]
  generalize val_main_v84 (F := Ideal) x0 x1 x2 x3 x6 x7 = A
  generalize val_main_v54 (F := Ideal) x0 x1 x2 x3 x4 x5 = B
  rfl

end Cert.ReferenceIdeal.RefValue

end
-- ==== Proof.RefRefinePhra.lean ====
/-
  The reference's refined phrase features are the specification's refinement of the two segment means of the messages that reach a phrase.
  The combined message (A + B)·½ is read first, as a whole matrix; then each linear layer at explicit coordinates (a
  contraction over 1024 columns plus the bias, then relu); the result is the sum of the three. The two segment means A
  and B are carried as opaque matrices throughout.
-/
import proofs.«180715_j12979391168960_2_alg».proof.Proof.Gen.ReferenceIdeal.Read
import proofs.«180715_j12979391168960_2_alg».proof.Proof.Spec

noncomputable section

namespace Cert.ReferenceIdeal.RefValue

open Cert.ReferenceIdeal Cert.ReferenceIdeal.Read Idealize.ShloMosaic Idealize.ShloMosaic.ValueIdx

variable (x0 : (⟨S4096x1024, .f32⟩ : BufTy).Contents (Elt Ideal))
  (x1 : (⟨S2048x1024, .f32⟩ : BufTy).Contents (Elt Ideal))
  (x2 : (⟨S2x65536, .i32⟩ : BufTy).Contents (Elt Ideal))
  (x3 : (⟨S65536, .i32⟩ : BufTy).Contents (Elt Ideal))
  (x8 : (⟨S2048x128, .f32⟩ : BufTy).Contents (Elt Ideal))
  (x9 : (⟨S128, .f32⟩ : BufTy).Contents (Elt Ideal))
  (x10 : (⟨S2048x128, .f32⟩ : BufTy).Contents (Elt Ideal))
  (x11 : (⟨S128, .f32⟩ : BufTy).Contents (Elt Ideal))
  (x16 : (⟨S1024x1024, .f32⟩ : BufTy).Contents (Elt Ideal))
  (x17 : (⟨S1024, .f32⟩ : BufTy).Contents (Elt Ideal))
  (x18 : (⟨S1024x1024, .f32⟩ : BufTy).Contents (Elt Ideal))
  (x19 : (⟨S1024, .f32⟩ : BufTy).Contents (Elt Ideal))

/-- The combined message (A + B)·½. -/
theorem phra_mix :
    val_main_v162 (F := Ideal) x0 x1 x2 x3 x8 x9 x10 x11 = Cert.Spec.mix (R := 2048) (val_main_v114 (F := Ideal) x0 x1 x2 x3 x8 x9) (val_main_v144 (F := Ideal) x0 x1 x2 x3 x10 x11) := by
  funext i
  rw [val_main_v162_apply, val_main_v160_apply, val_main_v161_apply, val_main_cst_37_apply]
  generalize val_main_v114 (F := Ideal) x0 x1 x2 x3 x8 x9 = A
  generalize val_main_v144 (F := Ideal) x0 x1 x2 x3 x10 x11 = B
  rfl

/-- The first linear layer, on the combined message, at row `r`, column `c`. -/
theorem phra_lin1 (r : Fin 2048) (c : Fin 1024) :
    val_main_v167 (F := Ideal) x0 x1 x2 x3 x8 x9 x10 x11 x16 x17 (ix2 r c) = Cert.Spec.lin (R := 2048) (Cert.Spec.mix (R := 2048) (val_main_v114 (F := Ideal) x0 x1 x2 x3 x8 x9) (val_main_v144 (F := Ideal) x0 x1 x2 x3 x10 x11)) x16 x17 r c := by
  rw [val_main_v167_apply, val_main_call6_v0_apply, val_main_call6_cst_apply, val_main_v166_apply, val_main_v163_apply,
    val_main_v165_apply, val_main_v164_apply, phra_mix]
  generalize Cert.Spec.mix (R := 2048) (val_main_v114 (F := Ideal) x0 x1 x2 x3 x8 x9) (val_main_v144 (F := Ideal) x0 x1 x2 x3 x10 x11) = M
  have hl : ∀ k : Fin 1024, lidx_main_v163 (ix2 r c) k = ix2 r k := fun k => funext fun a => Fin.ext (by
    match a with | ⟨0, _⟩ => rfl | ⟨1, _⟩ => rfl)
  have hr : ∀ k : Fin 1024, ridx_main_v163 (ix2 r c) k = ix2 k c := fun k => funext fun a => Fin.ext (by
    match a with | ⟨0, _⟩ => rfl | ⟨1, _⟩ => rfl)
  have hb : idx_main_v164 (idx_main_v165 (ix2 r c)) = ix1 c := funext fun a => Fin.ext (by
    match a with | ⟨0, _⟩ => rfl)
  simp only [hl, hr, hb, Ideal.ofBits_def, Ideal.ofBits_zero_f32, Ideal.addf_def, Ideal.maximumf_def]
  rfl

/-- The second linear layer, on the rows' own features, at row `r`, column `c`. -/
theorem phra_lin2 (r : Fin 2048) (c : Fin 1024) :
    val_main_v173 (F := Ideal) x1 x18 x19 (ix2 r c) = Cert.Spec.lin (R := 2048) x1 x18 x19 r c := by
  rw [val_main_v173_apply, val_main_call7_v0_apply, val_main_call7_cst_apply, val_main_v172_apply, val_main_v169_apply,
    val_main_v171_apply, val_main_v170_apply]
  have hl : ∀ k : Fin 1024, lidx_main_v169 (ix2 r c) k = ix2 r k := fun k => funext fun a => Fin.ext (by
    match a with | ⟨0, _⟩ => rfl | ⟨1, _⟩ => rfl)
  have hr : ∀ k : Fin 1024, ridx_main_v169 (ix2 r c) k = ix2 k c := fun k => funext fun a => Fin.ext (by
    match a with | ⟨0, _⟩ => rfl | ⟨1, _⟩ => rfl)
  have hb : idx_main_v170 (idx_main_v171 (ix2 r c)) = ix1 c := funext fun a => Fin.ext (by
    match a with | ⟨0, _⟩ => rfl)
  simp only [hl, hr, hb, Ideal.ofBits_def, Ideal.ofBits_zero_f32, Ideal.addf_def, Ideal.maximumf_def]
  rfl

/-- The refinement is the specification's. -/
theorem refine_phra :
    val_main_v174 (F := Ideal) x0 x1 x2 x3 x8 x9 x10 x11 x16 x17 x18 x19
      = Cert.Spec.refine (R := 2048) (val_main_v114 (F := Ideal) x0 x1 x2 x3 x8 x9) (val_main_v144 (F := Ideal) x0 x1 x2 x3 x10 x11) x1 x16 x17 x18 x19 := by
  funext i
  obtain ⟨r, c, rfl⟩ : ∃ (r : Fin 2048) (c : Fin 1024), i = ix2 r c := ⟨i 0, i 1, eq_ix2 i⟩
  rw [val_main_v174_apply, val_main_v168_apply, phra_lin1, phra_lin2, phra_mix]
  generalize val_main_v114 (F := Ideal) x0 x1 x2 x3 x8 x9 = A
  generalize val_main_v144 (F := Ideal) x0 x1 x2 x3 x10 x11 = B
  rfl

end Cert.ReferenceIdeal.RefValue

end
-- ==== Proof.RefResults.lean ====
/-
  The reference's two results as the specification's functions of its arguments.

  Result 0 (the refined instance features) is the refinement of the two segment means, over the instances, of the gated
  messages phrase → object and phrase → subject; result 1 (the refined phrase features) is the refinement of the two
  segment means, over the phrases, of the gated messages object → phrase and subject → phrase. Each is the chain of the
  stage facts: the refinement, the segment means, the gated messages.
-/
import proofs.«180715_j12979391168960_2_alg».proof.Proof.Gen.ReferenceIdeal.Read
import proofs.«180715_j12979391168960_2_alg».proof.Proof.Spec
import proofs.«180715_j12979391168960_2_alg».proof.Proof.RefSegMean
import proofs.«180715_j12979391168960_2_alg».proof.Proof.RefMsgPs
import proofs.«180715_j12979391168960_2_alg».proof.Proof.RefMsgPo
import proofs.«180715_j12979391168960_2_alg».proof.Proof.RefMsgOp
import proofs.«180715_j12979391168960_2_alg».proof.Proof.RefMsgSp
import proofs.«180715_j12979391168960_2_alg».proof.Proof.RefRefineInst
import proofs.«180715_j12979391168960_2_alg».proof.Proof.RefRefinePhra

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo

variable (x0 : (⟨S4096x1024, .f32⟩ : BufTy).Contents (Elt Ideal))
  (x1 : (⟨S2048x1024, .f32⟩ : BufTy).Contents (Elt Ideal))
  (x2 : (⟨S2x65536, .i32⟩ : BufTy).Contents (Elt Ideal))
  (x3 : (⟨S65536, .i32⟩ : BufTy).Contents (Elt Ideal))
  (x4 : (⟨S2048x128, .f32⟩ : BufTy).Contents (Elt Ideal))
  (x5 : (⟨S128, .f32⟩ : BufTy).Contents (Elt Ideal))
  (x6 : (⟨S2048x128, .f32⟩ : BufTy).Contents (Elt Ideal))
  (x7 : (⟨S128, .f32⟩ : BufTy).Contents (Elt Ideal))
  (x8 : (⟨S2048x128, .f32⟩ : BufTy).Contents (Elt Ideal))
  (x9 : (⟨S128, .f32⟩ : BufTy).Contents (Elt Ideal))
  (x10 : (⟨S2048x128, .f32⟩ : BufTy).Contents (Elt Ideal))
  (x11 : (⟨S128, .f32⟩ : BufTy).Contents (Elt Ideal))
  (x12 : (⟨S1024x1024, .f32⟩ : BufTy).Contents (Elt Ideal))
  (x13 : (⟨S1024, .f32⟩ : BufTy).Contents (Elt Ideal))
  (x14 : (⟨S1024x1024, .f32⟩ : BufTy).Contents (Elt Ideal))
  (x15 : (⟨S1024, .f32⟩ : BufTy).Contents (Elt Ideal))
  (x16 : (⟨S1024x1024, .f32⟩ : BufTy).Contents (Elt Ideal))
  (x17 : (⟨S1024, .f32⟩ : BufTy).Contents (Elt Ideal))
  (x18 : (⟨S1024x1024, .f32⟩ : BufTy).Contents (Elt Ideal))
  (x19 : (⟨S1024, .f32⟩ : BufTy).Contents (Elt Ideal))

/-- The refined instance features, over named arguments. -/
theorem inst_chain :
    val_main_v159 (F := Ideal) x0 x1 x2 x3 x4 x5 x6 x7 x12 x13 x14 x15
      = Cert.Spec.refine (R := 4096)
          (segPo x2 (Cert.Spec.msg (val_main_v24 (F := Ideal) x1 x3) (val_main_v17 (F := Ideal) x0 x2) (Cert.Spec.upper x6) (Cert.Spec.lower x6) x7))
          (segPs x2 (Cert.Spec.msg (val_main_v24 (F := Ideal) x1 x3) (val_main_v10 (F := Ideal) x0 x2) (Cert.Spec.upper x4) (Cert.Spec.lower x4) x5))
          x0 x12 x13 x14 x15 := by
  rw [refine_inst, segmean_po, segmean_ps, msg_po, msg_ps]

/-- The refined phrase features, over named arguments. -/
theorem phra_chain :
    val_main_v174 (F := Ideal) x0 x1 x2 x3 x8 x9 x10 x11 x16 x17 x18 x19
      = Cert.Spec.refine (R := 2048)
          (segOp x3 (Cert.Spec.msg (val_main_v17 (F := Ideal) x0 x2) (val_main_v24 (F := Ideal) x1 x3) (Cert.Spec.upper x8) (Cert.Spec.lower x8) x9))
          (segSp x3 (Cert.Spec.msg (val_main_v10 (F := Ideal) x0 x2) (val_main_v24 (F := Ideal) x1 x3) (Cert.Spec.upper x10) (Cert.Spec.lower x10) x11))
          x1 x16 x17 x18 x19 := by
  rw [refine_phra, segmean_op, segmean_sp, msg_op, msg_sp]

/-- Result 0 of the reference's run, as the specification's function of the launch contents of its arguments. -/
theorem res0_spec (m : (ℓ : Loc nD τ sig) → Buf (Elt Ideal) ℓ) (c : Dev nD) :
    Cert.ReferenceIdeal.Value.res_main_v159 (F := Ideal) m c
      = Cert.Spec.refine (R := 4096)
          (segPo (m ((c.tc : Thread nD τ).loc main_arg2) : (⟨S2x65536, .i32⟩ : BufTy).Contents (Elt Ideal)) (Cert.Spec.msg (val_main_v24 (F := Ideal) (m ((c.tc : Thread nD τ).loc main_arg1) : (⟨S2048x1024, .f32⟩ : BufTy).Contents (Elt Ideal)) (m ((c.tc : Thread nD τ).loc main_arg3) : (⟨S65536, .i32⟩ : BufTy).Contents (Elt Ideal))) (val_main_v17 (F := Ideal) (m ((c.tc : Thread nD τ).loc main_arg0) : (⟨S4096x1024, .f32⟩ : BufTy).Contents (Elt Ideal)) (m ((c.tc : Thread nD τ).loc main_arg2) : (⟨S2x65536, .i32⟩ : BufTy).Contents (Elt Ideal))) (Cert.Spec.upper (m ((c.tc : Thread nD τ).loc main_arg6) : (⟨S2048x128, .f32⟩ : BufTy).Contents (Elt Ideal))) (Cert.Spec.lower (m ((c.tc : Thread nD τ).loc main_arg6) : (⟨S2048x128, .f32⟩ : BufTy).Contents (Elt Ideal))) (m ((c.tc : Thread nD τ).loc main_arg7) : (⟨S128, .f32⟩ : BufTy).Contents (Elt Ideal))))
          (segPs (m ((c.tc : Thread nD τ).loc main_arg2) : (⟨S2x65536, .i32⟩ : BufTy).Contents (Elt Ideal)) (Cert.Spec.msg (val_main_v24 (F := Ideal) (m ((c.tc : Thread nD τ).loc main_arg1) : (⟨S2048x1024, .f32⟩ : BufTy).Contents (Elt Ideal)) (m ((c.tc : Thread nD τ).loc main_arg3) : (⟨S65536, .i32⟩ : BufTy).Contents (Elt Ideal))) (val_main_v10 (F := Ideal) (m ((c.tc : Thread nD τ).loc main_arg0) : (⟨S4096x1024, .f32⟩ : BufTy).Contents (Elt Ideal)) (m ((c.tc : Thread nD τ).loc main_arg2) : (⟨S2x65536, .i32⟩ : BufTy).Contents (Elt Ideal))) (Cert.Spec.upper (m ((c.tc : Thread nD τ).loc main_arg4) : (⟨S2048x128, .f32⟩ : BufTy).Contents (Elt Ideal))) (Cert.Spec.lower (m ((c.tc : Thread nD τ).loc main_arg4) : (⟨S2048x128, .f32⟩ : BufTy).Contents (Elt Ideal))) (m ((c.tc : Thread nD τ).loc main_arg5) : (⟨S128, .f32⟩ : BufTy).Contents (Elt Ideal))))
          (m ((c.tc : Thread nD τ).loc main_arg0) : (⟨S4096x1024, .f32⟩ : BufTy).Contents (Elt Ideal)) (m ((c.tc : Thread nD τ).loc main_arg12) : (⟨S1024x1024, .f32⟩ : BufTy).Contents (Elt Ideal)) (m ((c.tc : Thread nD τ).loc main_arg13) : (⟨S1024, .f32⟩ : BufTy).Contents (Elt Ideal)) (m ((c.tc : Thread nD τ).loc main_arg14) : (⟨S1024x1024, .f32⟩ : BufTy).Contents (Elt Ideal)) (m ((c.tc : Thread nD τ).loc main_arg15) : (⟨S1024, .f32⟩ : BufTy).Contents (Elt Ideal)) :=
  (val_main_v159_eq (F := Ideal) m c).trans (inst_chain _ _ _ _ _ _ _ _ _ _ _ _)

/-- Result 1 of the reference's run, as the specification's function of the launch contents of its arguments. -/
theorem res1_spec (m : (ℓ : Loc nD τ sig) → Buf (Elt Ideal) ℓ) (c : Dev nD) :
    Cert.ReferenceIdeal.Value.res_main_v174 (F := Ideal) m c
      = Cert.Spec.refine (R := 2048)
          (segOp (m ((c.tc : Thread nD τ).loc main_arg3) : (⟨S65536, .i32⟩ : BufTy).Contents (Elt Ideal)) (Cert.Spec.msg (val_main_v17 (F := Ideal) (m ((c.tc : Thread nD τ).loc main_arg0) : (⟨S4096x1024, .f32⟩ : BufTy).Contents (Elt Ideal)) (m ((c.tc : Thread nD τ).loc main_arg2) : (⟨S2x65536, .i32⟩ : BufTy).Contents (Elt Ideal))) (val_main_v24 (F := Ideal) (m ((c.tc : Thread nD τ).loc main_arg1) : (⟨S2048x1024, .f32⟩ : BufTy).Contents (Elt Ideal)) (m ((c.tc : Thread nD τ).loc main_arg3) : (⟨S65536, .i32⟩ : BufTy).Contents (Elt Ideal))) (Cert.Spec.upper (m ((c.tc : Thread nD τ).loc main_arg8) : (⟨S2048x128, .f32⟩ : BufTy).Contents (Elt Ideal))) (Cert.Spec.lower (m ((c.tc : Thread nD τ).loc main_arg8) : (⟨S2048x128, .f32⟩ : BufTy).Contents (Elt Ideal))) (m ((c.tc : Thread nD τ).loc main_arg9) : (⟨S128, .f32⟩ : BufTy).Contents (Elt Ideal))))
          (segSp (m ((c.tc : Thread nD τ).loc main_arg3) : (⟨S65536, .i32⟩ : BufTy).Contents (Elt Ideal)) (Cert.Spec.msg (val_main_v10 (F := Ideal) (m ((c.tc : Thread nD τ).loc main_arg0) : (⟨S4096x1024, .f32⟩ : BufTy).Contents (Elt Ideal)) (m ((c.tc : Thread nD τ).loc main_arg2) : (⟨S2x65536, .i32⟩ : BufTy).Contents (Elt Ideal))) (val_main_v24 (F := Ideal) (m ((c.tc : Thread nD τ).loc main_arg1) : (⟨S2048x1024, .f32⟩ : BufTy).Contents (Elt Ideal)) (m ((c.tc : Thread nD τ).loc main_arg3) : (⟨S65536, .i32⟩ : BufTy).Contents (Elt Ideal))) (Cert.Spec.upper (m ((c.tc : Thread nD τ).loc main_arg10) : (⟨S2048x128, .f32⟩ : BufTy).Contents (Elt Ideal))) (Cert.Spec.lower (m ((c.tc : Thread nD τ).loc main_arg10) : (⟨S2048x128, .f32⟩ : BufTy).Contents (Elt Ideal))) (m ((c.tc : Thread nD τ).loc main_arg11) : (⟨S128, .f32⟩ : BufTy).Contents (Elt Ideal))))
          (m ((c.tc : Thread nD τ).loc main_arg1) : (⟨S2048x1024, .f32⟩ : BufTy).Contents (Elt Ideal)) (m ((c.tc : Thread nD τ).loc main_arg16) : (⟨S1024x1024, .f32⟩ : BufTy).Contents (Elt Ideal)) (m ((c.tc : Thread nD τ).loc main_arg17) : (⟨S1024, .f32⟩ : BufTy).Contents (Elt Ideal)) (m ((c.tc : Thread nD τ).loc main_arg18) : (⟨S1024x1024, .f32⟩ : BufTy).Contents (Elt Ideal)) (m ((c.tc : Thread nD τ).loc main_arg19) : (⟨S1024, .f32⟩ : BufTy).Contents (Elt Ideal)) :=
  (val_main_v174_eq (F := Ideal) m c).trans (phra_chain _ _ _ _ _ _ _ _ _ _ _ _)

end Cert.ReferenceIdeal.RefValue

end
-- ==== Proof.Claims.lean ====
/-
  The five claims. The three frames are the programs' runs with the results dropped; the idealized kernel's
  text is the kernel's own read at the extended reals (no rewrite was applied), so `preserves` is trivial; and
  the two idealized programs end with equal results because both result pairs are the same functions of the
  argument arrays: the refinement of the segment means of the gated messages (`Cert.Spec`), the gathers and
  the scatter-add quotients being the same host operations on both sides.
-/
import proofs.«180715_j12979391168960_2_alg».proof.Defs
import proofs.«180715_j12979391168960_2_alg».proof.Proof.Gen.Kernel.Frame
import proofs.«180715_j12979391168960_2_alg».proof.Proof.Gen.KernelIdeal.Frame
import proofs.«180715_j12979391168960_2_alg».proof.Proof.Gen.ReferenceIdeal.Run
import proofs.«180715_j12979391168960_2_alg».proof.Proof.Gen.Pre_finite_inputs
import proofs.«180715_j12979391168960_2_alg».proof.Proof.KernelRun
import proofs.«180715_j12979391168960_2_alg».proof.Proof.KernelValue
import proofs.«180715_j12979391168960_2_alg».proof.Proof.RefResults

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the arguments, both runs end with each result at the same function of the arguments. -/
theorem algebraic : Cert.algebraic_KernelIdeal_ReferenceIdeal := by
  intro m ρ m' ρ' _ hagree
  refine ⟨fun c => Cert.KernelIdeal.Gen.V5 m ρ c Cert.KernelIdeal.main_v82,
    fun c => Cert.KernelIdeal.Gen.V5 m ρ c Cert.KernelIdeal.main_v83,
    Cert.KernelIdeal.Run.run_values (F := Ideal) m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18, h19⟩ := hagree c
    beta_reduce
    rw [Cert.ReferenceIdeal.RefValue.res0_spec, Cert.KernelIdeal.Results.out0_spec,
      h0, h1, h2, h3, h4, h5, h6, h7, h12, h13, h14, h15]
  · obtain ⟨h0, h1, h2, h3, h4, h5, h6, h7, h8, h9, h10, h11, h12, h13, h14, h15, h16, h17, h18, h19⟩ := hagree c
    beta_reduce
    rw [Cert.ReferenceIdeal.RefValue.res1_spec, Cert.KernelIdeal.Results.out1_spec,
      h0, h1, h2, h3, h8, h9, h10, h11, h16, h17, h18, h19]

end Cert.Proof.Claims

end
-- ==== Proof.lean ====
/-
  A fused gated-message kernel (three tiled regions among host gathers and segment means) against its jnp
  reference, over the extended reals.

  For every edge the kernel forms four gated messages `src · mean_j logistic (relu (src·Ws + tgt·Wt + b))`, the
  reference the same with the two feature rows joined and one 2048-row weight matrix: a sum over 2048 joined
  columns is the sum over the first 1024 plus the sum over the last 1024, which is the only arithmetic law the
  equality uses (sums of extended reals commute and associate; no finiteness is needed). Both programs then take
  the same segment means by the same host scatter-adds and refine them by
  `M + relu (M·W₁ + b₁) + relu (T·W₂ + b₂)`, `M = (A + B)·½`. The tiling (256-row and 512-row blocks), the
  bf16 format changes and the order of the sums do not show at the extended reals.

  Modules: `Spec` (the functions), `MsgPayload` / `MsgBlocks` (region 0's four output arrays are `Spec.msg`),
  `RefinePayload` / `RefineBlocks1` / `RefineBlocks2` (regions 1 and 2 are `Spec.refine`), `KernelHost0` /
  `KernelHost1` (what the host stretches leave), `KernelRun` / `KernelValue` (the run and its results),
  `RefLaws` … `RefResults` (the reference's stages are the same functions), `Claims` (the five claims).
-/
import proofs.«180715_j12979391168960_2_alg».proof.Defs
import proofs.«180715_j12979391168960_2_alg».proof.Proof.Gen.Kernel
import proofs.«180715_j12979391168960_2_alg».proof.Proof.Gen.KernelIdeal
import proofs.«180715_j12979391168960_2_alg».proof.Proof.Gen.ReferenceIdeal
import proofs.«180715_j12979391168960_2_alg».proof.Proof.Gen.Pre_finite_inputs
import proofs.«180715_j12979391168960_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
